-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S2x800000 : Shape := ⟨2, ![2, 800000]⟩
abbrev S800000 : Shape := ⟨1, ![800000]⟩
abbrev S20000 : Shape := ⟨1, ![20000]⟩
abbrev S64x64 : Shape := ⟨2, ![64, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg10 : FVec F S64 .f32) (main_arg11 : FVec F S64 .f32) (main_arg12 : FVec F S64 .f32) (main_arg13 : FVec F S64x64 .f32) (main_arg14 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg14 main_v48 main_v49 main_v50

def fn_part1 {F : FTy → Type} [FloatOps F] (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S4x50000x64 .f32) (main_arg1 : IVec S2x800000 32) (main_arg2 : FVec F S800000 .f32) (main_arg3 : IVec S20000 32) (main_arg4 : IVec S20000 32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_v13 main_v16
-- ==== Kernel.lean ====
abbrev S4x50000x64 : Shape := ⟨3, ![4, 50000, 64]⟩
abbrev S2x800000 : Shape := ⟨2, ![2, 800000]⟩
abbrev S800000 : Shape := ⟨1, ![800000]⟩
abbrev S20000 : Shape := ⟨1, ![20000]⟩
abbrev S64x64 : Shape := ⟨2, ![64, 64]⟩
abbrev S64 : Shape := ⟨1, ![64]⟩
abbrev S200000x64 : Shape := ⟨2, ![200000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S_ : Shape := ⟨0, ![]⟩
abbrev S20000x1 : Shape := ⟨2, ![20000, 1]⟩
abbrev S20000x2 : Shape := ⟨2, ![20000, 2]⟩
abbrev S20000x64 : Shape := ⟨2, ![20000, 64]⟩
abbrev S1x800000 : Shape := ⟨2, ![1, 800000]⟩
abbrev S50000 : Shape := ⟨1, ![50000]⟩
abbrev S800000x1 : Shape := ⟨2, ![800000, 1]⟩
abbrev S50000x1 : Shape := ⟨2, ![50000, 1]⟩
abbrev S50000x4x64 : Shape := ⟨3, ![50000, 4, 64]⟩
abbrev S50000x256 : Shape := ⟨2, ![50000, 256]⟩
abbrev S800000x256 : Shape := ⟨2, ![800000, 256]⟩

abbrev nBuf : Space → Nat
  | .hbm => 184
  | .vmem => 18
  | .smem => 0
  | _ => 0

abbrev hbmTy0_0 (i : Nat) : BufTy := match i % 128 with
  | 0 => ⟨S4x50000x64, .f32⟩
  | 1 => ⟨S2x800000, .i32⟩
  | 2 => ⟨S800000, .f32⟩
  | 3 => ⟨S20000, .i32⟩
  | 4 => ⟨S20000, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S200000x64, .f32⟩
  | 16 => ⟨S64x64, .f32⟩
  | 17 => ⟨S64x64, .f32⟩
  | 18 => ⟨S64x64, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S200000x64, .f32⟩
  | 26 => ⟨S4x50000x64, .f32⟩
  | 27 => ⟨S_, .i32⟩
  | 28 => ⟨S20000, .i32⟩
  | 29 => ⟨S20000, .i1⟩
  | 30 => ⟨S_, .i32⟩
  | 31 => ⟨S20000, .i32⟩
  | 32 => ⟨S20000, .i32⟩
  | 33 => ⟨S20000, .i32⟩
  | 34 => ⟨S_, .i32⟩
  | 35 => ⟨S20000, .i32⟩
  | 36 => ⟨S20000, .i1⟩
  | 37 => ⟨S_, .i32⟩
  | 38 => ⟨S20000, .i32⟩
  | 39 => ⟨S20000, .i32⟩
  | 40 => ⟨S20000, .i32⟩
  | 41 => ⟨S20000x1, .i32⟩
  | 42 => ⟨S20000x1, .i32⟩
  | 43 => ⟨S20000x2, .i32⟩
  | 44 => ⟨S20000x64, .f32⟩
  | 45 => ⟨S64x64, .f32⟩
  | 46 => ⟨S20000x64, .f32⟩
  | 47 => ⟨S1x64, .f32⟩
  | 48 => ⟨S20000x64, .f32⟩
  | 49 => ⟨S20000x64, .f32⟩
  | 50 => ⟨S64x64, .f32⟩
  | 51 => ⟨S20000x64, .f32⟩
  | 52 => ⟨S1x64, .f32⟩
  | 53 => ⟨S20000x64, .f32⟩
  | 54 => ⟨S20000x64, .f32⟩
  | 55 => ⟨S_, .f32⟩
  | 56 => ⟨S20000, .f32⟩
  | 57 => ⟨S20000x1, .f32⟩
  | 58 => ⟨S_, .f32⟩
  | 59 => ⟨S20000x1, .f32⟩
  | 60 => ⟨S20000x1, .f32⟩
  | 61 => ⟨S20000x64, .f32⟩
  | 62 => ⟨S20000x64, .f32⟩
  | 63 => ⟨S20000x64, .f32⟩
  | 64 => ⟨S_, .f32⟩
  | 65 => ⟨S20000, .f32⟩
  | 66 => ⟨S20000x1, .f32⟩
  | 67 => ⟨S_, .f32⟩
  | 68 => ⟨S20000x1, .f32⟩
  | 69 => ⟨S20000x1, .f32⟩
  | 70 => ⟨S20000x64, .f32⟩
  | 71 => ⟨S20000x64, .f32⟩
  | 72 => ⟨S_, .f32⟩
  | 73 => ⟨S20000x1, .f32⟩
  | 74 => ⟨S20000x1, .f32⟩
  | 75 => ⟨S20000x1, .f32⟩
  | 76 => ⟨S20000x64, .f32⟩
  | 77 => ⟨S20000x64, .f32⟩
  | 78 => ⟨S1x64, .f32⟩
  | 79 => ⟨S20000x64, .f32⟩
  | 80 => ⟨S20000x64, .f32⟩
  | 81 => ⟨S1x64, .f32⟩
  | 82 => ⟨S20000x64, .f32⟩
  | 83 => ⟨S20000x64, .f32⟩
  | 84 => ⟨S_, .f32⟩
  | 85 => ⟨S20000x64, .f32⟩
  | 86 => ⟨S20000x64, .f32⟩
  | 87 => ⟨S_, .f32⟩
  | 88 => ⟨S20000, .f32⟩
  | 89 => ⟨S20000x1, .f32⟩
  | 90 => ⟨S_, .f32⟩
  | 91 => ⟨S20000x1, .f32⟩
  | 92 => ⟨S20000x1, .f32⟩
  | 93 => ⟨S20000x64, .f32⟩
  | 94 => ⟨S20000x64, .f32⟩
  | 95 => ⟨S20000x64, .f32⟩
  | 96 => ⟨S_, .f32⟩
  | 97 => ⟨S20000, .f32⟩
  | 98 => ⟨S20000x1, .f32⟩
  | 99 => ⟨S_, .f32⟩
  | 100 => ⟨S20000x1, .f32⟩
  | 101 => ⟨S20000x1, .f32⟩
  | 102 => ⟨S20000x64, .f32⟩
  | 103 => ⟨S20000x64, .f32⟩
  | 104 => ⟨S_, .f32⟩
  | 105 => ⟨S20000x1, .f32⟩
  | 106 => ⟨S20000x1, .f32⟩
  | 107 => ⟨S20000x1, .f32⟩
  | 108 => ⟨S20000x64, .f32⟩
  | 109 => ⟨S20000x64, .f32⟩
  | 110 => ⟨S1x64, .f32⟩
  | 111 => ⟨S20000x64, .f32⟩
  | 112 => ⟨S20000x64, .f32⟩
  | 113 => ⟨S1x64, .f32⟩
  | 114 => ⟨S20000x64, .f32⟩
  | 115 => ⟨S20000x64, .f32⟩
  | 116 => ⟨S_, .f32⟩
  | 117 => ⟨S20000x64, .f32⟩
  | 118 => ⟨S20000x64, .f32⟩
  | 119 => ⟨S_, .f32⟩
  | 120 => ⟨S20000x64, .f32⟩
  | 121 => ⟨S20000x64, .f32⟩
  | 122 => ⟨S_, .f32⟩
  | 123 => ⟨S20000x64, .f32⟩
  | 124 => ⟨S20000x64, .f32⟩
  | 125 => ⟨S20000x64, .f32⟩
  | 126 => ⟨S_, .i32⟩
  | 127 => ⟨S20000, .i32⟩
  | _ => ⟨S4x50000x64, .f32⟩

abbrev hbmTy0_1 (i : Nat) : BufTy := match i % 128 with
  | 0 => ⟨S20000, .i1⟩
  | 1 => ⟨S_, .i32⟩
  | 2 => ⟨S20000, .i32⟩
  | 3 => ⟨S20000, .i32⟩
  | 4 => ⟨S20000, .i32⟩
  | 5 => ⟨S_, .i32⟩
  | 6 => ⟨S20000, .i32⟩
  | 7 => ⟨S20000, .i1⟩
  | 8 => ⟨S_, .i32⟩
  | 9 => ⟨S20000, .i32⟩
  | 10 => ⟨S20000, .i32⟩
  | 11 => ⟨S20000, .i32⟩
  | 12 => ⟨S20000x1, .i32⟩
  | 13 => ⟨S20000x1, .i32⟩
  | 14 => ⟨S20000x2, .i32⟩
  | 15 => ⟨S4x50000x64, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x4x64, .f32⟩
  | 31 => ⟨S50000x256, .f32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x256, .f32⟩
  | 42 => ⟨S800000x256, .f32⟩
  | 43 => ⟨S800000x256, .f32⟩
  | 44 => ⟨S_, .f32⟩
  | 45 => ⟨S50000x256, .f32⟩
  | 46 => ⟨S800000x1, .i32⟩
  | 47 => ⟨S50000x256, .f32⟩
  | 48 => ⟨S50000x256, .f32⟩
  | 49 => ⟨S50000x256, .f32⟩
  | 50 => ⟨S50000x4x64, .f32⟩
  | 51 => ⟨S4x50000x64, .f32⟩
  | 52 => ⟨S200000x64, .f32⟩
  | 53 => ⟨S1x64, .f32⟩
  | 54 => ⟨S200000x64, .f32⟩
  | 55 => ⟨S4x50000x64, .f32⟩
  | _ => ⟨S4x50000x64, .f32⟩

abbrev hbmTy (i : Nat) : BufTy := match i / 128 with
  | 0 => hbmTy0_0 i
  | 1 => hbmTy0_1 i
  | _ => ⟨S4x50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call0_cst : Ref sig .tc := ⟨.hbm, 84, rfl⟩
abbrev main_call0_v0 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_14 : Ref sig .tc := ⟨.hbm, 126, rfl⟩
abbrev main_v91 : Ref sig .tc := ⟨.hbm, 127, rfl⟩
abbrev main_v92 : Ref sig .tc := ⟨.hbm, 128, rfl⟩
abbrev main_c_15 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_16 : Ref sig .tc := ⟨.hbm, 133, rfl⟩
abbrev main_v96 : Ref sig .tc := ⟨.hbm, 134, rfl⟩
abbrev main_v97 : Ref sig .tc := ⟨.hbm, 135, rfl⟩
abbrev main_c_17 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_18 : Ref sig .tc := ⟨.hbm, 148, rfl⟩
abbrev main_v109 : Ref sig .tc := ⟨.hbm, 149, rfl⟩
abbrev main_cst_19 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_20 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_21 : Ref sig .tc := ⟨.hbm, 161, rfl⟩
abbrev main_v119 : Ref sig .tc := ⟨.hbm, 162, rfl⟩
abbrev main_v120 : Ref sig .tc := ⟨.hbm, 163, rfl⟩
abbrev main_c_22 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_23 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x50000x64_S200000x64 : S4x50000x64.ShapeCasts S200000x64
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S200000x64_S4x50000x64 : S200000x64.ShapeCasts S4x50000x64
  bcast_S_S20000 : S_.BroadcastsInDim S20000 (![] : Fin 0 → Fin S20000.rank)
  bcast_S20000_S20000x1_0 : S20000.BroadcastsInDim S20000x1 (![0] : Fin 1 → Fin S20000x1.rank)
  concatenates_S20000x1_S20000x1_S20000x2_d1 : Shape.Concatenates [S20000x1, S20000x1] S20000x2 1
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  reducesTo_S20000x64_S20000_d1 : S20000x64.ReducesTo [1] S20000
  h_S_ : 0 < S_.numel
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S_S20000x64 : S_.BroadcastsInDim S20000x64 (![] : Fin 0 → Fin S20000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S4x50000x64_S50000x4x64_1_0_2 : S4x50000x64.Transposes [1, 0, 2] S50000x4x64
  shapeCasts_S50000x4x64_S50000x256 : S50000x4x64.ShapeCasts S50000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S50000x256_S50000x4x64 : S50000x256.ShapeCasts S50000x4x64
  transposes_S50000x4x64_S4x50000x64_1_0_2 : S50000x4x64.Transposes [1, 0, 2] S4x50000x64
  dot_S5000x64_S64x64_S5000x64_1_0_0_1_n_n_wf : DotDims.WF S5000x64 S64x64 S5000x64 [1] [0] [0] [1] [] []
  gather_S4x50000x64_S20000x2_S20000x64_1_01_n_n_01_1_1164_wf : GatherDims.WF S4x50000x64 S20000x2 S20000x64 [1] [0, 1] [] [0, 1] [] 1 ![1, 1, 64]
  dot_S20000x64_S64x64_S20000x64_1_0_0_1_n_n_wf : DotDims.WF S20000x64 S64x64 S20000x64 [1] [0] [0] [1] [] []
  scatter_S4x50000x64_S20000x2_S20000x64_1_01_01_1_wf : ScatterDims.WF S4x50000x64 S20000x2 S20000x64 [1] [0, 1] [0, 1] 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S200000x64.size a
  hwx0_9 : ∀ i : grid0.Coords, EltTy.bits .f32 = 32 ∨ (Rect.block (s := S200000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S4x50000x64_S20000x2_S20000x64_1_01_n_n_01_1_1164 : GatherDims S4x50000x64 S20000x2 S20000x64 where
  offsetDims := [1]
  collapsedSliceDims := [0, 1]
  operandBatchingDims := []
  startIndicesBatchingDims := []
  startIndexMap := [0, 1]
  indexVectorDim := 1
  sliceSizes := ![1, 1, 64]
  wf := gather_S4x50000x64_S20000x2_S20000x64_1_01_n_n_01_1_1164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S4x50000x64_S20000x2_S20000x64_1_01_01_1 : ScatterDims S4x50000x64 S20000x2 S20000x64 where
  updateWindowDims := [1]
  insertedWindowDims := [0, 1]
  scatterDimsToOperandDims := [0, 1]
  indexVectorDim := 1
  wf := scatter_S4x50000x64_S20000x2_S20000x64_1_01_01_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v135) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v136) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v137) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x50000x64 : Shape := ⟨3, ![4, 50000, 64]⟩
abbrev S2x800000 : Shape := ⟨2, ![2, 800000]⟩
abbrev S800000 : Shape := ⟨1, ![800000]⟩
abbrev S20000 : Shape := ⟨1, ![20000]⟩
abbrev S64x64 : Shape := ⟨2, ![64, 64]⟩
abbrev S64 : Shape := ⟨1, ![64]⟩
abbrev S1x1x64 : Shape := ⟨3, ![1, 1, 64]⟩
abbrev S_ : Shape := ⟨0, ![]⟩
abbrev S4x50000 : Shape := ⟨2, ![4, 50000]⟩
abbrev S4x50000x1 : Shape := ⟨3, ![4, 50000, 1]⟩
abbrev S20000x1 : Shape := ⟨2, ![20000, 1]⟩
abbrev S20000x2 : Shape := ⟨2, ![20000, 2]⟩
abbrev S20000x64 : Shape := ⟨2, ![20000, 64]⟩
abbrev S1x800000 : Shape := ⟨2, ![1, 800000]⟩
abbrev S50000 : Shape := ⟨1, ![50000]⟩
abbrev S800000x1 : Shape := ⟨2, ![800000, 1]⟩
abbrev S50000x1 : Shape := ⟨2, ![50000, 1]⟩
abbrev S4x800000x64 : Shape := ⟨3, ![4, 800000, 64]⟩
abbrev S1x800000x1 : Shape := ⟨3, ![1, 800000, 1]⟩
abbrev S50000x64 : Shape := ⟨2, ![50000, 64]⟩
abbrev S1x50000x1 : Shape := ⟨3, ![1, 50000, 1]⟩

abbrev nBuf : Space → Nat
  | .hbm => 197
  | .vmem => 0
  | .smem => 0
  | _ => 0

abbrev hbmTy0_0 (i : Nat) : BufTy := match i % 128 with
  | 0 => ⟨S4x50000x64, .f32⟩
  | 1 => ⟨S2x800000, .i32⟩
  | 2 => ⟨S800000, .f32⟩
  | 3 => ⟨S20000, .i32⟩
  | 4 => ⟨S20000, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S4x50000x64, .f32⟩
  | 16 => ⟨S1x1x64, .f32⟩
  | 17 => ⟨S4x50000x64, .f32⟩
  | 18 => ⟨S4x50000x64, .f32⟩
  | 19 => ⟨S_, .f32⟩
  | 20 => ⟨S4x50000, .f32⟩
  | 21 => ⟨S4x50000x1, .f32⟩
  | 22 => ⟨S_, .f32⟩
  | 23 => ⟨S4x50000x1, .f32⟩
  | 24 => ⟨S4x50000x1, .f32⟩
  | 25 => ⟨S4x50000x64, .f32⟩
  | 26 => ⟨S4x50000x64, .f32⟩
  | 27 => ⟨S4x50000x64, .f32⟩
  | 28 => ⟨S_, .f32⟩
  | 29 => ⟨S4x50000, .f32⟩
  | 30 => ⟨S4x50000x1, .f32⟩
  | 31 => ⟨S_, .f32⟩
  | 32 => ⟨S4x50000x1, .f32⟩
  | 33 => ⟨S4x50000x1, .f32⟩
  | 34 => ⟨S4x50000x64, .f32⟩
  | 35 => ⟨S4x50000x64, .f32⟩
  | 36 => ⟨S_, .f32⟩
  | 37 => ⟨S4x50000x1, .f32⟩
  | 38 => ⟨S4x50000x1, .f32⟩
  | 39 => ⟨S4x50000x1, .f32⟩
  | 40 => ⟨S4x50000x64, .f32⟩
  | 41 => ⟨S4x50000x64, .f32⟩
  | 42 => ⟨S1x1x64, .f32⟩
  | 43 => ⟨S4x50000x64, .f32⟩
  | 44 => ⟨S4x50000x64, .f32⟩
  | 45 => ⟨S1x1x64, .f32⟩
  | 46 => ⟨S4x50000x64, .f32⟩
  | 47 => ⟨S4x50000x64, .f32⟩
  | 48 => ⟨S_, .f32⟩
  | 49 => ⟨S4x50000x64, .f32⟩
  | 50 => ⟨S4x50000x64, .f32⟩
  | 51 => ⟨S4x50000x64, .f32⟩
  | 52 => ⟨S1x1x64, .f32⟩
  | 53 => ⟨S4x50000x64, .f32⟩
  | 54 => ⟨S4x50000x64, .f32⟩
  | 55 => ⟨S_, .f32⟩
  | 56 => ⟨S4x50000, .f32⟩
  | 57 => ⟨S4x50000x1, .f32⟩
  | 58 => ⟨S_, .f32⟩
  | 59 => ⟨S4x50000x1, .f32⟩
  | 60 => ⟨S4x50000x1, .f32⟩
  | 61 => ⟨S4x50000x64, .f32⟩
  | 62 => ⟨S4x50000x64, .f32⟩
  | 63 => ⟨S4x50000x64, .f32⟩
  | 64 => ⟨S_, .f32⟩
  | 65 => ⟨S4x50000, .f32⟩
  | 66 => ⟨S4x50000x1, .f32⟩
  | 67 => ⟨S_, .f32⟩
  | 68 => ⟨S4x50000x1, .f32⟩
  | 69 => ⟨S4x50000x1, .f32⟩
  | 70 => ⟨S4x50000x64, .f32⟩
  | 71 => ⟨S4x50000x64, .f32⟩
  | 72 => ⟨S_, .f32⟩
  | 73 => ⟨S4x50000x1, .f32⟩
  | 74 => ⟨S4x50000x1, .f32⟩
  | 75 => ⟨S4x50000x1, .f32⟩
  | 76 => ⟨S4x50000x64, .f32⟩
  | 77 => ⟨S4x50000x64, .f32⟩
  | 78 => ⟨S1x1x64, .f32⟩
  | 79 => ⟨S4x50000x64, .f32⟩
  | 80 => ⟨S4x50000x64, .f32⟩
  | 81 => ⟨S1x1x64, .f32⟩
  | 82 => ⟨S4x50000x64, .f32⟩
  | 83 => ⟨S4x50000x64, .f32⟩
  | 84 => ⟨S_, .f32⟩
  | 85 => ⟨S4x50000x64, .f32⟩
  | 86 => ⟨S4x50000x64, .f32⟩
  | 87 => ⟨S_, .f32⟩
  | 88 => ⟨S4x50000x64, .f32⟩
  | 89 => ⟨S4x50000x64, .f32⟩
  | 90 => ⟨S_, .f32⟩
  | 91 => ⟨S4x50000x64, .f32⟩
  | 92 => ⟨S4x50000x64, .f32⟩
  | 93 => ⟨S4x50000x64, .f32⟩
  | 94 => ⟨S_, .i32⟩
  | 95 => ⟨S20000, .i32⟩
  | 96 => ⟨S20000, .i1⟩
  | 97 => ⟨S_, .i32⟩
  | 98 => ⟨S20000, .i32⟩
  | 99 => ⟨S20000, .i32⟩
  | 100 => ⟨S20000, .i32⟩
  | 101 => ⟨S_, .i32⟩
  | 102 => ⟨S20000, .i32⟩
  | 103 => ⟨S20000, .i1⟩
  | 104 => ⟨S_, .i32⟩
  | 105 => ⟨S20000, .i32⟩
  | 106 => ⟨S20000, .i32⟩
  | 107 => ⟨S20000, .i32⟩
  | 108 => ⟨S20000x1, .i32⟩
  | 109 => ⟨S20000x1, .i32⟩
  | 110 => ⟨S20000x2, .i32⟩
  | 111 => ⟨S20000x64, .f32⟩
  | 112 => ⟨S_, .f32⟩
  | 113 => ⟨S20000x64, .f32⟩
  | 114 => ⟨S20000x64, .f32⟩
  | 115 => ⟨S_, .i32⟩
  | 116 => ⟨S20000, .i32⟩
  | 117 => ⟨S20000, .i1⟩
  | 118 => ⟨S_, .i32⟩
  | 119 => ⟨S20000, .i32⟩
  | 120 => ⟨S20000, .i32⟩
  | 121 => ⟨S20000, .i32⟩
  | 122 => ⟨S_, .i32⟩
  | 123 => ⟨S20000, .i32⟩
  | 124 => ⟨S20000, .i1⟩
  | 125 => ⟨S_, .i32⟩
  | 126 => ⟨S20000, .i32⟩
  | 127 => ⟨S20000, .i32⟩
  | _ => ⟨S4x50000x64, .f32⟩

abbrev hbmTy0_1 (i : Nat) : BufTy := match i % 128 with
  | 0 => ⟨S20000, .i32⟩
  | 1 => ⟨S20000x1, .i32⟩
  | 2 => ⟨S20000x1, .i32⟩
  | 3 => ⟨S20000x2, .i32⟩
  | 4 => ⟨S20000x64, .f32⟩
  | 5 => ⟨S_, .f32⟩
  | 6 => ⟨S20000x64, .f32⟩
  | 7 => ⟨S20000x64, .f32⟩
  | 8 => ⟨S20000x64, .f32⟩
  | 9 => ⟨S_, .i32⟩
  | 10 => ⟨S20000, .i32⟩
  | 11 => ⟨S20000, .i1⟩
  | 12 => ⟨S_, .i32⟩
  | 13 => ⟨S20000, .i32⟩
  | 14 => ⟨S20000, .i32⟩
  | 15 => ⟨S20000, .i32⟩
  | 16 => ⟨S_, .i32⟩
  | 17 => ⟨S20000, .i32⟩
  | 18 => ⟨S20000, .i1⟩
  | 19 => ⟨S_, .i32⟩
  | 20 => ⟨S20000, .i32⟩
  | 21 => ⟨S20000, .i32⟩
  | 22 => ⟨S20000, .i32⟩
  | 23 => ⟨S20000x1, .i32⟩
  | 24 => ⟨S20000x1, .i32⟩
  | 25 => ⟨S20000x2, .i32⟩
  | 26 => ⟨S4x50000x64, .f32⟩
  | 27 => ⟨S1x800000, .i32⟩
  | 28 => ⟨S800000, .i32⟩
  | 29 => ⟨S1x800000, .i32⟩
  | 30 => ⟨S800000, .i32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S4x800000x64, .f32⟩
  | 51 => ⟨S1x800000x1, .f32⟩
  | 52 => ⟨S4x800000x64, .f32⟩
  | 53 => ⟨S4x800000x64, .f32⟩
  | 54 => ⟨S_, .f32⟩
  | 55 => ⟨S50000x64, .f32⟩
  | 56 => ⟨S800000x1, .i32⟩
  | 57 => ⟨S4x50000x64, .f32⟩
  | 58 => ⟨S4x50000x64, .f32⟩
  | 59 => ⟨S1x50000x1, .f32⟩
  | 60 => ⟨S4x50000x64, .f32⟩
  | 61 => ⟨S4x50000x64, .f32⟩
  | 62 => ⟨S4x50000x64, .f32⟩
  | 63 => ⟨S1x1x64, .f32⟩
  | 64 => ⟨S4x50000x64, .f32⟩
  | 65 => ⟨S4x50000x64, .f32⟩
  | 66 => ⟨S_, .f32⟩
  | 67 => ⟨S4x50000x64, .f32⟩
  | 68 => ⟨S4x50000x64, .f32⟩
  | _ => ⟨S4x50000x64, .f32⟩

abbrev hbmTy (i : Nat) : BufTy := match i / 128 with
  | 0 => hbmTy0_0 i
  | 1 => hbmTy0_1 i
  | _ => ⟨S4x50000x64, .f32⟩

abbrev bufTy : (tb : Table) → Fin (tcTables nBuf tb) → BufTy
  | .hbm, ⟨i, _⟩ => hbmTy i
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c : Ref sig .tc := ⟨.hbm, 94, rfl⟩
abbrev main_v63 : Ref sig .tc := ⟨.hbm, 95, rfl⟩
abbrev main_v64 : Ref sig .tc := ⟨.hbm, 96, rfl⟩
abbrev main_c_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_c_15 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_17 : Ref sig .tc := ⟨.hbm, 122, rfl⟩
abbrev main_v84 : Ref sig .tc := ⟨.hbm, 123, rfl⟩
abbrev main_v85 : Ref sig .tc := ⟨.hbm, 124, rfl⟩
abbrev main_c_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_20 : Ref sig .tc := ⟨.hbm, 137, rfl⟩
abbrev main_v96 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_v101 : Ref sig .tc := ⟨.hbm, 145, rfl⟩
abbrev main_v102 : Ref sig .tc := ⟨.hbm, 146, rfl⟩
abbrev main_c_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_cst_25 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_26 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_c_27 : Ref sig .tc := ⟨.hbm, 170, rfl⟩
abbrev main_v122 : Ref sig .tc := ⟨.hbm, 171, rfl⟩
abbrev main_v123 : Ref sig .tc := ⟨.hbm, 172, rfl⟩
abbrev main_c_28 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_29 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_call2_cst : Ref sig .tc := ⟨.hbm, 194, rfl⟩
abbrev main_call2_v0 : Ref sig .tc := ⟨.hbm, 195, rfl⟩
abbrev main_v143 : Ref sig .tc := ⟨.hbm, 196, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  reducesTo_S4x50000x64_S4x50000_d2 : S4x50000x64.ReducesTo [2] S4x50000
  h_S_ : 0 < S_.numel
  bcast_S4x50000_S4x50000x1_0_1 : S4x50000.BroadcastsInDim S4x50000x1 (![0, 1] : Fin 2 → Fin S4x50000x1.rank)
  bcast_S_S4x50000x1 : S_.BroadcastsInDim S4x50000x1 (![] : Fin 0 → Fin S4x50000x1.rank)
  bcast_S4x50000x1_S4x50000x64_0_1_2 : S4x50000x1.BroadcastsInDim S4x50000x64 (![0, 1, 2] : Fin 3 → Fin S4x50000x64.rank)
  bcast_S_S4x50000x64 : S_.BroadcastsInDim S4x50000x64 (![] : Fin 0 → Fin S4x50000x64.rank)
  bcast_S_S20000 : S_.BroadcastsInDim S20000 (![] : Fin 0 → Fin S20000.rank)
  bcast_S20000_S20000x1_0 : S20000.BroadcastsInDim S20000x1 (![0] : Fin 1 → Fin S20000x1.rank)
  concatenates_S20000x1_S20000x1_S20000x2_d1 : Shape.Concatenates [S20000x1, S20000x1] S20000x2 1
  bcast_S_S20000x64 : S_.BroadcastsInDim S20000x64 (![] : Fin 0 → Fin S20000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S1x800000x1_1_2 : S800000x1.BroadcastsInDim S1x800000x1 (![1, 2] : Fin 2 → Fin S1x800000x1.rank)
  bcast_S1x800000x1_S4x800000x64_0_1_2 : S1x800000x1.BroadcastsInDim S4x800000x64 (![0, 1, 2] : Fin 3 → Fin S4x800000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  bcast_S50000x1_S1x50000x1_1_2 : S50000x1.BroadcastsInDim S1x50000x1 (![1, 2] : Fin 2 → Fin S1x50000x1.rank)
  bcast_S1x50000x1_S4x50000x64_0_1_2 : S1x50000x1.BroadcastsInDim S4x50000x64 (![0, 1, 2] : Fin 3 → Fin S4x50000x64.rank)
  dot_S4x50000x64_S64x64_S4x50000x64_2_1_01_0_n_n_wf : DotDims.WF S4x50000x64 S64x64 S4x50000x64 [2] [1] [0, 1] [0] [] []
  gather_S4x50000x64_S20000x2_S20000x64_1_01_n_n_01_1_1164_wf : GatherDims.WF S4x50000x64 S20000x2 S20000x64 [1] [0, 1] [] [0, 1] [] 1 ![1, 1, 64]
  scatter_S4x50000x64_S20000x2_S20000x64_1_01_01_1_wf : ScatterDims.WF S4x50000x64 S20000x2 S20000x64 [1] [0, 1] [0, 1] 1
  scatter_S50000_S800000x1_S800000_n_0_0_1_wf : ScatterDims.WF S50000 S800000x1 S800000 [] [0] [0] 1
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1

variable [Facts₀]

def dot_S4x50000x64_S64x64_S4x50000x64_2_1_01_0_n_n : DotDims S4x50000x64 S64x64 S4x50000x64 where
  lhsContracting := [2]
  rhsContracting := [1]
  lhsNonContracting := [0, 1]
  rhsNonContracting := [0]
  lhsBatch := []
  rhsBatch := []
  wf := dot_S4x50000x64_S64x64_S4x50000x64_2_1_01_0_n_n_wf
def gather_S4x50000x64_S20000x2_S20000x64_1_01_n_n_01_1_1164 : GatherDims S4x50000x64 S20000x2 S20000x64 where
  offsetDims := [1]
  collapsedSliceDims := [0, 1]
  operandBatchingDims := []
  startIndicesBatchingDims := []
  startIndexMap := [0, 1]
  indexVectorDim := 1
  sliceSizes := ![1, 1, 64]
  wf := gather_S4x50000x64_S20000x2_S20000x64_1_01_n_n_01_1_1164_wf
def scatter_S4x50000x64_S20000x2_S20000x64_1_01_01_1 : ScatterDims S4x50000x64 S20000x2 S20000x64 where
  updateWindowDims := [1]
  insertedWindowDims := [0, 1]
  scatterDimsToOperandDims := [0, 1]
  indexVectorDim := 1
  wf := scatter_S4x50000x64_S20000x2_S20000x64_1_01_01_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf

class Facts : Prop extends Facts₀ where

variable [Facts]
-- ==== Proof.KRun.lean ====
/-
  The idealized kernel's run with its result named.

  @main is a chain of host stretches and two kernel regions. The buffer contents at each boundary of that chain are a
  fold from the launch memory; at the last boundary they are `W9`. Every weakly fair execution of @main terminates
  without a fault, and the final memory holds, at every unscoped buffer, the last boundary's contents. Read at the
  result buffer this names the result; read at an argument buffer it gives the launch contents back.
-/
import proofs.«134245_j55130200211996_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array ends as launched. -/
theorem run_result : θ_run defs (onTc (τ := τ) (main (F := F))) ⟨m, fun _ => 0, ρ⟩ (fun r => ∀ c : Dev nD,
      r.2.mem ((c.tc : Thread nD τ).loc main_v138) = W9 m ρ c (Proc.devRef .tc main_v138)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v138 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c)⟩)

end Cert.KernelIdeal.RunValue

end
-- ==== Proof.KChain.lean ====
/-
  The idealized kernel's host operations between its two regions, as functions of the arrays they read.

  After the first region the program overwrites the labeled positions of the mixed features (a set-scatter), then
  aggregates over the edges: the edge list's two rows are the target and the source node of each edge; the features
  are laid out with the four batches side by side, `[N, 4·64]`; every edge gathers its source node's 256 lanes,
  scales them by the edge weight and adds them into its target node's row; each row is divided by the node's number
  of incoming edges, at least one; the result goes back to `[4, N, 64]` and is flattened to rows for the second
  region. Each function below is one of these steps; the equations after them read the program's buffers, at the
  boundary before the second region, as these functions of one another, and its argument buffers as launched.
-/
import proofs.«134245_j55130200211996_2_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

/-- The target node of each edge: the first row of the edge list. -/
def edgeRow (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The source node of each edge: the second row of the edge list. -/
def edgeCol (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The target nodes as one index per update row. -/
def rowIdx (ei : (⟨S2x800000, .i32⟩ : BufTy).Contents (Elt Ideal)) : (⟨S800000x1, .i32⟩ : BufTy).Contents (Elt Ideal) :=
  broadcastInDim S800000x1 ![0] bcast_S800000_S800000x1_0 (edgeRow ei)

/-- Each node's number of incoming edges (a sum of ones over the edges that target it), at least one. -/
def degree (ei : (⟨S2x800000, .i32⟩ : BufTy).Contents (Elt Ideal)) : (⟨S50000, .f32⟩ : BufTy).Contents (Elt Ideal) :=
  maximumf (F := Ideal) (Host.scatterAdd (F := Ideal) scatter_S50000_S800000x1_S800000_n_0_0_1
      (broadcastInDim S50000 ![] bcast_S_S50000 (constant (F := Ideal) S_ .f32 0x00000000#32)) (rowIdx ei)
      (broadcastInDim S800000 ![] bcast_S_S800000 (constant (F := Ideal) S_ .f32 0x3F800000#32)))
    (broadcastInDim S50000 ![] bcast_S_S50000 (constant (F := Ideal) S_ .f32 0x3F800000#32))

/-- The source nodes, a negative index counted from the end, as one index per gathered row. -/
def colIdx (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (edgeCol ei) (broadcastInDim S800000 ![] bcast_S_S800000 (constantI S_ 32 0#32)))
      (addi (edgeCol ei) (broadcastInDim S800000 ![] bcast_S_S800000 (constantI S_ 32 50000#32))) (edgeCol ei))

/-- The features with the four batches side by side: `[4, N, 64] → [N, 4, 64] → [N, 256]`. -/
def dense (x : (⟨S4x50000x64, .f32⟩ : BufTy).Contents (Elt Ideal)) : (⟨S50000x256, .f32⟩ : BufTy).Contents (Elt Ideal) :=
  shapeCast S50000x256 (transpose S50000x4x64 [1, 0, 2] x transposes_S4x50000x64_S50000x4x64_1_0_2) shapeCasts_S50000x4x64_S50000x256

/-- The weighted messages summed into their target rows. -/
def aggSum (x : (⟨S4x50000x64, .f32⟩ : BufTy).Contents (Elt Ideal)) (ei : (⟨S2x800000, .i32⟩ : BufTy).Contents (Elt Ideal))
    (ew : (⟨S800000, .f32⟩ : BufTy).Contents (Elt Ideal)) : (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32)) (rowIdx ei)
    (mulf (F := Ideal) (broadcastInDim S800000x256 ![0, 1] bcast_S800000x1_S800000x256_0_1 (broadcastInDim S800000x1 ![0] bcast_S800000_S800000x1_0 ew))
      (Host.gather gather_S50000x256_S800000x1_S800000x256_1_0_n_n_0_1_1256 (dense x) (colIdx ei)))

/-- The mean aggregation, back in `[4, N, 64]` and flattened to rows. -/
def agg (x : (⟨S4x50000x64, .f32⟩ : BufTy).Contents (Elt Ideal)) (ei : (⟨S2x800000, .i32⟩ : BufTy).Contents (Elt Ideal))
    (ew : (⟨S800000, .f32⟩ : BufTy).Contents (Elt Ideal)) : (⟨S200000x64, .f32⟩ : BufTy).Contents (Elt Ideal) :=
  shapeCast S200000x64 (transpose S4x50000x64 [1, 0, 2]
    (shapeCast S50000x4x64 (Host.divf (F := Ideal) (φ := .f32) (aggSum x ei ew)
      (broadcastInDim S50000x256 ![0, 1] bcast_S50000x1_S50000x256_0_1 (broadcastInDim S50000x1 ![0] bcast_S50000_S50000x1_0 (degree ei))))
      shapeCasts_S50000x256_S50000x4x64) transposes_S50000x4x64_S4x50000x64_1_0_2) shapeCasts_S4x50000x64_S200000x64

variable (m : (ℓ : Loc nD τ sig) → Buf (Elt Ideal) ℓ) (ρ : Dev nD → PrngReg)

/-! ## The argument buffers after the first region are as launched -/

theorem W2_arg0 (c : Dev nD) : W2 m ρ c (Proc.devRef .tc main_arg0) = m ((c : Thread nD τ).loc main_arg0) := by
  rw [W2_of_ne m ρ c main_arg0 (by decide)]
  after_results_simp
theorem W2_arg1 (c : Dev nD) : W2 m ρ c (Proc.devRef .tc main_arg1) = m ((c : Thread nD τ).loc main_arg1) := by
  rw [W2_of_ne m ρ c main_arg1 (by decide)]
  after_results_simp
theorem W2_arg2 (c : Dev nD) : W2 m ρ c (Proc.devRef .tc main_arg2) = m ((c : Thread nD τ).loc main_arg2) := by
  rw [W2_of_ne m ρ c main_arg2 (by decide)]
  after_results_simp
theorem W2_arg3 (c : Dev nD) : W2 m ρ c (Proc.devRef .tc main_arg3) = m ((c : Thread nD τ).loc main_arg3) := by
  rw [W2_of_ne m ρ c main_arg3 (by decide)]
  after_results_simp
theorem W2_arg4 (c : Dev nD) : W2 m ρ c (Proc.devRef .tc main_arg4) = m ((c : Thread nD τ).loc main_arg4) := by
  rw [W2_of_ne m ρ c main_arg4 (by decide)]
  after_results_simp
theorem W2_arg5 (c : Dev nD) : W2 m ρ c (Proc.devRef .tc main_arg5) = m ((c : Thread nD τ).loc main_arg5) := by
  rw [W2_of_ne m ρ c main_arg5 (by decide)]
  after_results_simp
theorem W2_arg6 (c : Dev nD) : W2 m ρ c (Proc.devRef .tc main_arg6) = m ((c : Thread nD τ).loc main_arg6) := by
  rw [W2_of_ne m ρ c main_arg6 (by decide)]
  after_results_simp
theorem W2_arg7 (c : Dev nD) : W2 m ρ c (Proc.devRef .tc main_arg7) = m ((c : Thread nD τ).loc main_arg7) := by
  rw [W2_of_ne m ρ c main_arg7 (by decide)]
  after_results_simp
theorem W2_arg8 (c : Dev nD) : W2 m ρ c (Proc.devRef .tc main_arg8) = m ((c : Thread nD τ).loc main_arg8) := by
  rw [W2_of_ne m ρ c main_arg8 (by decide)]
  after_results_simp
theorem W2_arg9 (c : Dev nD) : W2 m ρ c (Proc.devRef .tc main_arg9) = m ((c : Thread nD τ).loc main_arg9) := by
  rw [W2_of_ne m ρ c main_arg9 (by decide)]
  after_results_simp
theorem W2_arg10 (c : Dev nD) : W2 m ρ c (Proc.devRef .tc main_arg10) = m ((c : Thread nD τ).loc main_arg10) := by
  rw [W2_of_ne m ρ c main_arg10 (by decide)]
  after_results_simp
theorem W2_arg11 (c : Dev nD) : W2 m ρ c (Proc.devRef .tc main_arg11) = m ((c : Thread nD τ).loc main_arg11) := by
  rw [W2_of_ne m ρ c main_arg11 (by decide)]
  after_results_simp
theorem W2_arg12 (c : Dev nD) : W2 m ρ c (Proc.devRef .tc main_arg12) = m ((c : Thread nD τ).loc main_arg12) := by
  rw [W2_of_ne m ρ c main_arg12 (by decide)]
  after_results_simp
theorem W2_arg13 (c : Dev nD) : W2 m ρ c (Proc.devRef .tc main_arg13) = m ((c : Thread nD τ).loc main_arg13) := by
  rw [W2_of_ne m ρ c main_arg13 (by decide)]
  after_results_simp
theorem W2_arg14 (c : Dev nD) : W2 m ρ c (Proc.devRef .tc main_arg14) = m ((c : Thread nD τ).loc main_arg14) := by
  rw [W2_of_ne m ρ c main_arg14 (by decide)]
  after_results_simp
theorem W6_arg1 (c : Dev nD) : W6 m ρ c (Proc.devRef .tc main_arg1) = m ((c : Thread nD τ).loc main_arg1) := by
  after_results_simp
  exact W2_arg1 m ρ c
theorem W6_arg2 (c : Dev nD) : W6 m ρ c (Proc.devRef .tc main_arg2) = m ((c : Thread nD τ).loc main_arg2) := by
  after_results_simp
  exact W2_arg2 m ρ c

/-! ## The last host stretch before the second region, from any incoming contents -/

section Stretch

variable (V : Valuation τ sig (Elt Ideal))

/-- The labeled positions overwritten: a set-scatter of the mixed features at the index pairs with the labeled mix. -/
theorem s4_v104 : StableHlo.after hostOps1_4 V (Proc.devRef .tc main_v104)
    = Host.scatter scatter_S4x50000x64_S20000x2_S20000x64_1_01_01_1 (fun _ b => b) (V (Proc.devRef .tc main_v11))
        (StableHlo.after hostOps1_4 V (Proc.devRef .tc main_v103)) (StableHlo.after hostOps1_4 V (Proc.devRef .tc main_v90)) := by
  after_results_simp <;> rfl

/-- The second region's row input is the mean aggregation of the overwritten features. -/
theorem s4_v135 : StableHlo.after hostOps1_4 V (Proc.devRef .tc main_v135)
    = agg (StableHlo.after hostOps1_4 V (Proc.devRef .tc main_v104)) (V (Proc.devRef .tc main_arg1)) (V (Proc.devRef .tc main_arg2)) := by
  unfold agg aggSum degree colIdx dense rowIdx edgeRow edgeCol
  after_results_simp <;> rfl

end Stretch

/-! ## The buffers between the regions -/

/-- The mixed features in `[4, N, 64]`: the first region's output array, reshaped. -/
theorem v11_eq (c : Dev nD) : W6 m ρ c (Proc.devRef .tc main_v11)
    = shapeCast S4x50000x64 ((dat0 (V1 m ρ) c).arrAt 9 cfg0.N) shapeCasts_S200000x64_S4x50000x64 := by
  after_results_simp
  rw [show W2 m ρ c (Proc.devRef .tc main_v10) = (dat0 (V1 m ρ) c).arrAt 9 cfg0.N from W2_arr m ρ c 9]
  rfl

/-- The labeled positions overwritten. -/
theorem v104_eq (c : Dev nD) : W7 m ρ c (Proc.devRef .tc main_v104)
    = Host.scatter scatter_S4x50000x64_S20000x2_S20000x64_1_01_01_1 (fun _ b => b) (W6 m ρ c (Proc.devRef .tc main_v11))
        (W7 m ρ c (Proc.devRef .tc main_v103)) (W7 m ρ c (Proc.devRef .tc main_v90)) :=
  s4_v104 (W6 m ρ c)

/-- The second region's row input is the mean aggregation of the overwritten features. -/
theorem v135_eq (c : Dev nD) : W7 m ρ c (Proc.devRef .tc main_v135)
    = agg (W7 m ρ c (Proc.devRef .tc main_v104)) (m ((c : Thread nD τ).loc main_arg1)) (m ((c : Thread nD τ).loc main_arg2)) :=
  (s4_v135 (W6 m ρ c)).trans (by rw [W6_arg1, W6_arg2])

/-- The second region's weight input is the output layer's weight, transposed. -/
theorem v3_eq (c : Dev nD) : W7 m ρ c (Proc.devRef .tc main_v3)
    = transpose S64x64 [1, 0] (m ((c : Thread nD τ).loc main_arg13)) transposes_S64x64_S64x64_1_0 := by
  after_results_simp
  rw [W2_of_ne m ρ c main_v3 (by decide)]
  after_results_simp <;> rfl

/-- The second region's bias input is the output layer's bias as one row. -/
theorem v136_eq (c : Dev nD) : W7 m ρ c (Proc.devRef .tc main_v136)
    = shapeCast S1x64 (m ((c : Thread nD τ).loc main_arg14)) shapeCasts_S64_S1x64 := by
  after_results_simp
  rw [W2_of_ne m ρ c main_arg14 (by decide)]
  after_results_simp
  rfl

/-- The result is the second region's output array, reshaped. -/
theorem v138_eq (c : Dev nD) : W9 m ρ c (Proc.devRef .tc main_v138)
    = shapeCast S4x50000x64 ((dat1 (V7 m ρ) c).arrAt 3 cfg1.N) shapeCasts_S200000x64_S4x50000x64 := by
  show StableHlo.after hostOps2 _ _ = _
  after_results
  rw [show W8 m ρ c (Proc.devRef .tc main_v137) = (dat1 (V7 m ρ) c).arrAt 3 cfg1.N from W8_arr m ρ c 3]
  rfl

end Cert.KernelIdeal.Chain

end
-- ==== Proof.KEntry.lean ====
/-
  What the first region finds in its input arrays: the host operations before it only re-lay the arguments out —
  the node features flattened to rows, the two weights transposed, each bias, scale and shift as one row.
-/
import proofs.«134245_j55130200211996_2_alg».proof.Proof.Gen.KernelIdeal.Frame
import Idealize.ShloMosaic.Lib.StableHlo.Run
import Idealize.ShloMosaic.PureOps.Ideal

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- At the first region's entry: the node features flattened to rows. -/
theorem v0_eq (c : Dev nD) : V1 m ρ c main_v0 = shapeCast S200000x64 (m ((c : Thread nD τ).loc main_arg0)) shapeCasts_S4x50000x64_S200000x64 := by
  show StableHlo.after hostOps0 _ (Proc.devRef .tc main_v0) = _
  after_results
  rfl

/-- At the first region's entry: branch 0's weight, transposed. -/
theorem v1_eq (c : Dev nD) : V1 m ρ c main_v1 = transpose S64x64 [1, 0] (m ((c : Thread nD τ).loc main_arg5)) transposes_S64x64_S64x64_1_0 := by
  show StableHlo.after hostOps0 _ (Proc.devRef .tc main_v1) = _
  after_results

/-- At the first region's entry: branch 1's weight, transposed. -/
theorem v2_eq (c : Dev nD) : V1 m ρ c main_v2 = transpose S64x64 [1, 0] (m ((c : Thread nD τ).loc main_arg9)) transposes_S64x64_S64x64_1_0 := by
  show StableHlo.after hostOps0 _ (Proc.devRef .tc main_v2) = _
  after_results

/-- At the first region's entry: branch 0's bias as one row. -/
theorem v4_eq (c : Dev nD) : V1 m ρ c main_v4 = shapeCast S1x64 (m ((c : Thread nD τ).loc main_arg6)) shapeCasts_S64_S1x64 := by
  show StableHlo.after hostOps0 _ (Proc.devRef .tc main_v4) = _
  after_results
  rfl

/-- At the first region's entry: branch 0's scale as one row. -/
theorem v5_eq (c : Dev nD) : V1 m ρ c main_v5 = shapeCast S1x64 (m ((c : Thread nD τ).loc main_arg7)) shapeCasts_S64_S1x64 := by
  show StableHlo.after hostOps0 _ (Proc.devRef .tc main_v5) = _
  after_results
  rfl

/-- At the first region's entry: branch 0's shift as one row. -/
theorem v6_eq (c : Dev nD) : V1 m ρ c main_v6 = shapeCast S1x64 (m ((c : Thread nD τ).loc main_arg8)) shapeCasts_S64_S1x64 := by
  show StableHlo.after hostOps0 _ (Proc.devRef .tc main_v6) = _
  after_results
  rfl

/-- At the first region's entry: branch 1's bias as one row. -/
theorem v7_eq (c : Dev nD) : V1 m ρ c main_v7 = shapeCast S1x64 (m ((c : Thread nD τ).loc main_arg10)) shapeCasts_S64_S1x64 := by
  show StableHlo.after hostOps0 _ (Proc.devRef .tc main_v7) = _
  after_results
  rfl

/-- At the first region's entry: branch 1's scale as one row. -/
theorem v8_eq (c : Dev nD) : V1 m ρ c main_v8 = shapeCast S1x64 (m ((c : Thread nD τ).loc main_arg11)) shapeCasts_S64_S1x64 := by
  show StableHlo.after hostOps0 _ (Proc.devRef .tc main_v8) = _
  after_results
  rfl

/-- At the first region's entry: branch 1's shift as one row. -/
theorem v9_eq (c : Dev nD) : V1 m ρ c main_v9 = shapeCast S1x64 (m ((c : Thread nD τ).loc main_arg12)) shapeCasts_S64_S1x64 := by
  show StableHlo.after hostOps0 _ (Proc.devRef .tc main_v9) = _
  after_results
  rfl

end Cert.KernelIdeal.Entry

end
-- ==== Proof.Spec.lean ====
/-
  The per-row mathematics of this kernel, stated once over the extended reals.

  A node's feature row `x : Fin 64 → EReal` goes through a linear map `h o = Σ_k x k · W o k + b o`, a layer
  normalisation over the 64 channels (mean, centred second moment, both as sums divided by the literal 64, the
  reciprocal square root of the variance plus the literal ε, scale and shift) and a rectifier. Two such branches are
  mixed with the literal weights 0.8 and 0.2: `0.8 · branch₀ + 0.2 · branch₁` at an ordinary position and the
  weights swapped at a labeled one. The output layer is a linear map followed by the rectifier.
  The literals are kept as their words: the same word stands on both sides of every equation below.
-/
import Idealize.ShloMosaic.PureOps.Ideal
import Idealize.ShloMosaic.Lib.ValueIdx

noncomputable section

namespace Cert.Spec

open Idealize.ShloMosaic
open scoped BigOperators

/-- The literal 64. -/
abbrev c64 : EReal := Ideal.ofBits .f32 0x42800000#32
/-- The literal ε of the layer normalisation. -/
abbrev ceps : EReal := Ideal.ofBits .f32 0x3727C5AC#32
/-- The zero word. -/
abbrev c0 : EReal := Ideal.ofBits .f32 0x00000000#32
/-- The literal 0.8. -/
abbrev c08 : EReal := Ideal.ofBits .f32 0x3F4CCCCD#32
/-- The literal 0.2. -/
abbrev c02 : EReal := Ideal.ofBits .f32 0x3E4CCCCD#32

/-- The linear map of a row: `h o = Σ_k x k · W o k + b o`. -/
def lin (wt : Fin 64 → Fin 64 → EReal) (b : Fin 64 → EReal) (x : Fin 64 → EReal) (o : Fin 64) : EReal :=
  (∑ k : Fin 64, x k * wt o k) + b o

/-- The mean of a row: its sum divided by the literal 64. -/
def mean (h : Fin 64 → EReal) : EReal := Ideal.div (∑ o : Fin 64, h o) c64

/-- Layer normalisation of a row followed by the rectifier. -/
def lnRelu (g be : Fin 64 → EReal) (h : Fin 64 → EReal) (o : Fin 64) : EReal :=
  max ((h o - mean h) * Ideal.rsqrt (mean (fun o' => (h o' - mean h) * (h o' - mean h)) + ceps) * g o + be o) c0

/-- One branch: linear map, layer normalisation, rectifier. -/
def branch (wt : Fin 64 → Fin 64 → EReal) (b g be : Fin 64 → EReal) (x : Fin 64 → EReal) (o : Fin 64) : EReal :=
  lnRelu g be (lin wt b x) o

/-- The mix `0.8 · u + 0.2 · v`. -/
def mix (u v : EReal) : EReal := c08 * u + c02 * v

/-- The output layer on a row: linear map, rectifier. -/
def outRow (wt : Fin 64 → Fin 64 → EReal) (b : Fin 64 → EReal) (x : Fin 64 → EReal) (o : Fin 64) : EReal :=
  max (lin wt b x o) c0

end Cert.Spec

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KBody.lean ====
/-
  The two kernel bodies read at an index, at the exact values.

  Each body stores one `[5000, 64]` array computed from whole-buffer loads. Read at `(p, q)`, the final body's
  array is the output layer on row `p` (the row against column `q` of the weights, plus the bias, rectified);
  the branch-mix body's array is the mix, with the literal weights, of two branches on row `p`, each a linear map,
  a layer normalisation over the 64 channels and a rectifier. The conversions to the narrower format and the
  casts to the same shape are the identity at the exact values.
-/
import proofs.«134245_j55130200211996_2_alg».proof.Proof.Gen.KernelIdeal.Frame
import proofs.«134245_j55130200211996_2_alg».proof.Proof.Spec
import proofs.«134245_j55130200211996_2_alg».proof.Proof.LibKeepdims
import proofs.«134245_j55130200211996_2_alg».proof.Proof.LibMatmulRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Spec
open scoped BigOperators

/-- The zero offset of a whole-buffer rectangle, spelt as a constant function. -/
theorem hz : (![0, 0] : Fin 2 → Nat) = fun _ => 0 := funext fun a => by fin_cases a <;> rfl

/-! ## The layout operations of the two bodies, read at an index -/

/-- The product record contracts the rows of the left operand with the columns of the right one. -/
theorem dotRC : MatmulRead.RowsByCols dot_S5000x64_S64x64_S5000x64_1_0_0_1_n_n := ⟨rfl, rfl, rfl, rfl, rfl, rfl⟩

/-- Entry `(p, q)` of the `[5000, 64] x [64, 64]` product into the zero accumulator. -/
theorem mm_apply {φ₁ φ₂ : FTy} (lhs : FVec Ideal S5000x64 φ₁) (rhs : FVec Ideal S64x64 φ₂) (p : Fin 5000) (q : Fin 64) :
    FloatOps.matmul dot_S5000x64_S64x64_S5000x64_1_0_0_1_n_n none lhs rhs (constant (F := Ideal) S5000x64 .f32 0x00000000#32) (ix2 p q)
      = ∑ k : Fin 64, lhs (ix2 p k) * rhs (ix2 k q) :=
  MatmulRead.matmul_zero_ix2 dotRC rfl rfl none lhs rhs p q

/-- A row `[1, 64]` broadcast over the 5000 rows reads, at `(p, q)`, the row's entry `q`. -/
theorem rowBroadcast_apply {α : Type} (v : S1x64.Idx → α) (p : Fin 5000) (q : Fin 64) :
    broadcastTo S5000x64 v broadcasts_S1x64_S5000x64 (ix2 p q) = v (ix2 (0 : Fin 1) q) := by
  refine broadcastTo_apply v broadcasts_S1x64_S5000x64 (ix2 p q) (ix2 (0 : Fin 1) q) fun ax => ?_
  match ax with
  | ⟨0, _⟩ => rfl
  | ⟨1, _⟩ => rfl

/-! ## The linear map -/

/-- The linear payload at `(p, q)`: the row of the input against column `q` of the weights, plus the bias. -/
theorem linV_apply (x0 : Vec Ideal S5000x64 .f32) (x1 : Vec Ideal S64x64 .f32) (x2 : Vec Ideal S1x64 .f32) (p : Fin 5000) (q : Fin 64) :
    k0_pay2 (F := Ideal) x0 x1 x2 (ix2 p q)
      = lin (fun o k => x1 (ix2 k o)) (fun o => x2 (ix2 (0 : Fin 1) o)) (fun k => x0 (ix2 p k)) q := by
  unfold k0_pay2 k0_pay1 lin
  show FloatOps.matmul dot_S5000x64_S64x64_S5000x64_1_0_0_1_n_n none _ _ (constant (F := Ideal) S5000x64 .f32 0x00000000#32) (ix2 p q)
      + broadcastTo S5000x64 (shapeCast S1x64 x2 shapeCasts_S1x64_S1x64) broadcasts_S1x64_S5000x64 (ix2 p q) = _
  rw [mm_apply, rowBroadcast_apply]
  simp only [shapeCast_self]
  rfl

/-- The final body's payload at `(p, q)`. -/
theorem k1_pay1_apply (x0 : Vec Ideal S5000x64 .f32) (x1 : Vec Ideal S64x64 .f32) (x2 : Vec Ideal S1x64 .f32) (p : Fin 5000) (q : Fin 64) :
    k1_pay1 (F := Ideal) x0 x1 x2 (ix2 p q)
      = outRow (fun o k => x1 (ix2 k o)) (fun o => x2 (ix2 (0 : Fin 1) o)) (fun k => x0 (ix2 p k)) q := by
  unfold k1_pay1 outRow lin
  show max (FloatOps.matmul dot_S5000x64_S64x64_S5000x64_1_0_0_1_n_n none _ _ (constant (F := Ideal) S5000x64 .f32 0x00000000#32) (ix2 p q)
      + broadcastTo S5000x64 (shapeCast S1x64 x2 shapeCasts_S1x64_S1x64) broadcasts_S1x64_S5000x64 (ix2 p q)) c0 = _
  rw [mm_apply, rowBroadcast_apply]
  simp only [shapeCast_self]
  rfl

/-- The final body's staging buffer at `(p, q)`: the output layer on row `p`. -/
theorem out1_3_apply (x0 : Vec Ideal S5000x64 .f32) (x1 : Vec Ideal S64x64 .f32) (x2 : Vec Ideal S1x64 .f32) (p : Fin 5000) (q : Fin 64) :
    out1_3 (F := Ideal) x0 x1 x2 (ix2 p q)
      = outRow (fun o k => x1 (ix2 k o)) (fun o => x2 (ix2 (0 : Fin 1) o)) (fun k => x0 (ix2 p k)) q := by
  unfold out1_3
  rw [View.canon_unit_zero hz]
  simp only [View.ld_unit_zero (S := S5000x64) hz, View.ld_unit_zero (S := S64x64) hz, View.ld_unit_zero (S := S1x64) hz]
  exact k1_pay1_apply x0 x1 x2 p q

/-! ## The layer normalisation of a `[5000, 64]` array, row by row -/

/-- The column of row means: lane sums, kept as a column, divided by the literal 64. -/
def meanV (h : FVec Ideal S5000x64 .f32) : FVec Ideal S5000x1 .f32 :=
  divf (shapeCast S5000x1 (multiReduction (F := Ideal) .add [1] S5000 h 0x00000000#32 reduces_S5000x64_S5000 (.inl rfl) rfl) shapeCasts_S5000_S5000x1)
    (broadcast S5000x1 (Scalar.ofBits (F := Ideal) .f32 0x42800000#32))

/-- The array with each row's mean subtracted. -/
def centV (h : FVec Ideal S5000x64 .f32) : FVec Ideal S5000x64 .f32 :=
  subf h (broadcastTo S5000x64 (meanV h) broadcasts_S5000x1_S5000x64)

/-- The column of row variances plus the literal ε. -/
def varV (h : FVec Ideal S5000x64 .f32) : FVec Ideal S5000x1 .f32 :=
  addf (divf (shapeCast S5000x1 (multiReduction (F := Ideal) .add [1] S5000 (mulf (centV h) (centV h)) 0x00000000#32 reduces_S5000x64_S5000 (.inl rfl) rfl) shapeCasts_S5000_S5000x1)
      (broadcast S5000x1 (Scalar.ofBits (F := Ideal) .f32 0x42800000#32)))
    (broadcast S5000x1 (Scalar.ofBits (F := Ideal) .f32 0x3727C5AC#32))

/-- Scale by the reciprocal square root of a column, by a row, shift by a row, rectify. -/
def lnV (c : FVec Ideal S5000x64 .f32) (v : FVec Ideal S5000x1 .f32) (g be : FVec Ideal S1x64 .f32) : FVec Ideal S5000x64 .f32 :=
  maximumf (addf (mulf (mulf c (broadcastTo S5000x64 (rsqrt v) broadcasts_S5000x1_S5000x64)) (broadcastTo S5000x64 g broadcasts_S1x64_S5000x64))
      (broadcastTo S5000x64 be broadcasts_S1x64_S5000x64))
    (broadcast S5000x64 (Scalar.ofBits (F := Ideal) .f32 0x00000000#32))

theorem meanV_apply (h : FVec Ideal S5000x64 .f32) (p : Fin 5000) (u : Fin 1) :
    meanV h (ix2 p u) = mean (fun o => h (ix2 p o)) := by
  unfold meanV mean
  show Ideal.div (shapeCast S5000x1 (multiReduction (F := Ideal) .add [1] S5000 h 0x00000000#32 reduces_S5000x64_S5000 (.inl rfl) rfl) shapeCasts_S5000_S5000x1 (ix2 p u)) c64 = _
  rw [LibKeepdims.shapeCast_a_a1_apply, LibKeepdims.laneSum_apply]

theorem centV_apply (h : FVec Ideal S5000x64 .f32) (p : Fin 5000) (q : Fin 64) :
    centV h (ix2 p q) = h (ix2 p q) - mean (fun o => h (ix2 p o)) := by
  unfold centV
  show h (ix2 p q) - broadcastTo S5000x64 (meanV h) broadcasts_S5000x1_S5000x64 (ix2 p q) = _
  rw [LibKeepdims.broadcastTo_a1_ab_apply, meanV_apply]

theorem varV_apply (h : FVec Ideal S5000x64 .f32) (p : Fin 5000) (u : Fin 1) :
    varV h (ix2 p u)
      = mean (fun o => (h (ix2 p o) - mean (fun o' => h (ix2 p o'))) * (h (ix2 p o) - mean (fun o' => h (ix2 p o')))) + ceps := by
  unfold varV
  show Ideal.div (shapeCast S5000x1 (multiReduction (F := Ideal) .add [1] S5000 (mulf (centV h) (centV h)) 0x00000000#32 reduces_S5000x64_S5000 (.inl rfl) rfl) shapeCasts_S5000_S5000x1 (ix2 p u)) c64 + ceps = _
  rw [LibKeepdims.shapeCast_a_a1_apply, LibKeepdims.laneSum_apply]
  have e : ∀ k : Fin 64, mulf (centV h) (centV h) (ix2 p k)
      = (h (ix2 p k) - mean (fun o' => h (ix2 p o'))) * (h (ix2 p k) - mean (fun o' => h (ix2 p o'))) := fun k => by
    show centV h (ix2 p k) * centV h (ix2 p k) = _
    rw [centV_apply]
  simp only [e]
  rfl

theorem lnV_apply (c : FVec Ideal S5000x64 .f32) (v : FVec Ideal S5000x1 .f32) (g be : FVec Ideal S1x64 .f32) (p : Fin 5000) (q : Fin 64) :
    lnV c v g be (ix2 p q)
      = max (c (ix2 p q) * Ideal.rsqrt (v (ix2 p (0 : Fin 1))) * g (ix2 (0 : Fin 1) q) + be (ix2 (0 : Fin 1) q)) c0 := by
  unfold lnV
  show max (c (ix2 p q) * broadcastTo S5000x64 (rsqrt v) broadcasts_S5000x1_S5000x64 (ix2 p q) * broadcastTo S5000x64 g broadcasts_S1x64_S5000x64 (ix2 p q)
      + broadcastTo S5000x64 be broadcasts_S1x64_S5000x64 (ix2 p q)) c0 = _
  rw [LibKeepdims.broadcastTo_a1_ab_apply, rowBroadcast_apply, rowBroadcast_apply]
  rfl

/-- Layer normalisation and rectifier of an array, at `(p, q)`: the spec's on row `p`. -/
theorem lnV_norm_apply (h : FVec Ideal S5000x64 .f32) (g be : FVec Ideal S1x64 .f32) (p : Fin 5000) (q : Fin 64) :
    lnV (centV h) (varV h) g be (ix2 p q)
      = lnRelu (fun o => g (ix2 (0 : Fin 1) o)) (fun o => be (ix2 (0 : Fin 1) o)) (fun o => h (ix2 p o)) q := by
  rw [lnV_apply, centV_apply, varV_apply]
  rfl

/-- A branch at `(p, q)`: the linear payload normalised and rectified is the spec's branch on row `p`. -/
theorem branchV_apply (x0 : Vec Ideal S5000x64 .f32) (x1 : Vec Ideal S64x64 .f32) (x2 g be : Vec Ideal S1x64 .f32) (p : Fin 5000) (q : Fin 64) :
    lnV (centV (k0_pay2 (F := Ideal) x0 x1 x2)) (varV (k0_pay2 (F := Ideal) x0 x1 x2)) g be (ix2 p q)
      = branch (fun o k => x1 (ix2 k o)) (fun o => x2 (ix2 (0 : Fin 1) o)) (fun o => g (ix2 (0 : Fin 1) o)) (fun o => be (ix2 (0 : Fin 1) o))
          (fun k => x0 (ix2 p k)) q := by
  rw [lnV_norm_apply]
  unfold branch
  have e : (fun o => k0_pay2 (F := Ideal) x0 x1 x2 (ix2 p o))
      = lin (fun o k => x1 (ix2 k o)) (fun o => x2 (ix2 (0 : Fin 1) o)) (fun k => x0 (ix2 p k)) :=
    funext fun o => linV_apply x0 x1 x2 p o
  rw [e]

/-! ## The branch-mix body -/

/-- The second linear payload is the first on its own weights and bias. -/
theorem k0_pay3_eq (x0 : Vec Ideal S5000x64 .f32) (x5 : Vec Ideal S64x64 .f32) (x6 : Vec Ideal S1x64 .f32) :
    k0_pay3 (F := Ideal) x0 x5 x6 = k0_pay2 (F := Ideal) x0 x5 x6 := rfl

theorem k0_pay7_eq (x0 : Vec Ideal S5000x64 .f32) (x1 : Vec Ideal S64x64 .f32) (x2 : Vec Ideal S1x64 .f32) :
    k0_pay7 (F := Ideal) x0 x1 x2 = centV (k0_pay2 (F := Ideal) x0 x1 x2) := rfl

theorem k0_pay8_eq (x0 : Vec Ideal S5000x64 .f32) (x1 : Vec Ideal S64x64 .f32) (x2 : Vec Ideal S1x64 .f32) :
    k0_pay8 (F := Ideal) x0 x1 x2 = varV (k0_pay2 (F := Ideal) x0 x1 x2) := rfl

/-- The stored payload: the two normalised branches mixed with the literal weights. -/
theorem k0_pay9_eq (v18 : FVec Ideal S5000x64 .f32) (v20 v22 : FVec Ideal S1x64 .f32) (v35 : FVec Ideal S5000x64 .f32) (v37 : FVec Ideal S5000x1 .f32)
    (v47 v49 : Vec Ideal S1x64 .f32) :
    k0_pay9 (F := Ideal) v18 v20 v22 v35 v37 v47 v49
      = addf (mulf (broadcast S5000x64 (Scalar.ofBits (F := Ideal) .f32 0x3F4CCCCD#32)) (lnV v35 v37 v20 v22))
          (mulf (broadcast S5000x64 (Scalar.ofBits (F := Ideal) .f32 0x3E4CCCCD#32))
            (lnV (centV v18) (varV v18) (shapeCast S1x64 v47 shapeCasts_S1x64_S1x64) (shapeCast S1x64 v49 shapeCasts_S1x64_S1x64))) := rfl

/-- The branch-mix body's staging buffer at `(p, q)`: the mix of the two branches on row `p`. -/
theorem out0_9_apply (x0 : Vec Ideal S5000x64 .f32) (x1 : Vec Ideal S64x64 .f32) (x2 x3 x4 : Vec Ideal S1x64 .f32) (x5 : Vec Ideal S64x64 .f32)
    (x6 x7 x8 : Vec Ideal S1x64 .f32) (p : Fin 5000) (q : Fin 64) :
    out0_9 (F := Ideal) x0 x1 x2 x3 x4 x5 x6 x7 x8 (ix2 p q)
      = mix (branch (fun o k => x1 (ix2 k o)) (fun o => x2 (ix2 (0 : Fin 1) o)) (fun o => x3 (ix2 (0 : Fin 1) o)) (fun o => x4 (ix2 (0 : Fin 1) o)) (fun k => x0 (ix2 p k)) q)
            (branch (fun o k => x5 (ix2 k o)) (fun o => x6 (ix2 (0 : Fin 1) o)) (fun o => x7 (ix2 (0 : Fin 1) o)) (fun o => x8 (ix2 (0 : Fin 1) o)) (fun k => x0 (ix2 p k)) q) := by
  unfold out0_9
  rw [View.canon_unit_zero hz]
  simp only [View.ld_unit_zero (S := S5000x64) hz, View.ld_unit_zero (S := S64x64) hz, View.ld_unit_zero (S := S1x64) hz]
  rw [k0_pay9_eq, k0_pay3_eq, k0_pay7_eq, k0_pay8_eq]
  unfold k0_pay4 k0_pay5 mix
  simp only [shapeCast_self]
  show c08 * lnV (centV (k0_pay2 (F := Ideal) x0 x1 x2)) (varV (k0_pay2 (F := Ideal) x0 x1 x2)) x3 x4 (ix2 p q)
      + c02 * lnV (centV (k0_pay2 (F := Ideal) x0 x5 x6)) (varV (k0_pay2 (F := Ideal) x0 x5 x6)) x7 x8 (ix2 p q) = _
  rw [branchV_apply, branchV_apply]

end Cert.KernelIdeal.Body

end
-- ==== Proof.KBlocks.lean ====
/-
  From blocks to arrays: what each region's output array holds after the region, as one function of the arrays the
  region reads.

  Both regions walk 40 grid points; point `t` reads rows `5000·t … 5000·t + 4999` of the row input, the whole of every
  weight and bias array, and writes the same rows of the output. The body's result at row `p` of the block, channel
  `q`, depends on the block's row `p` only — the array's row `5000·t + p` — so the written blocks are restrictions of
  one whole-array function, and since the 40 blocks cover all 200000 rows the array ends holding that function.
-/
import proofs.«134245_j55130200211996_2_alg».proof.Proof.Gen.KernelIdeal.Frame
import proofs.«134245_j55130200211996_2_alg».proof.Proof.KBody
import proofs.«134245_j55130200211996_2_alg».proof.Proof.Spec
import Idealize.ShloMosaic.PureOps.Ideal
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

/-- Row `r`, channel `q` of the first region's output: the mix of the two branches of row `r` of the row input. -/
def mixRows (xf : S200000x64.Idx → EReal) (w0 : S64x64.Idx → EReal) (b0 g0 be0 : S1x64.Idx → EReal)
    (w1 : S64x64.Idx → EReal) (b1 g1 be1 : S1x64.Idx → EReal) : S200000x64.Idx → EReal := fun i =>
  mix (branch (fun o k => w0 (ix2 k o)) (fun o => b0 (ix2 (0 : Fin 1) o)) (fun o => g0 (ix2 (0 : Fin 1) o)) (fun o => be0 (ix2 (0 : Fin 1) o))
        (fun k => xf (ix2 (⟨(i 0).val, (i 0).isLt⟩ : Fin 200000) k)) ⟨(i 1).val, (i 1).isLt⟩)
      (branch (fun o k => w1 (ix2 k o)) (fun o => b1 (ix2 (0 : Fin 1) o)) (fun o => g1 (ix2 (0 : Fin 1) o)) (fun o => be1 (ix2 (0 : Fin 1) o))
        (fun k => xf (ix2 (⟨(i 0).val, (i 0).isLt⟩ : Fin 200000) k)) ⟨(i 1).val, (i 1).isLt⟩)

/-- Row `r`, channel `q` of the second region's output: the output layer on row `r` of the row input. -/
def outRows (xf : S200000x64.Idx → EReal) (w : S64x64.Idx → EReal) (b : S1x64.Idx → EReal) : S200000x64.Idx → EReal := fun i =>
  outRow (fun o k => w (ix2 k o)) (fun o => b (ix2 (0 : Fin 1) o)) (fun k => xf (ix2 (⟨(i 0).val, (i 0).isLt⟩ : Fin 200000) k)) ⟨(i 1).val, (i 1).isLt⟩

/-- One point of the first region: a block whose row `p` is row `r` of the array, read at `(p, q)`. -/
theorem point0 (x0 : Vec Ideal S5000x64 .f32) (x1 : Vec Ideal S64x64 .f32) (x2 x3 x4 : Vec Ideal S1x64 .f32) (x5 : Vec Ideal S64x64 .f32)
    (x6 x7 x8 : Vec Ideal S1x64 .f32) (xf : S200000x64.Idx → EReal) (j : S5000x64.Idx) (i : S200000x64.Idx)
    (hrow : ∀ k : Fin 64, x0 (ix2 (⟨(j 0).val, (j 0).isLt⟩ : Fin 5000) k) = xf (ix2 (⟨(i 0).val, (i 0).isLt⟩ : Fin 200000) k))
    (hq : (j 1).val = (i 1).val) :
    out0_9 (F := Ideal) x0 x1 x2 x3 x4 x5 x6 x7 x8 j = mixRows xf x1 x2 x3 x4 x5 x6 x7 x8 i := by
  have hj : j = ix2 (⟨(j 0).val, (j 0).isLt⟩ : Fin 5000) (⟨(j 1).val, (j 1).isLt⟩ : Fin 64) := eq_ix2 j
  rw [hj, Body.out0_9_apply]
  unfold mixRows
  have e : (⟨(j 1).val, (j 1).isLt⟩ : Fin 64) = ⟨(i 1).val, (i 1).isLt⟩ := Fin.ext hq
  rw [e, funext hrow]

/-- One point of the second region. -/
theorem point1 (x0 : Vec Ideal S5000x64 .f32) (x1 : Vec Ideal S64x64 .f32) (x2 : Vec Ideal S1x64 .f32)
    (xf : S200000x64.Idx → EReal) (j : S5000x64.Idx) (i : S200000x64.Idx)
    (hrow : ∀ k : Fin 64, x0 (ix2 (⟨(j 0).val, (j 0).isLt⟩ : Fin 5000) k) = xf (ix2 (⟨(i 0).val, (i 0).isLt⟩ : Fin 200000) k))
    (hq : (j 1).val = (i 1).val) :
    out1_3 (F := Ideal) x0 x1 x2 j = outRows xf x1 x2 i := by
  have hj : j = ix2 (⟨(j 0).val, (j 0).isLt⟩ : Fin 5000) (⟨(j 1).val, (j 1).isLt⟩ : Fin 64) := eq_ix2 j
  rw [hj, Body.out1_3_apply]
  unfold outRows
  have e : (⟨(j 1).val, (j 1).isLt⟩ : Fin 64) = ⟨(i 1).val, (i 1).isLt⟩ := Fin.ext hq
  rw [e, funext hrow]

variable (V : (c : Dev nD) → (b : Ref sig .tc) → Buf (Elt Ideal) ((c : Thread nD τ).loc b))

/-! ## The first region -/

/-- The printed index maps over the 40 points: the row windows sit at block `t`, every other window at block 0. -/
theorem idx_facts0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0 ∧ win0_8.index t (1 : Fin 2) = 0 :=
  (by decide +kernel : ∀ t : Fin grid0.N, _)

/-- A whole-array window's block is the array. -/
theorem whole0 (c : Dev nD) (t : Fin cfg0.N) :
    iblk0 V c 1 t = V c main_v1 ∧ iblk0 V c 2 t = V c main_v4 ∧ iblk0 V c 3 t = V c main_v5 ∧ iblk0 V c 4 t = V c main_v6
    ∧ iblk0 V c 5 t = V c main_v2 ∧ iblk0 V c 6 t = V c main_v7 ∧ iblk0 V c 7 t = V c main_v8 ∧ iblk0 V c 8 t = V c main_v9 := by
  obtain ⟨-, -, -, -, a10, a11, a20, a21, a30, a31, a40, a41, a50, a51, a60, a61, a70, a71, a80, a81⟩ := idx_facts0 t
  refine ⟨?_, ?_, ?_, ?_, ?_, ?_, ?_, ?_⟩
  · funext y
    show V c main_v1 (((cfg0.win 1).blk t).view.emb y) = V c main_v1 y
    refine congrArg (V c main_v1) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · funext y
    show V c main_v4 (((cfg0.win 2).blk t).view.emb y) = V c main_v4 y
    refine congrArg (V c main_v4) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · funext y
    show V c main_v5 (((cfg0.win 3).blk t).view.emb y) = V c main_v5 y
    refine congrArg (V c main_v5) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · funext y
    show V c main_v6 (((cfg0.win 4).blk t).view.emb y) = V c main_v6 y
    refine congrArg (V c main_v6) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · funext y
    show V c main_v2 (((cfg0.win 5).blk t).view.emb y) = V c main_v2 y
    refine congrArg (V c main_v2) (funext fun a => Fin.ext ?_)
    match a with
    | ⟨0, _⟩ => show win0_5.index t (0 : Fin 2) * 64 + 1 * (y 0).val = (y 0).val; omega
    | ⟨1, _⟩ => show win0_5.index t (1 : Fin 2) * 64 + 1 * (y 1).val = (y 1).val; omega
  · funext y
    show V c main_v7 (((cfg0.win 6).blk t).view.emb y) = V c main_v7 y
    refine congrArg (V c main_v7) (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  · funext y
    show V c main_v8 (((cfg0.win 7).blk t).view.emb y) = V c main_v8 y
    refine congrArg (V c main_v8) (funext fun a => Fin.ext ?_)
    match a with
    | ⟨0, _⟩ => show win0_7.index t (0 : Fin 2) * 1 + 1 * (y 0).val = (y 0).val; omega
    | ⟨1, _⟩ => show win0_7.index t (1 : Fin 2) * 64 + 1 * (y 1).val = (y 1).val; omega
  · funext y
    show V c main_v9 (((cfg0.win 8).blk t).view.emb y) = V c main_v9 y
    refine congrArg (V c main_v9) (funext fun a => Fin.ext ?_)
    match a with
    | ⟨0, _⟩ => show win0_8.index t (0 : Fin 2) * 1 + 1 * (y 0).val = (y 0).val; omega
    | ⟨1, _⟩ => show win0_8.index t (1 : Fin 2) * 64 + 1 * (y 1).val = (y 1).val; omega

/-- What point `t` writes back is block `t` of the whole-array function. -/
theorem flushed0 (c : Dev nD) (t : Fin cfg0.N) :
    (dat0 V c).flushed 9 t = ((cfg0.win 9).blk t).view.read (Elt Ideal)
      (mixRows (V c main_v0) (V c main_v1) (V c main_v4) (V c main_v5) (V c main_v6) (V c main_v2) (V c main_v7) (V c main_v8) (V c main_v9)) := by
  show (cfg0.win 9).cut (grid0.coords t) ((dat0 V c).after 9 t) = _
  rw [after0_9]
  obtain ⟨h1, h2, h3, h4, h5, h6, h7, h8⟩ := whole0 V c t
  rw [h1, h2, h3, h4, h5, h6, h7, h8]
  obtain ⟨e00, e01, e90, e91, -⟩ := idx_facts0 t
  funext j
  show out0_9 (F := Ideal) (iblk0 V c 0 t) (V c main_v1) (V c main_v4) (V c main_v5) (V c main_v6) (V c main_v2) (V c main_v7) (V c main_v8) (V c main_v9) j
    = mixRows (V c main_v0) (V c main_v1) (V c main_v4) (V c main_v5) (V c main_v6) (V c main_v2) (V c main_v7) (V c main_v8) (V c main_v9) (((cfg0.win 9).blk t).view.emb j)
  refine point0 _ _ _ _ _ _ _ _ _ _ j _ (fun k => ?_) ?_
  · show V c main_v0 (((cfg0.win 0).blk t).view.emb (ix2 (⟨(j 0).val, (j 0).isLt⟩ : Fin 5000) k)) = V c main_v0 _
    refine congrArg (V c main_v0) (funext fun a => Fin.ext ?_)
    match a with
    | ⟨0, _⟩ => show win0_0.index t (0 : Fin 2) * 5000 + 1 * (j 0).val = win0_9.index t (0 : Fin 2) * 5000 + 1 * (j 0).val; omega
    | ⟨1, _⟩ => show win0_0.index t (1 : Fin 2) * 64 + 1 * k.val = k.val; omega
  · show (j 1).val = win0_9.index t (1 : Fin 2) * 64 + 1 * (j 1).val; omega

/-- An index of the array is in point `t`'s block iff each coordinate is in the block's range on its axis. -/
theorem mem_blk0 (t : Fin cfg0.N) (i : S200000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v10).slice (win0_9.rect t)).set ↔ _
  rw [View.set_slice_whole, Rect.mem_set_unit]
  exact Iff.rfl

/-- Every row of the array is in some point's block: row `r` is in block `r / 5000`. -/
theorem cover0 (i : S200000x64.Idx) : ∃ t : Fin cfg0.N, (cfg0.win 9).flush t = true ∧ i ∈ ((cfg0.win 9).blk t).view.set := by
  have hi0 : (i 0).val < 200000 := (i 0).isLt
  have hi1 : (i 1).val < 64 := (i 1).isLt
  refine ⟨⟨(i 0).val / 5000, by show _ < 40; omega⟩, flush0_9 _, ?_⟩
  rw [mem_blk0]
  obtain ⟨-, -, e90, e91, -⟩ := idx_facts0 ⟨(i 0).val / 5000, by show _ < 40; omega⟩
  intro a
  match a with
  | ⟨0, _⟩ =>
    show win0_9.index _ (0 : Fin 2) * 5000 ≤ (i 0).val ∧ (i 0).val < win0_9.index _ (0 : Fin 2) * 5000 + 5000
    rw [e90]; show (i 0).val / 5000 * 5000 ≤ (i 0).val ∧ (i 0).val < (i 0).val / 5000 * 5000 + 5000; omega
  | ⟨1, _⟩ =>
    show win0_9.index _ (1 : Fin 2) * 64 ≤ (i 1).val ∧ (i 1).val < win0_9.index _ (1 : Fin 2) * 64 + 64
    rw [e91]; omega

/-- The first region's output array after the region. -/
theorem final0 (c : Dev nD) : (dat0 V c).arrAt 9 cfg0.N
    = mixRows (V c main_v0) (V c main_v1) (V c main_v4) (V c main_v5) (V c main_v6) (V c main_v2) (V c main_v7) (V c main_v8) (V c main_v9) :=
  (dat0 V c).arrAt_eq_of_cover 9 _ (fun t _ => flushed0 V c t) cover0

/-! ## The second region -/

theorem idx_facts1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0 ∧ win1_2.index t (0 : Fin 2) = 0 ∧ win1_2.index t (1 : Fin 2) = 0 :=
  (by decide +kernel : ∀ t : Fin grid1.N, _)

theorem whole1 (c : Dev nD) (t : Fin cfg1.N) : iblk1 V c 1 t = V c main_v3 ∧ iblk1 V c 2 t = V c main_v136 := by
  obtain ⟨-, -, -, -, a10, a11, a20, a21⟩ := idx_facts1 t
  refine ⟨?_, ?_⟩
  · funext y
    show V c main_v3 (((cfg1.win 1).blk t).view.emb y) = V c main_v3 y
    refine congrArg (V c main_v3) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_v136 (((cfg1.win 2).blk t).view.emb y) = V c main_v136 y
    refine congrArg (V c main_v136) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega

theorem flushed1 (c : Dev nD) (t : Fin cfg1.N) :
    (dat1 V c).flushed 3 t = ((cfg1.win 3).blk t).view.read (Elt Ideal) (outRows (V c main_v135) (V c main_v3) (V c main_v136)) := by
  show (cfg1.win 3).cut (grid1.coords t) ((dat1 V c).after 3 t) = _
  rw [after1_3]
  obtain ⟨h1, h2⟩ := whole1 V c t
  rw [h1, h2]
  obtain ⟨e00, e01, e30, e31, -⟩ := idx_facts1 t
  funext j
  show out1_3 (F := Ideal) (iblk1 V c 0 t) (V c main_v3) (V c main_v136) j
    = outRows (V c main_v135) (V c main_v3) (V c main_v136) (((cfg1.win 3).blk t).view.emb j)
  refine point1 _ _ _ _ j _ (fun k => ?_) ?_
  · show V c main_v135 (((cfg1.win 0).blk t).view.emb (ix2 (⟨(j 0).val, (j 0).isLt⟩ : Fin 5000) k)) = V c main_v135 _
    refine congrArg (V c main_v135) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show (j 1).val = win1_3.index t (1 : Fin 2) * 64 + 1 * (j 1).val; omega

theorem mem_blk1 (t : Fin cfg1.N) (i : S200000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v137).slice (win1_3.rect t)).set ↔ _
  rw [View.set_slice_whole, Rect.mem_set_unit]
  exact Iff.rfl

theorem cover1 (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  refine ⟨⟨(i 0).val / 5000, by show _ < 40; omega⟩, flush1_3 _, ?_⟩
  rw [mem_blk1]
  obtain ⟨-, -, e30, e31, -⟩ := idx_facts1 ⟨(i 0).val / 5000, by show _ < 40; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e31]; omega

/-- The second region's output array after the region. -/
theorem final1 (c : Dev nD) : (dat1 V c).arrAt 3 cfg1.N = outRows (V c main_v135) (V c main_v3) (V c main_v136) :=
  (dat1 V c).arrAt_eq_of_cover 3 _ (fun t _ => flushed1 V c t) cover1

end Cert.KernelIdeal.Blocks

end
-- ==== Proof.RefDense.lean ====
/-
  The reference program's dense stages, read at one index over the extended reals.

  A node's row goes through the linear map, the layer normalisation and the rectifier of each branch; the two
  branches are mixed with the literal weights; a gathered pair is mixed likewise; an edge's message is its weight
  times the gathered row; the accumulated row is divided by the node's count; the output layer is a linear map
  followed by the rectifier. Each statement reads one element of one buffer as the per-row formula of the spec.
-/
import proofs.«134245_j55130200211996_2_alg».proof.Proof.Gen.ReferenceIdeal.Read
import proofs.«134245_j55130200211996_2_alg».proof.Proof.Spec

noncomputable section

namespace Cert.ReferenceIdeal.Dense

open Cert.ReferenceIdeal Cert.ReferenceIdeal.Read Idealize.ShloMosaic Idealize.ShloMosaic.ValueIdx Cert.Spec
open scoped BigOperators

/-- Two rank-3 indices with equal coordinates are equal. -/
local macro "idx3" : tactic =>
  `(tactic| exact funext fun a => Fin.ext (by match a with | ⟨0, _⟩ => rfl | ⟨1, _⟩ => rfl | ⟨2, _⟩ => rfl))
/-- Two rank-2 indices with equal coordinates are equal. -/
local macro "idx2" : tactic =>
  `(tactic| exact funext fun a => Fin.ext (by match a with | ⟨0, _⟩ => rfl | ⟨1, _⟩ => rfl))
/-- Two rank-1 indices with equal coordinates are equal. -/
local macro "idx1" : tactic =>
  `(tactic| exact funext fun a => Fin.ext (by match a with | ⟨0, _⟩ => rfl))

/-! ### Branch 0: linear map, layer normalisation, rectifier -/

/-- The linear part at a position: the row's product with the weights plus the bias. -/
theorem v3_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) (o : Fin 64) :
    val_main_v3 (F := Ideal) x0 x5 x6 (ix3 b n o) = (lin (fun o k => x5 (ix2 o k)) (fun o => x6 (ix1 o)) (fun k => x0 (ix3 b n k))) o := by
  rw [val_main_v3_apply, val_main_v0_apply, val_main_v2_apply, val_main_v1_apply, Ideal.addf_def]
  have e1 : idx_main_v1 (idx_main_v2 (ix3 b n o)) = ix1 o := by idx1
  have el : ∀ k : Fin 64, lidx_main_v0 (ix3 b n o) k = ix3 b n k := fun k => by idx3
  have er : ∀ k : Fin 64, ridx_main_v0 (ix3 b n o) k = ix2 o k := fun k => by idx2
  rw [e1]
  unfold lin
  exact congrArg (· + x6 (ix1 o)) (Finset.sum_congr rfl fun k _ => by rw [el k, er k])

/-- The row's sum. -/
theorem v4_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) :
    val_main_v4 (F := Ideal) x0 x5 x6 (ix2 b n) = ∑ k : Fin 64, (lin (fun o k => x5 (ix2 o k)) (fun o => x6 (ix1 o)) (fun k => x0 (ix3 b n k))) k := by
  rw [val_main_v4_apply, val_main_cst_apply, Ideal.ofBits_def, Ideal.ofBits_zero_f32, zero_add]
  refine Finset.sum_congr rfl fun k _ => ?_
  have e : idx_main_v4 (ix2 b n) k = ix3 b n k := by idx3
  rw [e, v3_at]

/-- The row's mean. -/
theorem v7_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) (z : Fin 1) :
    val_main_v7 (F := Ideal) x0 x5 x6 (ix3 b n z) = mean (lin (fun o k => x5 (ix2 o k)) (fun o => x6 (ix1 o)) (fun k => x0 (ix3 b n k))) := by
  rw [val_main_v7_apply, val_main_v5_apply, val_main_v6_apply, val_main_cst_0_apply, Ideal.ofBits_def,
    Ideal.hostDivf_def]
  have e : idx_main_v5 (ix3 b n z) = ix2 b n := by idx2
  rw [e, v4_at]
  rfl

/-- The centred row. -/
theorem v9_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) (o : Fin 64) :
    val_main_v9 (F := Ideal) x0 x5 x6 (ix3 b n o) = (lin (fun o k => x5 (ix2 o k)) (fun o => x6 (ix1 o)) (fun k => x0 (ix3 b n k))) o - mean (lin (fun o k => x5 (ix2 o k)) (fun o => x6 (ix1 o)) (fun k => x0 (ix3 b n k))) := by
  rw [val_main_v9_apply, val_main_v8_apply, Ideal.subf_def]
  have e : idx_main_v8 (ix3 b n o) = ix3 b n (0 : Fin 1) := by idx3
  rw [e, v7_at, v3_at]

/-- The sum of the squared deviations. -/
theorem v11_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) :
    val_main_v11 (F := Ideal) x0 x5 x6 (ix2 b n) = ∑ k : Fin 64, (fun o' => ((lin (fun o k => x5 (ix2 o k)) (fun o => x6 (ix1 o)) (fun k => x0 (ix3 b n k))) o' - mean (lin (fun o k => x5 (ix2 o k)) (fun o => x6 (ix1 o)) (fun k => x0 (ix3 b n k)))) * ((lin (fun o k => x5 (ix2 o k)) (fun o => x6 (ix1 o)) (fun k => x0 (ix3 b n k))) o' - mean (lin (fun o k => x5 (ix2 o k)) (fun o => x6 (ix1 o)) (fun k => x0 (ix3 b n k))))) k := by
  rw [val_main_v11_apply, val_main_cst_1_apply, Ideal.ofBits_def, Ideal.ofBits_zero_f32, zero_add]
  refine Finset.sum_congr rfl fun k _ => ?_
  have e : idx_main_v11 (ix2 b n) k = ix3 b n k := by idx3
  rw [e, val_main_v10_apply, Ideal.mulf_def, v9_at]

/-- The centred second moment. -/
theorem v14_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) (z : Fin 1) :
    val_main_v14 (F := Ideal) x0 x5 x6 (ix3 b n z) = mean (fun o' => ((lin (fun o k => x5 (ix2 o k)) (fun o => x6 (ix1 o)) (fun k => x0 (ix3 b n k))) o' - mean (lin (fun o k => x5 (ix2 o k)) (fun o => x6 (ix1 o)) (fun k => x0 (ix3 b n k)))) * ((lin (fun o k => x5 (ix2 o k)) (fun o => x6 (ix1 o)) (fun k => x0 (ix3 b n k))) o' - mean (lin (fun o k => x5 (ix2 o k)) (fun o => x6 (ix1 o)) (fun k => x0 (ix3 b n k))))) := by
  rw [val_main_v14_apply, val_main_v12_apply, val_main_v13_apply, val_main_cst_2_apply, Ideal.ofBits_def,
    Ideal.hostDivf_def]
  have e : idx_main_v12 (ix3 b n z) = ix2 b n := by idx2
  rw [e, v11_at]
  rfl

/-- The reciprocal square root of the variance plus the literal ε. -/
theorem v19_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) (z : Fin 1) :
    val_main_v19 (F := Ideal) x0 x5 x6 (ix3 b n z) = Ideal.rsqrt (mean (fun o' => ((lin (fun o k => x5 (ix2 o k)) (fun o => x6 (ix1 o)) (fun k => x0 (ix3 b n k))) o' - mean (lin (fun o k => x5 (ix2 o k)) (fun o => x6 (ix1 o)) (fun k => x0 (ix3 b n k)))) * ((lin (fun o k => x5 (ix2 o k)) (fun o => x6 (ix1 o)) (fun k => x0 (ix3 b n k))) o' - mean (lin (fun o k => x5 (ix2 o k)) (fun o => x6 (ix1 o)) (fun k => x0 (ix3 b n k))))) + ceps) := by
  rw [val_main_v19_apply, val_main_v18_apply, val_main_v17_apply, val_main_cst_3_apply, Ideal.ofBits_def,
    Ideal.addf_def, Ideal.hostUnary_rsqrt_def, v14_at]

/-- The normalised row. -/
theorem v21_at (x0 : (⟨S4x50000x64, .f32⟩ : BufTy).Contents (Elt Ideal)) (x5 : (⟨S64x64, .f32⟩ : BufTy).Contents (Elt Ideal)) (x6 : (⟨S64, .f32⟩ : BufTy).Contents (Elt Ideal)) (b : Fin 4) (n : Fin 50000) (o : Fin 64) :
    val_main_v21 (F := Ideal) x0 x5 x6 (ix3 b n o) = ((lin (fun o k => x5 (ix2 o k)) (fun o => x6 (ix1 o)) (fun k => x0 (ix3 b n k))) o - mean (lin (fun o k => x5 (ix2 o k)) (fun o => x6 (ix1 o)) (fun k => x0 (ix3 b n k)))) * Ideal.rsqrt (mean (fun o' => ((lin (fun o k => x5 (ix2 o k)) (fun o => x6 (ix1 o)) (fun k => x0 (ix3 b n k))) o' - mean (lin (fun o k => x5 (ix2 o k)) (fun o => x6 (ix1 o)) (fun k => x0 (ix3 b n k)))) * ((lin (fun o k => x5 (ix2 o k)) (fun o => x6 (ix1 o)) (fun k => x0 (ix3 b n k))) o' - mean (lin (fun o k => x5 (ix2 o k)) (fun o => x6 (ix1 o)) (fun k => x0 (ix3 b n k))))) + ceps) := by
  rw [val_main_v21_apply, val_main_v16_apply, val_main_v15_apply, val_main_v20_apply, Ideal.mulf_def,
    Ideal.subf_def]
  have e15 : idx_main_v15 (ix3 b n o) = ix3 b n (0 : Fin 1) := by idx3
  have e20 : idx_main_v20 (ix3 b n o) = ix3 b n (0 : Fin 1) := by idx3
  rw [e15, e20, v7_at, v3_at, v19_at]

/-- The branch at a position: the spec's branch of the position's row. -/
theorem v28_apply (x0 : (⟨S4x50000x64, .f32⟩ : BufTy).Contents (Elt Ideal)) (x5 : (⟨S64x64, .f32⟩ : BufTy).Contents (Elt Ideal)) (x6 x7 x8 : (⟨S64, .f32⟩ : BufTy).Contents (Elt Ideal)) (b : Fin 4) (n : Fin 50000) (o : Fin 64) :
    val_main_v28 (F := Ideal) x0 x5 x6 x7 x8 (ix3 b n o)
      = branch (fun o k => x5 (ix2 o k)) (fun o => x6 (ix1 o)) (fun o => x7 (ix1 o)) (fun o => x8 (ix1 o))
          (fun k => x0 (ix3 b n k)) o := by
  rw [val_main_v28_apply, val_main_v27_apply, val_main_v24_apply, val_main_v23_apply, val_main_v22_apply,
    val_main_v26_apply, val_main_v25_apply, val_main_call0_v0_apply, val_main_call0_cst_apply, Ideal.ofBits_def,
    Ideal.maximumf_def, Ideal.addf_def, Ideal.mulf_def]
  have eg : idx_main_v22 (idx_main_v23 (ix3 b n o)) = ix1 o := by idx1
  have eb : idx_main_v25 (idx_main_v26 (ix3 b n o)) = ix1 o := by idx1
  rw [eg, eb, v21_at]
  rfl

/-! ### Branch 1: linear map, layer normalisation, rectifier -/

/-- The linear part at a position: the row's product with the weights plus the bias. -/
theorem v32_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) (o : Fin 64) :
    val_main_v32 (F := Ideal) x0 x9 x10 (ix3 b n o) = (lin (fun o k => x9 (ix2 o k)) (fun o => x10 (ix1 o)) (fun k => x0 (ix3 b n k))) o := by
  rw [val_main_v32_apply, val_main_v29_apply, val_main_v31_apply, val_main_v30_apply, Ideal.addf_def]
  have e1 : idx_main_v30 (idx_main_v31 (ix3 b n o)) = ix1 o := by idx1
  have el : ∀ k : Fin 64, lidx_main_v29 (ix3 b n o) k = ix3 b n k := fun k => by idx3
  have er : ∀ k : Fin 64, ridx_main_v29 (ix3 b n o) k = ix2 o k := fun k => by idx2
  rw [e1]
  unfold lin
  exact congrArg (· + x10 (ix1 o)) (Finset.sum_congr rfl fun k _ => by rw [el k, er k])

/-- The row's sum. -/
theorem v33_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) :
    val_main_v33 (F := Ideal) x0 x9 x10 (ix2 b n) = ∑ k : Fin 64, (lin (fun o k => x9 (ix2 o k)) (fun o => x10 (ix1 o)) (fun k => x0 (ix3 b n k))) k := by
  rw [val_main_v33_apply, val_main_cst_4_apply, Ideal.ofBits_def, Ideal.ofBits_zero_f32, zero_add]
  refine Finset.sum_congr rfl fun k _ => ?_
  have e : idx_main_v33 (ix2 b n) k = ix3 b n k := by idx3
  rw [e, v32_at]

/-- The row's mean. -/
theorem v36_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) (z : Fin 1) :
    val_main_v36 (F := Ideal) x0 x9 x10 (ix3 b n z) = mean (lin (fun o k => x9 (ix2 o k)) (fun o => x10 (ix1 o)) (fun k => x0 (ix3 b n k))) := by
  rw [val_main_v36_apply, val_main_v34_apply, val_main_v35_apply, val_main_cst_5_apply, Ideal.ofBits_def,
    Ideal.hostDivf_def]
  have e : idx_main_v34 (ix3 b n z) = ix2 b n := by idx2
  rw [e, v33_at]
  rfl

/-- The centred row. -/
theorem v38_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) (o : Fin 64) :
    val_main_v38 (F := Ideal) x0 x9 x10 (ix3 b n o) = (lin (fun o k => x9 (ix2 o k)) (fun o => x10 (ix1 o)) (fun k => x0 (ix3 b n k))) o - mean (lin (fun o k => x9 (ix2 o k)) (fun o => x10 (ix1 o)) (fun k => x0 (ix3 b n k))) := by
  rw [val_main_v38_apply, val_main_v37_apply, Ideal.subf_def]
  have e : idx_main_v37 (ix3 b n o) = ix3 b n (0 : Fin 1) := by idx3
  rw [e, v36_at, v32_at]

/-- The sum of the squared deviations. -/
theorem v40_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) :
    val_main_v40 (F := Ideal) x0 x9 x10 (ix2 b n) = ∑ k : Fin 64, (fun o' => ((lin (fun o k => x9 (ix2 o k)) (fun o => x10 (ix1 o)) (fun k => x0 (ix3 b n k))) o' - mean (lin (fun o k => x9 (ix2 o k)) (fun o => x10 (ix1 o)) (fun k => x0 (ix3 b n k)))) * ((lin (fun o k => x9 (ix2 o k)) (fun o => x10 (ix1 o)) (fun k => x0 (ix3 b n k))) o' - mean (lin (fun o k => x9 (ix2 o k)) (fun o => x10 (ix1 o)) (fun k => x0 (ix3 b n k))))) k := by
  rw [val_main_v40_apply, val_main_cst_6_apply, Ideal.ofBits_def, Ideal.ofBits_zero_f32, zero_add]
  refine Finset.sum_congr rfl fun k _ => ?_
  have e : idx_main_v40 (ix2 b n) k = ix3 b n k := by idx3
  rw [e, val_main_v39_apply, Ideal.mulf_def, v38_at]

/-- The centred second moment. -/
theorem v43_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) (z : Fin 1) :
    val_main_v43 (F := Ideal) x0 x9 x10 (ix3 b n z) = mean (fun o' => ((lin (fun o k => x9 (ix2 o k)) (fun o => x10 (ix1 o)) (fun k => x0 (ix3 b n k))) o' - mean (lin (fun o k => x9 (ix2 o k)) (fun o => x10 (ix1 o)) (fun k => x0 (ix3 b n k)))) * ((lin (fun o k => x9 (ix2 o k)) (fun o => x10 (ix1 o)) (fun k => x0 (ix3 b n k))) o' - mean (lin (fun o k => x9 (ix2 o k)) (fun o => x10 (ix1 o)) (fun k => x0 (ix3 b n k))))) := by
  rw [val_main_v43_apply, val_main_v41_apply, val_main_v42_apply, val_main_cst_7_apply, Ideal.ofBits_def,
    Ideal.hostDivf_def]
  have e : idx_main_v41 (ix3 b n z) = ix2 b n := by idx2
  rw [e, v40_at]
  rfl

/-- The reciprocal square root of the variance plus the literal ε. -/
theorem v48_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) (z : Fin 1) :
    val_main_v48 (F := Ideal) x0 x9 x10 (ix3 b n z) = Ideal.rsqrt (mean (fun o' => ((lin (fun o k => x9 (ix2 o k)) (fun o => x10 (ix1 o)) (fun k => x0 (ix3 b n k))) o' - mean (lin (fun o k => x9 (ix2 o k)) (fun o => x10 (ix1 o)) (fun k => x0 (ix3 b n k)))) * ((lin (fun o k => x9 (ix2 o k)) (fun o => x10 (ix1 o)) (fun k => x0 (ix3 b n k))) o' - mean (lin (fun o k => x9 (ix2 o k)) (fun o => x10 (ix1 o)) (fun k => x0 (ix3 b n k))))) + ceps) := by
  rw [val_main_v48_apply, val_main_v47_apply, val_main_v46_apply, val_main_cst_8_apply, Ideal.ofBits_def,
    Ideal.addf_def, Ideal.hostUnary_rsqrt_def, v43_at]

/-- The normalised row. -/
theorem v50_at (x0 : (⟨S4x50000x64, .f32⟩ : BufTy).Contents (Elt Ideal)) (x9 : (⟨S64x64, .f32⟩ : BufTy).Contents (Elt Ideal)) (x10 : (⟨S64, .f32⟩ : BufTy).Contents (Elt Ideal)) (b : Fin 4) (n : Fin 50000) (o : Fin 64) :
    val_main_v50 (F := Ideal) x0 x9 x10 (ix3 b n o) = ((lin (fun o k => x9 (ix2 o k)) (fun o => x10 (ix1 o)) (fun k => x0 (ix3 b n k))) o - mean (lin (fun o k => x9 (ix2 o k)) (fun o => x10 (ix1 o)) (fun k => x0 (ix3 b n k)))) * Ideal.rsqrt (mean (fun o' => ((lin (fun o k => x9 (ix2 o k)) (fun o => x10 (ix1 o)) (fun k => x0 (ix3 b n k))) o' - mean (lin (fun o k => x9 (ix2 o k)) (fun o => x10 (ix1 o)) (fun k => x0 (ix3 b n k)))) * ((lin (fun o k => x9 (ix2 o k)) (fun o => x10 (ix1 o)) (fun k => x0 (ix3 b n k))) o' - mean (lin (fun o k => x9 (ix2 o k)) (fun o => x10 (ix1 o)) (fun k => x0 (ix3 b n k))))) + ceps) := by
  rw [val_main_v50_apply, val_main_v45_apply, val_main_v44_apply, val_main_v49_apply, Ideal.mulf_def,
    Ideal.subf_def]
  have e15 : idx_main_v44 (ix3 b n o) = ix3 b n (0 : Fin 1) := by idx3
  have e20 : idx_main_v49 (ix3 b n o) = ix3 b n (0 : Fin 1) := by idx3
  rw [e15, e20, v36_at, v32_at, v48_at]

/-- The branch at a position: the spec's branch of the position's row. -/
theorem v57_apply (x0 : (⟨S4x50000x64, .f32⟩ : BufTy).Contents (Elt Ideal)) (x9 : (⟨S64x64, .f32⟩ : BufTy).Contents (Elt Ideal)) (x10 x11 x12 : (⟨S64, .f32⟩ : BufTy).Contents (Elt Ideal)) (b : Fin 4) (n : Fin 50000) (o : Fin 64) :
    val_main_v57 (F := Ideal) x0 x9 x10 x11 x12 (ix3 b n o)
      = branch (fun o k => x9 (ix2 o k)) (fun o => x10 (ix1 o)) (fun o => x11 (ix1 o)) (fun o => x12 (ix1 o))
          (fun k => x0 (ix3 b n k)) o := by
  rw [val_main_v57_apply, val_main_v56_apply, val_main_v53_apply, val_main_v52_apply, val_main_v51_apply,
    val_main_v55_apply, val_main_v54_apply, val_main_call1_v0_apply, val_main_call1_cst_apply, Ideal.ofBits_def,
    Ideal.maximumf_def, Ideal.addf_def, Ideal.mulf_def]
  have eg : idx_main_v51 (idx_main_v52 (ix3 b n o)) = ix1 o := by idx1
  have eb : idx_main_v54 (idx_main_v55 (ix3 b n o)) = ix1 o := by idx1
  rw [eg, eb, v50_at]
  rfl

/-! ### The mixes, the edge product, the division by the count, the output layer -/

/-- The mix of the two branches at an ordinary position. -/
theorem v62_apply (x0 : (⟨S4x50000x64, .f32⟩ : BufTy).Contents (Elt Ideal)) (x5 : (⟨S64x64, .f32⟩ : BufTy).Contents (Elt Ideal)) (x6 x7 x8 : (⟨S64, .f32⟩ : BufTy).Contents (Elt Ideal)) (x9 : (⟨S64x64, .f32⟩ : BufTy).Contents (Elt Ideal)) (x10 x11 x12 : (⟨S64, .f32⟩ : BufTy).Contents (Elt Ideal)) (b : Fin 4) (n : Fin 50000) (o : Fin 64) :
    val_main_v62 (F := Ideal) x0 x5 x6 x7 x8 x9 x10 x11 x12 (ix3 b n o)
      = mix (val_main_v28 (F := Ideal) x0 x5 x6 x7 x8 (ix3 b n o)) (val_main_v57 (F := Ideal) x0 x9 x10 x11 x12 (ix3 b n o)) := by
  rw [val_main_v62_apply, val_main_v59_apply, val_main_v61_apply, val_main_v58_apply, val_main_v60_apply, val_main_cst_9_apply,
    val_main_cst_10_apply, Ideal.ofBits_def, Ideal.ofBits_def, Ideal.addf_def, Ideal.mulf_def, Ideal.mulf_def]
  rfl

/-- The mix of the two gathered rows at a labeled position. -/
theorem v95_apply (x0 : (⟨S4x50000x64, .f32⟩ : BufTy).Contents (Elt Ideal)) (x3 x4 : (⟨S20000, .i32⟩ : BufTy).Contents (Elt Ideal)) (x5 : (⟨S64x64, .f32⟩ : BufTy).Contents (Elt Ideal)) (x6 x7 x8 : (⟨S64, .f32⟩ : BufTy).Contents (Elt Ideal)) (x9 : (⟨S64x64, .f32⟩ : BufTy).Contents (Elt Ideal)) (x10 x11 x12 : (⟨S64, .f32⟩ : BufTy).Contents (Elt Ideal)) (k : Fin 20000) (o : Fin 64) :
    val_main_v95 (F := Ideal) x0 x3 x4 x5 x6 x7 x8 x9 x10 x11 x12 (ix2 k o)
      = mix (val_main_v76 (F := Ideal) x0 x3 x4 x9 x10 x11 x12 (ix2 k o)) (val_main_v92 (F := Ideal) x0 x3 x4 x5 x6 x7 x8 (ix2 k o)) := by
  rw [val_main_v95_apply, val_main_v78_apply, val_main_v94_apply, val_main_v77_apply, val_main_v93_apply, val_main_cst_14_apply,
    val_main_cst_19_apply, Ideal.ofBits_def, Ideal.ofBits_def, Ideal.addf_def, Ideal.mulf_def, Ideal.mulf_def]
  rfl

/-- An edge's message: its weight times the gathered row. -/
theorem v131_apply (x0 : (⟨S4x50000x64, .f32⟩ : BufTy).Contents (Elt Ideal)) (x1 : (⟨S2x800000, .i32⟩ : BufTy).Contents (Elt Ideal)) (x2 : (⟨S800000, .f32⟩ : BufTy).Contents (Elt Ideal)) (x3 x4 : (⟨S20000, .i32⟩ : BufTy).Contents (Elt Ideal)) (x5 : (⟨S64x64, .f32⟩ : BufTy).Contents (Elt Ideal)) (x6 x7 x8 : (⟨S64, .f32⟩ : BufTy).Contents (Elt Ideal)) (x9 : (⟨S64x64, .f32⟩ : BufTy).Contents (Elt Ideal)) (x10 x11 x12 : (⟨S64, .f32⟩ : BufTy).Contents (Elt Ideal))
    (b : Fin 4) (e : Fin 800000) (c : Fin 64) :
    val_main_v131 (F := Ideal) x0 x1 x2 x3 x4 x5 x6 x7 x8 x9 x10 x11 x12 (ix3 b e c)
      = x2 (ix1 e) * val_main_v128 (F := Ideal) x0 x1 x3 x4 x5 x6 x7 x8 x9 x10 x11 x12 (ix3 b e c) := by
  rw [val_main_v131_apply, val_main_v130_apply, val_main_v129_apply, val_main_v121_apply, Ideal.mulf_def]
  have h : idx_main_v121 (idx_main_v129 (idx_main_v130 (ix3 b e c))) = ix1 e := by idx1
  rw [h]

/-- The accumulated row divided by the node's count. -/
theorem v138_apply (x0 : (⟨S4x50000x64, .f32⟩ : BufTy).Contents (Elt Ideal)) (x1 : (⟨S2x800000, .i32⟩ : BufTy).Contents (Elt Ideal)) (x2 : (⟨S800000, .f32⟩ : BufTy).Contents (Elt Ideal)) (x3 x4 : (⟨S20000, .i32⟩ : BufTy).Contents (Elt Ideal)) (x5 : (⟨S64x64, .f32⟩ : BufTy).Contents (Elt Ideal)) (x6 x7 x8 : (⟨S64, .f32⟩ : BufTy).Contents (Elt Ideal)) (x9 : (⟨S64x64, .f32⟩ : BufTy).Contents (Elt Ideal)) (x10 x11 x12 : (⟨S64, .f32⟩ : BufTy).Contents (Elt Ideal))
    (b : Fin 4) (n : Fin 50000) (c : Fin 64) :
    val_main_v138 (F := Ideal) x0 x1 x2 x3 x4 x5 x6 x7 x8 x9 x10 x11 x12 (ix3 b n c)
      = Ideal.div (val_main_v135 (F := Ideal) x0 x1 x2 x3 x4 x5 x6 x7 x8 x9 x10 x11 x12 (ix3 b n c))
          (val_main_v119 (F := Ideal) x1 (ix1 n)) := by
  rw [val_main_v138_apply, val_main_v137_apply, val_main_v136_apply, val_main_v120_apply, Ideal.hostDivf_def]
  have h : idx_main_v120 (idx_main_v136 (idx_main_v137 (ix3 b n c))) = ix1 n := by idx1
  rw [h]

/-- The output layer at a position: the spec's output row of the position's divided row. -/
theorem v143_apply (x0 : (⟨S4x50000x64, .f32⟩ : BufTy).Contents (Elt Ideal)) (x1 : (⟨S2x800000, .i32⟩ : BufTy).Contents (Elt Ideal)) (x2 : (⟨S800000, .f32⟩ : BufTy).Contents (Elt Ideal)) (x3 x4 : (⟨S20000, .i32⟩ : BufTy).Contents (Elt Ideal)) (x5 : (⟨S64x64, .f32⟩ : BufTy).Contents (Elt Ideal)) (x6 x7 x8 : (⟨S64, .f32⟩ : BufTy).Contents (Elt Ideal)) (x9 : (⟨S64x64, .f32⟩ : BufTy).Contents (Elt Ideal)) (x10 x11 x12 : (⟨S64, .f32⟩ : BufTy).Contents (Elt Ideal))
    (x13 : (⟨S64x64, .f32⟩ : BufTy).Contents (Elt Ideal)) (x14 : (⟨S64, .f32⟩ : BufTy).Contents (Elt Ideal)) (b : Fin 4) (n : Fin 50000) (o : Fin 64) :
    val_main_v143 (F := Ideal) x0 x1 x2 x3 x4 x5 x6 x7 x8 x9 x10 x11 x12 x13 x14 (ix3 b n o)
      = outRow (fun o k => x13 (ix2 o k)) (fun o => x14 (ix1 o))
          (fun k => val_main_v138 (F := Ideal) x0 x1 x2 x3 x4 x5 x6 x7 x8 x9 x10 x11 x12 (ix3 b n k)) o := by
  rw [val_main_v143_apply, val_main_v142_apply, val_main_v139_apply, val_main_v141_apply, val_main_v140_apply,
    val_main_call2_v0_apply, val_main_call2_cst_apply, Ideal.ofBits_def, Ideal.maximumf_def, Ideal.addf_def]
  have e1 : idx_main_v140 (idx_main_v141 (ix3 b n o)) = ix1 o := by idx1
  have el : ∀ k : Fin 64, lidx_main_v139 (ix3 b n o) k = ix3 b n k := fun k => by idx3
  have er : ∀ k : Fin 64, ridx_main_v139 (ix3 b n o) k = ix2 o k := fun k => by idx2
  rw [e1]
  unfold outRow lin
  exact congrArg (fun s => max (s + x14 (ix1 o)) c0) (Finset.sum_congr rfl fun k _ => by rw [el k, er k])

end Cert.ReferenceIdeal.Dense

end
-- ==== Proof.LibLayoutRead.lean ====
/-
  The plain layout operations of this kernel read at one index, for any element type.

  A [4, 50000, 64] array and the [200000, 64] array with the same row-major order hold the same element at
  (b, n, k) and at (b · 50000 + n, k); a transposed 64 × 64 matrix holds at (k, o) the operand's element at (o, k);
  a vector of 64 elements seen as one row holds at (0, o) the vector's element at o.
-/
import Idealize.ShloMosaic.Lib.ValueLayout

namespace Cert.LibLayoutRead

open Idealize.ShloMosaic Idealize.ShloMosaic.ValueIdx

variable {α : Type}

/-- A position (b, n) of a [4, 50000] grid has a row-major position below 200000. -/
theorem flat_lt (b : Fin 4) (n : Fin 50000) : b.val * 50000 + n.val < 200000 := by
  have := b.isLt
  have := n.isLt
  omega

/-- The [4, 50000, 64] array cast to [200000, 64] reads, at (b · 50000 + n, k), the operand at (b, n, k). -/
theorem flat_of_cube (x : (⟨3, ![4, 50000, 64]⟩ : Shape).Idx → α)
    (h : (⟨3, ![4, 50000, 64]⟩ : Shape).ShapeCasts ⟨2, ![200000, 64]⟩) (b : Fin 4) (n : Fin 50000) (k : Fin 64)
    (hbn : b.val * 50000 + n.val < 200000) :
    shapeCast ⟨2, ![200000, 64]⟩ x h (ix2 (⟨b.val * 50000 + n.val, hbn⟩ : Fin 200000) k) = x (ix3 b n k) :=
  shapeCast_apply x h _ _ (by
    rw [Shape.rowMajor_val_three, Shape.rowMajor_val_two]
    rfl)

/-- The [200000, 64] array cast to [4, 50000, 64] reads, at (b, n, k), the operand at (b · 50000 + n, k). -/
theorem cube_of_flat (y : (⟨2, ![200000, 64]⟩ : Shape).Idx → α)
    (h : (⟨2, ![200000, 64]⟩ : Shape).ShapeCasts ⟨3, ![4, 50000, 64]⟩) (b : Fin 4) (n : Fin 50000) (k : Fin 64)
    (hbn : b.val * 50000 + n.val < 200000) :
    shapeCast ⟨3, ![4, 50000, 64]⟩ y h (ix3 b n k) = y (ix2 (⟨b.val * 50000 + n.val, hbn⟩ : Fin 200000) k) :=
  shapeCast_apply y h _ _ (by
    rw [Shape.rowMajor_val_three, Shape.rowMajor_val_two]
    rfl)

/-- The transposed 64 × 64 matrix reads, at (k, o), the operand at (o, k). -/
theorem transpose64 (w : (⟨2, ![64, 64]⟩ : Shape).Idx → α)
    (h : (⟨2, ![64, 64]⟩ : Shape).Transposes [1, 0] ⟨2, ![64, 64]⟩) (k o : Fin 64) :
    transpose ⟨2, ![64, 64]⟩ [1, 0] w h (ix2 k o) = w (ix2 o k) :=
  transpose_ix2_apply w h k o

/-- The vector of 64 elements cast to one row reads, at (0, o), the vector at o. -/
theorem row_of_vec (v : (⟨1, ![64]⟩ : Shape).Idx → α) (h : (⟨1, ![64]⟩ : Shape).ShapeCasts ⟨2, ![1, 64]⟩) (o : Fin 64) :
    shapeCast ⟨2, ![1, 64]⟩ v h (ix2 (0 : Fin 1) o) = v (ix1 o) :=
  shapeCast_a_1a_apply v h 0 o

end Cert.LibLayoutRead
-- ==== Proof.DenseBridge.lean ====
/-
  The two programs name the same scatter and the same gather of a labeled row: the records that describe them have
  equal fields, so the operations they define agree on equal operands.
-/
import proofs.«134245_j55130200211996_2_alg».proof.KernelIdeal
import proofs.«134245_j55130200211996_2_alg».proof.ReferenceIdeal

namespace Cert.DenseBridge

open Idealize.ShloMosaic

variable [Cert.KernelIdeal.Facts₀] [Cert.ReferenceIdeal.Facts₀] {α : Type}

/-- The write of the labeled rows into the [4, 50000, 64] array: the kernel's and the reference's agree on equal
    operands, equal indices and equal updates. -/
theorem set_eq (x y : (⟨3, ![4, 50000, 64]⟩ : Shape).Idx → α) (idx : IVec ⟨2, ![20000, 2]⟩ 32)
    (u v : (⟨2, ![20000, 64]⟩ : Shape).Idx → α) (hxy : x = y) (huv : u = v) :
    Host.scatter Cert.KernelIdeal.scatter_S4x50000x64_S20000x2_S20000x64_1_01_01_1 (fun _ b => b) x idx u
      = Host.scatter Cert.ReferenceIdeal.scatter_S4x50000x64_S20000x2_S20000x64_1_01_01_1 (fun _ b => b) y idx v := by
  subst hxy huv
  rfl

/-- The read of the labeled rows out of the [4, 50000, 64] array: the kernel's and the reference's agree. -/
theorem gatherPair_eq (x : (⟨3, ![4, 50000, 64]⟩ : Shape).Idx → α) (idx : IVec ⟨2, ![20000, 2]⟩ 32) :
    Host.gather Cert.KernelIdeal.gather_S4x50000x64_S20000x2_S20000x64_1_01_n_n_01_1_1164 x idx
      = Host.gather Cert.ReferenceIdeal.gather_S4x50000x64_S20000x2_S20000x64_1_01_n_n_01_1_1164 x idx :=
  rfl

end Cert.DenseBridge
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«134245_j55130200211996_2_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.KLab.lean ====
/-
  The labeled rows on the host: the row and column indices paired, the rows gathered, two branches (linear map,
  layer normalisation over the 64 channels, rectifier) run on them and mixed with the literal weights 0.8 and 0.2.

  The operations are named here as pure functions of the argument arrays, exactly as the program applies them; the
  buffers the program writes them to are identified with these functions, one stretch of host operations at a time;
  and the mixed rows are read at one index (row k, channel o) as the per-row mathematics of the specification.
-/
import proofs.«134245_j55130200211996_2_alg».proof.Proof.Gen.KernelIdeal.Frame
import proofs.«134245_j55130200211996_2_alg».proof.Proof.Spec
import proofs.«134245_j55130200211996_2_alg».proof.Proof.LibDotRead
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Lab

open Cert.KernelIdeal Cert.KernelIdeal.Gen
open Idealize.ShloMosaic Idealize.ShloMosaic.TcCoe Idealize.SL.Sem Idealize.ShloMosaic.StableHlo

/-! ## The operations as functions of the argument arrays -/

/-- The (batch, row) index pairs: each index with its extent added where it is negative, the two laid side by
    side as the columns of a `[20000, 2]` array. -/
def pairIdx (sr sc : (⟨S20000, .i32⟩ : BufTy).Contents (Elt Ideal)) : (⟨S20000x2, .i32⟩ : BufTy).Contents (Elt Ideal) :=
  concatenate S20000x2 1
    [⟨S20000x1, broadcastInDim S20000x1 ![0] bcast_S20000_S20000x1_0
        (select (cmpi .slt sr (broadcastInDim S20000 ![] bcast_S_S20000 (constantI S_ 32 0#32)))
          (addi sr (broadcastInDim S20000 ![] bcast_S_S20000 (constantI S_ 32 4#32))) sr)⟩,
     ⟨S20000x1, broadcastInDim S20000x1 ![0] bcast_S20000_S20000x1_0
        (select (cmpi .slt sc (broadcastInDim S20000 ![] bcast_S_S20000 (constantI S_ 32 0#32)))
          (addi sc (broadcastInDim S20000 ![] bcast_S_S20000 (constantI S_ 32 50000#32))) sc)⟩]
    concatenates_S20000x1_S20000x1_S20000x2_d1

/-- The gathered rows: the table read at the index pairs. -/
def hostRows (x0 : (⟨S4x50000x64, .f32⟩ : BufTy).Contents (Elt Ideal)) (sr sc : (⟨S20000, .i32⟩ : BufTy).Contents (Elt Ideal)) : (⟨S20000x64, .f32⟩ : BufTy).Contents (Elt Ideal) :=
  Host.gather gather_S4x50000x64_S20000x2_S20000x64_1_01_n_n_01_1_1164 x0 (pairIdx sr sc)

/-- The linear part of a branch: the rows times the transposed weight, plus the bias along the rows. -/
def hostLin (x : (⟨S20000x64, .f32⟩ : BufTy).Contents (Elt Ideal)) (w : (⟨S64x64, .f32⟩ : BufTy).Contents (Elt Ideal)) (b : (⟨S64, .f32⟩ : BufTy).Contents (Elt Ideal)) : (⟨S20000x64, .f32⟩ : BufTy).Contents (Elt Ideal) :=
  addf (F := Ideal) (φ := .f32)
    (Host.dotGeneral (F := Ideal) (φ₁ := .f32) (φ₂ := .f32) dot_S20000x64_S64x64_S20000x64_1_0_0_1_n_n none x
      (transpose S64x64 [1, 0] w transposes_S64x64_S64x64_1_0))
    (broadcastInDim S20000x64 ![0, 1] bcast_S1x64_S20000x64_0_1 (broadcastInDim S1x64 ![1] bcast_S64_S1x64_1 b))

/-- The mean of each row, kept as a column: the row's sum divided by the literal 64. -/
def hostMean (h : (⟨S20000x64, .f32⟩ : BufTy).Contents (Elt Ideal)) : (⟨S20000x1, .f32⟩ : BufTy).Contents (Elt Ideal) :=
  Host.divf (F := Ideal) (φ := .f32)
    (broadcastInDim S20000x1 ![0] bcast_S20000_S20000x1_0
      (Host.reduceAdd (F := Ideal) (φ := .f32) h (constant (F := Ideal) S_ .f32 0x00000000#32) reducesTo_S20000x64_S20000_d1 h_S_))
    (broadcastInDim S20000x1 ![] bcast_S_S20000x1 (constant (F := Ideal) S_ .f32 0x42800000#32))

/-- Each entry minus its row's mean. -/
def hostCentred (h : (⟨S20000x64, .f32⟩ : BufTy).Contents (Elt Ideal)) : (⟨S20000x64, .f32⟩ : BufTy).Contents (Elt Ideal) :=
  subf (F := Ideal) (φ := .f32) h (broadcastInDim S20000x64 ![0, 1] bcast_S20000x1_S20000x64_0_1 (hostMean h))

/-- The reciprocal square root of each row's centred second moment plus the literal ε, kept as a column. -/
def hostRstd (h : (⟨S20000x64, .f32⟩ : BufTy).Contents (Elt Ideal)) : (⟨S20000x1, .f32⟩ : BufTy).Contents (Elt Ideal) :=
  Host.rsqrt (F := Ideal) (φ := .f32)
    (addf (F := Ideal) (φ := .f32) (hostMean (mulf (F := Ideal) (φ := .f32) (hostCentred h) (hostCentred h)))
      (broadcastInDim S20000x1 ![] bcast_S_S20000x1 (constant (F := Ideal) S_ .f32 0x3727C5AC#32)))

/-- Layer normalisation of the rows with scale `g` and shift `be`. -/
def hostNorm (h : (⟨S20000x64, .f32⟩ : BufTy).Contents (Elt Ideal)) (g be : (⟨S64, .f32⟩ : BufTy).Contents (Elt Ideal)) : (⟨S20000x64, .f32⟩ : BufTy).Contents (Elt Ideal) :=
  addf (F := Ideal) (φ := .f32)
    (mulf (F := Ideal) (φ := .f32)
      (mulf (F := Ideal) (φ := .f32) (hostCentred h) (broadcastInDim S20000x64 ![0, 1] bcast_S20000x1_S20000x64_0_1 (hostRstd h)))
      (broadcastInDim S20000x64 ![0, 1] bcast_S1x64_S20000x64_0_1 (broadcastInDim S1x64 ![1] bcast_S64_S1x64_1 g)))
    (broadcastInDim S20000x64 ![0, 1] bcast_S1x64_S20000x64_0_1 (broadcastInDim S1x64 ![1] bcast_S64_S1x64_1 be))

/-- The rectifier: the maximum with the zero word. -/
def hostRelu (y : (⟨S20000x64, .f32⟩ : BufTy).Contents (Elt Ideal)) : (⟨S20000x64, .f32⟩ : BufTy).Contents (Elt Ideal) :=
  maximumf (F := Ideal) (φ := .f32) y (broadcastInDim S20000x64 ![] bcast_S_S20000x64 (constant (F := Ideal) S_ .f32 0x00000000#32))

/-- One branch on the gathered rows: linear map, layer normalisation, rectifier. -/
def hostBranch (x : (⟨S20000x64, .f32⟩ : BufTy).Contents (Elt Ideal)) (w : (⟨S64x64, .f32⟩ : BufTy).Contents (Elt Ideal)) (b g be : (⟨S64, .f32⟩ : BufTy).Contents (Elt Ideal)) : (⟨S20000x64, .f32⟩ : BufTy).Contents (Elt Ideal) :=
  hostRelu (hostNorm (hostLin x w b) g be)

/-- The mix `0.8 · u + 0.2 · v` of two arrays of rows. -/
def hostMix (u v : (⟨S20000x64, .f32⟩ : BufTy).Contents (Elt Ideal)) : (⟨S20000x64, .f32⟩ : BufTy).Contents (Elt Ideal) :=
  addf (F := Ideal) (φ := .f32)
    (mulf (F := Ideal) (φ := .f32) (broadcastInDim S20000x64 ![] bcast_S_S20000x64 (constant (F := Ideal) S_ .f32 0x3F4CCCCD#32)) u)
    (mulf (F := Ideal) (φ := .f32) (broadcastInDim S20000x64 ![] bcast_S_S20000x64 (constant (F := Ideal) S_ .f32 0x3E4CCCCD#32)) v)

/-- The labeled mix: 0.8 times the second branch plus 0.2 times the first. -/
def lab (x : (⟨S20000x64, .f32⟩ : BufTy).Contents (Elt Ideal)) (w0 : (⟨S64x64, .f32⟩ : BufTy).Contents (Elt Ideal)) (b0 g0 be0 : (⟨S64, .f32⟩ : BufTy).Contents (Elt Ideal)) (w1 : (⟨S64x64, .f32⟩ : BufTy).Contents (Elt Ideal)) (b1 g1 be1 : (⟨S64, .f32⟩ : BufTy).Contents (Elt Ideal)) : (⟨S20000x64, .f32⟩ : BufTy).Contents (Elt Ideal) :=
  hostMix (hostBranch x w1 b1 g1 be1) (hostBranch x w0 b0 g0 be0)

/-! ## One stretch of host operations at a time, from any incoming contents -/

section Stretches

variable (V : Valuation τ sig (Elt Ideal))

set_option maxHeartbeats 4000000 in
/-- The index pairs the gather reads. -/
theorem s1_v24 : after hostOps1 V (Proc.devRef .tc main_v24) = pairIdx (V (Proc.devRef .tc main_arg3)) (V (Proc.devRef .tc main_arg4)) := by
  unfold pairIdx
  after_results_simp
  all_goals rfl

set_option maxHeartbeats 4000000 in
/-- The gathered rows. -/
theorem s1_v25 : after hostOps1 V (Proc.devRef .tc main_v25)
    = hostRows (V (Proc.devRef .tc main_arg0)) (V (Proc.devRef .tc main_arg3)) (V (Proc.devRef .tc main_arg4)) := by
  unfold hostRows pairIdx
  after_results_simp
  all_goals rfl

set_option maxHeartbeats 4000000 in
/-- The first branch's linear part. -/
theorem s1_v30 : after hostOps1 V (Proc.devRef .tc main_v30)
    = hostLin (after hostOps1 V (Proc.devRef .tc main_v25)) (V (Proc.devRef .tc main_arg5)) (V (Proc.devRef .tc main_arg6)) := by
  unfold hostLin
  after_results_simp
  all_goals rfl

set_option maxHeartbeats 4000000 in
/-- The second branch's linear part. -/
theorem s1_v35 : after hostOps1 V (Proc.devRef .tc main_v35)
    = hostLin (after hostOps1 V (Proc.devRef .tc main_v25)) (V (Proc.devRef .tc main_arg9)) (V (Proc.devRef .tc main_arg10)) := by
  unfold hostLin
  after_results_simp
  all_goals rfl

set_option maxHeartbeats 8000000 in
/-- The first branch's layer normalisation. -/
theorem s1_v59 : after hostOps1 V (Proc.devRef .tc main_v59)
    = hostNorm (after hostOps1 V (Proc.devRef .tc main_v30)) (V (Proc.devRef .tc main_arg7)) (V (Proc.devRef .tc main_arg8)) := by
  unfold hostNorm hostRstd hostCentred hostMean
  after_results_simp
  all_goals rfl

set_option maxHeartbeats 4000000 in
/-- The first rectifier. -/
theorem s2_v60 : after hostOps1_1 V (Proc.devRef .tc main_v60) = hostRelu (V (Proc.devRef .tc main_v59)) := by
  unfold hostRelu
  after_results_simp
  all_goals rfl

set_option maxHeartbeats 4000000 in
theorem s2_v35 : after hostOps1_1 V (Proc.devRef .tc main_v35) = V (Proc.devRef .tc main_v35) := by
  after_results_simp

set_option maxHeartbeats 8000000 in
/-- The second branch's layer normalisation. -/
theorem s3_v84 : after hostOps1_2 V (Proc.devRef .tc main_v84)
    = hostNorm (V (Proc.devRef .tc main_v35)) (V (Proc.devRef .tc main_arg11)) (V (Proc.devRef .tc main_arg12)) := by
  unfold hostNorm hostRstd hostCentred hostMean
  after_results_simp
  all_goals rfl

set_option maxHeartbeats 4000000 in
theorem s3_v60 : after hostOps1_2 V (Proc.devRef .tc main_v60) = V (Proc.devRef .tc main_v60) := by
  after_results_simp

set_option maxHeartbeats 4000000 in
/-- The second rectifier. -/
theorem s4_v85 : after hostOps1_3 V (Proc.devRef .tc main_v85) = hostRelu (V (Proc.devRef .tc main_v84)) := by
  unfold hostRelu
  after_results_simp
  all_goals rfl

set_option maxHeartbeats 4000000 in
theorem s4_v60 : after hostOps1_3 V (Proc.devRef .tc main_v60) = V (Proc.devRef .tc main_v60) := by
  after_results_simp

set_option maxHeartbeats 4000000 in
/-- The mix. -/
theorem s5_v90 : after hostOps1_4 V (Proc.devRef .tc main_v90) = hostMix (V (Proc.devRef .tc main_v85)) (V (Proc.devRef .tc main_v60)) := by
  unfold hostMix
  after_results_simp
  all_goals rfl

set_option maxHeartbeats 4000000 in
/-- The index pairs the scatter writes at. -/
theorem s5_v103 : after hostOps1_4 V (Proc.devRef .tc main_v103) = pairIdx (V (Proc.devRef .tc main_arg3)) (V (Proc.devRef .tc main_arg4)) := by
  unfold pairIdx
  after_results_simp
  all_goals rfl

end Stretches

/-! ## The buffers at the second kernel's entry, as functions of the arguments as launched -/

section Chain

variable (m : (ℓ : Loc nD τ sig) → Buf (Elt Ideal) ℓ) (ρ : Dev nD → PrngReg)

/-! The argument arrays are as launched at the first kernel's exit … -/

set_option maxHeartbeats 4000000 in
theorem W2_arg0 (c : Dev nD) : W2 m ρ c (Proc.devRef .tc main_arg0) = m ((c : Thread nD τ).loc main_arg0) := by
  rw [W2_of_ne m ρ c main_arg0 (by decide)]
  after_results_simp

set_option maxHeartbeats 4000000 in
theorem W2_arg3 (c : Dev nD) : W2 m ρ c (Proc.devRef .tc main_arg3) = m ((c : Thread nD τ).loc main_arg3) := by
  rw [W2_of_ne m ρ c main_arg3 (by decide)]
  after_results_simp

set_option maxHeartbeats 4000000 in
theorem W2_arg4 (c : Dev nD) : W2 m ρ c (Proc.devRef .tc main_arg4) = m ((c : Thread nD τ).loc main_arg4) := by
  rw [W2_of_ne m ρ c main_arg4 (by decide)]
  after_results_simp

set_option maxHeartbeats 4000000 in
theorem W2_arg5 (c : Dev nD) : W2 m ρ c (Proc.devRef .tc main_arg5) = m ((c : Thread nD τ).loc main_arg5) := by
  rw [W2_of_ne m ρ c main_arg5 (by decide)]
  after_results_simp

set_option maxHeartbeats 4000000 in
theorem W2_arg6 (c : Dev nD) : W2 m ρ c (Proc.devRef .tc main_arg6) = m ((c : Thread nD τ).loc main_arg6) := by
  rw [W2_of_ne m ρ c main_arg6 (by decide)]
  after_results_simp

set_option maxHeartbeats 4000000 in
theorem W2_arg7 (c : Dev nD) : W2 m ρ c (Proc.devRef .tc main_arg7) = m ((c : Thread nD τ).loc main_arg7) := by
  rw [W2_of_ne m ρ c main_arg7 (by decide)]
  after_results_simp

set_option maxHeartbeats 4000000 in
theorem W2_arg8 (c : Dev nD) : W2 m ρ c (Proc.devRef .tc main_arg8) = m ((c : Thread nD τ).loc main_arg8) := by
  rw [W2_of_ne m ρ c main_arg8 (by decide)]
  after_results_simp

set_option maxHeartbeats 4000000 in
theorem W2_arg9 (c : Dev nD) : W2 m ρ c (Proc.devRef .tc main_arg9) = m ((c : Thread nD τ).loc main_arg9) := by
  rw [W2_of_ne m ρ c main_arg9 (by decide)]
  after_results_simp

set_option maxHeartbeats 4000000 in
theorem W2_arg10 (c : Dev nD) : W2 m ρ c (Proc.devRef .tc main_arg10) = m ((c : Thread nD τ).loc main_arg10) := by
  rw [W2_of_ne m ρ c main_arg10 (by decide)]
  after_results_simp

set_option maxHeartbeats 4000000 in
theorem W2_arg11 (c : Dev nD) : W2 m ρ c (Proc.devRef .tc main_arg11) = m ((c : Thread nD τ).loc main_arg11) := by
  rw [W2_of_ne m ρ c main_arg11 (by decide)]
  after_results_simp

set_option maxHeartbeats 4000000 in
theorem W2_arg12 (c : Dev nD) : W2 m ρ c (Proc.devRef .tc main_arg12) = m ((c : Thread nD τ).loc main_arg12) := by
  rw [W2_of_ne m ρ c main_arg12 (by decide)]
  after_results_simp

/-! … and still so where a later stretch reads them. -/

set_option maxHeartbeats 4000000 in
theorem W4_arg11 (c : Dev nD) : W4 m ρ c (Proc.devRef .tc main_arg11) = m ((c : Thread nD τ).loc main_arg11) := by
  refine Eq.trans ?_ (W2_arg11 m ρ c)
  after_results_simp

set_option maxHeartbeats 4000000 in
theorem W4_arg12 (c : Dev nD) : W4 m ρ c (Proc.devRef .tc main_arg12) = m ((c : Thread nD τ).loc main_arg12) := by
  refine Eq.trans ?_ (W2_arg12 m ρ c)
  after_results_simp

set_option maxHeartbeats 4000000 in
theorem W6_arg3 (c : Dev nD) : W6 m ρ c (Proc.devRef .tc main_arg3) = m ((c : Thread nD τ).loc main_arg3) := by
  refine Eq.trans ?_ (W2_arg3 m ρ c)
  after_results_simp

set_option maxHeartbeats 4000000 in
theorem W6_arg4 (c : Dev nD) : W6 m ρ c (Proc.devRef .tc main_arg4) = m ((c : Thread nD τ).loc main_arg4) := by
  refine Eq.trans ?_ (W2_arg4 m ρ c)
  after_results_simp

/-! Each stretch's results at the contents the stretch finds. -/

theorem W3_v25 (c : Dev nD) : W3 m ρ c (Proc.devRef .tc main_v25)
    = hostRows (W2 m ρ c (Proc.devRef .tc main_arg0)) (W2 m ρ c (Proc.devRef .tc main_arg3)) (W2 m ρ c (Proc.devRef .tc main_arg4)) :=
  s1_v25 (W2 m ρ c)
theorem W3_v30 (c : Dev nD) : W3 m ρ c (Proc.devRef .tc main_v30)
    = hostLin (W3 m ρ c (Proc.devRef .tc main_v25)) (W2 m ρ c (Proc.devRef .tc main_arg5)) (W2 m ρ c (Proc.devRef .tc main_arg6)) :=
  s1_v30 (W2 m ρ c)
theorem W3_v35 (c : Dev nD) : W3 m ρ c (Proc.devRef .tc main_v35)
    = hostLin (W3 m ρ c (Proc.devRef .tc main_v25)) (W2 m ρ c (Proc.devRef .tc main_arg9)) (W2 m ρ c (Proc.devRef .tc main_arg10)) :=
  s1_v35 (W2 m ρ c)
theorem W3_v59 (c : Dev nD) : W3 m ρ c (Proc.devRef .tc main_v59)
    = hostNorm (W3 m ρ c (Proc.devRef .tc main_v30)) (W2 m ρ c (Proc.devRef .tc main_arg7)) (W2 m ρ c (Proc.devRef .tc main_arg8)) :=
  s1_v59 (W2 m ρ c)
theorem W4_v60 (c : Dev nD) : W4 m ρ c (Proc.devRef .tc main_v60) = hostRelu (W3 m ρ c (Proc.devRef .tc main_v59)) :=
  s2_v60 (W3 m ρ c)
theorem W4_v35 (c : Dev nD) : W4 m ρ c (Proc.devRef .tc main_v35) = W3 m ρ c (Proc.devRef .tc main_v35) :=
  s2_v35 (W3 m ρ c)
theorem W5_v84 (c : Dev nD) : W5 m ρ c (Proc.devRef .tc main_v84)
    = hostNorm (W4 m ρ c (Proc.devRef .tc main_v35)) (W4 m ρ c (Proc.devRef .tc main_arg11)) (W4 m ρ c (Proc.devRef .tc main_arg12)) :=
  s3_v84 (W4 m ρ c)
theorem W5_v60 (c : Dev nD) : W5 m ρ c (Proc.devRef .tc main_v60) = W4 m ρ c (Proc.devRef .tc main_v60) :=
  s3_v60 (W4 m ρ c)
theorem W6_v85 (c : Dev nD) : W6 m ρ c (Proc.devRef .tc main_v85) = hostRelu (W5 m ρ c (Proc.devRef .tc main_v84)) :=
  s4_v85 (W5 m ρ c)
theorem W6_v60 (c : Dev nD) : W6 m ρ c (Proc.devRef .tc main_v60) = W5 m ρ c (Proc.devRef .tc main_v60) :=
  s4_v60 (W5 m ρ c)
theorem W7_v90 (c : Dev nD) : W7 m ρ c (Proc.devRef .tc main_v90)
    = hostMix (W6 m ρ c (Proc.devRef .tc main_v85)) (W6 m ρ c (Proc.devRef .tc main_v60)) :=
  s5_v90 (W6 m ρ c)
theorem W7_v103 (c : Dev nD) : W7 m ρ c (Proc.devRef .tc main_v103)
    = pairIdx (W6 m ρ c (Proc.devRef .tc main_arg3)) (W6 m ρ c (Proc.devRef .tc main_arg4)) :=
  s5_v103 (W6 m ρ c)

/-- The gathered rows, all of the arguments as launched. -/
theorem W3_v25_eq (c : Dev nD) :
    W3 m ρ c (Proc.devRef .tc main_v25)
      = Host.gather gather_S4x50000x64_S20000x2_S20000x64_1_01_n_n_01_1_1164 (m ((c : Thread nD τ).loc main_arg0))
          (pairIdx (m ((c : Thread nD τ).loc main_arg3)) (m ((c : Thread nD τ).loc main_arg4))) := by
  rw [W3_v25, W2_arg0, W2_arg3, W2_arg4]
  rfl

/-- The mixed rows at the second kernel's entry: the labeled mix of the two branches on the gathered rows, all of
    the arguments as launched. -/
theorem v90_eq (c : Dev nD) :
    W7 m ρ c (Proc.devRef .tc main_v90)
      = lab (Host.gather gather_S4x50000x64_S20000x2_S20000x64_1_01_n_n_01_1_1164 (m ((c : Thread nD τ).loc main_arg0))
            (pairIdx (m ((c : Thread nD τ).loc main_arg3)) (m ((c : Thread nD τ).loc main_arg4))))
          (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) := by
  rw [W7_v90, W6_v85, W6_v60, W5_v84, W5_v60, W4_v60, W4_v35, W4_arg11, W4_arg12, W3_v59, W3_v30, W3_v35, W3_v25_eq,
    W2_arg5, W2_arg6, W2_arg7, W2_arg8, W2_arg9, W2_arg10]
  rfl

/-- The index pairs the scatter writes at, as launched: the pairs the gather read. -/
theorem v103_eq (c : Dev nD) :
    W7 m ρ c (Proc.devRef .tc main_v103) = pairIdx (m ((c : Thread nD τ).loc main_arg3)) (m ((c : Thread nD τ).loc main_arg4)) := by
  rw [W7_v103, W6_arg3, W6_arg4]

end Chain

section ChainMore

variable (m : (ℓ : Loc nD τ sig) → Buf (Elt Ideal) ℓ) (ρ : Dev nD → PrngReg)

set_option maxHeartbeats 4000000 in
/-- The index pairs the gather reads, at the second kernel's entry. -/
theorem v24_eq (c : Dev nD) :
    W7 m ρ c (Proc.devRef .tc main_v24) = pairIdx (m ((c : Thread nD τ).loc main_arg3)) (m ((c : Thread nD τ).loc main_arg4)) := by
  refine Eq.trans (?_ : _ = W3 m ρ c (Proc.devRef .tc main_v24)) ?_
  · after_results_simp
  · rw [show W3 m ρ c (Proc.devRef .tc main_v24) = _ from s1_v24 (W2 m ρ c), W2_arg3, W2_arg4]

set_option maxHeartbeats 4000000 in
/-- The gathered rows, at the second kernel's entry. -/
theorem v25_eq (c : Dev nD) :
    W7 m ρ c (Proc.devRef .tc main_v25)
      = Host.gather gather_S4x50000x64_S20000x2_S20000x64_1_01_n_n_01_1_1164 (m ((c : Thread nD τ).loc main_arg0))
          (pairIdx (m ((c : Thread nD τ).loc main_arg3)) (m ((c : Thread nD τ).loc main_arg4))) := by
  refine Eq.trans (?_ : _ = W3 m ρ c (Proc.devRef .tc main_v25)) (W3_v25_eq m ρ c)
  after_results_simp

end ChainMore

/-! ## The layout operations of the labeled rows read at an index -/

section Read

open Idealize.ShloMosaic.ValueIdx
open scoped BigOperators

/-- The transposed weight at `(k, o)` is the weight at `(o, k)`. -/
theorem transpose_apply_ko (w : (⟨S64x64, .f32⟩ : BufTy).Contents (Elt Ideal)) (k o : Fin 64) :
    transpose S64x64 [1, 0] w transposes_S64x64_S64x64_1_0 (ix2 k o) = w (ix2 o k) :=
  transpose_apply _ w transposes_S64x64_S64x64_1_0 (ix2 k o) (ix2 o k) (fun a => match a with
    | ⟨0, _⟩ => rfl
    | ⟨1, _⟩ => rfl)

/-- A `[64]` vector laid along the rows of a `[20000, 64]` array reads, at `(k, o)`, its entry `o`. -/
theorem rowBcast_apply (v : (⟨S64, .f32⟩ : BufTy).Contents (Elt Ideal)) (k : Fin 20000) (o : Fin 64) :
    broadcastInDim S20000x64 ![0, 1] bcast_S1x64_S20000x64_0_1 (broadcastInDim S1x64 ![1] bcast_S64_S1x64_1 v) (ix2 k o)
      = v (ix1 o) := by
  refine (broadcastInDim_apply _ bcast_S1x64_S20000x64_0_1 _ (ix2 k o) (ix2 (0 : Fin 1) o) (fun a => match a with
    | ⟨0, _⟩ => by show (0 : Nat) = if (1 : Nat) = 1 then 0 else k.val; rw [if_pos rfl]
    | ⟨1, _⟩ => by show o.val = if (64 : Nat) = 1 then 0 else o.val; rw [if_neg (by decide)])).trans ?_
  exact broadcastInDim_apply _ bcast_S64_S1x64_1 v (ix2 (0 : Fin 1) o) (ix1 o) (fun a => match a with
    | ⟨0, _⟩ => by show o.val = if (64 : Nat) = 1 then 0 else o.val; rw [if_neg (by decide)])

/-- A `[20000, 1]` column laid over the 64 channels reads, at `(k, o)`, the column's entry of row `k`. -/
theorem colBcast_apply (y : (⟨S20000x1, .f32⟩ : BufTy).Contents (Elt Ideal)) (k : Fin 20000) (o : Fin 64) :
    broadcastInDim S20000x64 ![0, 1] bcast_S20000x1_S20000x64_0_1 y (ix2 k o) = y (ix2 k (0 : Fin 1)) :=
  broadcastInDim_apply _ bcast_S20000x1_S20000x64_0_1 y (ix2 k o) (ix2 k (0 : Fin 1)) (fun a => match a with
    | ⟨0, _⟩ => by show k.val = if (20000 : Nat) = 1 then 0 else k.val; rw [if_neg (by decide)]
    | ⟨1, _⟩ => by show (0 : Nat) = if (1 : Nat) = 1 then 0 else o.val; rw [if_pos rfl])

/-- A `[20000]` vector kept as a column reads, at `(k, 0)`, its entry `k`. -/
theorem keepBcast_apply (y : (⟨S20000, .f32⟩ : BufTy).Contents (Elt Ideal)) (k : Fin 20000) :
    broadcastInDim S20000x1 ![0] bcast_S20000_S20000x1_0 y (ix2 k (0 : Fin 1)) = y (ix1 k) :=
  broadcastInDim_apply _ bcast_S20000_S20000x1_0 y (ix2 k (0 : Fin 1)) (ix1 k) (fun a => match a with
    | ⟨0, _⟩ => by show k.val = if (20000 : Nat) = 1 then 0 else k.val; rw [if_neg (by decide)])

/-- A literal laid over a `[20000, 1]` column reads the literal everywhere. -/
theorem litCol_apply (bits : BitVec 32) (i : S20000x1.Idx) :
    broadcastInDim S20000x1 ![] bcast_S_S20000x1 (constant (F := Ideal) S_ .f32 bits) i = Ideal.ofBits .f32 bits :=
  broadcastInDim_apply _ bcast_S_S20000x1 (constant (F := Ideal) S_ .f32 bits) i (fun a => a.elim0) (fun a => a.elim0)

/-- A literal laid over a `[20000, 64]` array reads the literal everywhere. -/
theorem litFull_apply (bits : BitVec 32) (i : S20000x64.Idx) :
    broadcastInDim S20000x64 ![] bcast_S_S20000x64 (constant (F := Ideal) S_ .f32 bits) i = Ideal.ofBits .f32 bits :=
  broadcastInDim_apply _ bcast_S_S20000x64 (constant (F := Ideal) S_ .f32 bits) i (fun a => a.elim0) (fun a => a.elim0)

/-- The row sum from the zero word, at row `k`: the sum of the row's 64 entries. -/
theorem rowSum_apply (h : (⟨S20000x64, .f32⟩ : BufTy).Contents (Elt Ideal)) (k : Fin 20000) :
    Host.reduceAdd (F := Ideal) (φ := .f32) h (constant (F := Ideal) S_ .f32 0x00000000#32) reducesTo_S20000x64_S20000_d1 h_S_ (ix1 k)
      = ∑ o : Fin 64, h (ix2 k o) := by
  simp only [Host.reduceAdd, Ideal.hostReduceAdd_def]
  rw [Ideal.hostReduceAdd_single reducesTo_S20000x64_S20000_d1 (by decide)]
  show Ideal.ofBits .f32 0x00000000#32 + _ = _
  rw [Ideal.ofBits_zero_f32, zero_add]
  refine Finset.sum_congr rfl fun o _ => ?_
  exact congrArg h (funext fun a => Fin.ext (by match a with | ⟨0, _⟩ => rfl | ⟨1, _⟩ => rfl))

/-! ## The stages of a branch read at an index -/

variable (x h : (⟨S20000x64, .f32⟩ : BufTy).Contents (Elt Ideal)) (w : (⟨S64x64, .f32⟩ : BufTy).Contents (Elt Ideal)) (b g be : (⟨S64, .f32⟩ : BufTy).Contents (Elt Ideal)) (k : Fin 20000) (o : Fin 64)

/-- The linear part at `(k, o)`: the specification's linear map of row `k`. -/
theorem hostLin_apply :
    hostLin x w b (ix2 k o)
      = Cert.Spec.lin (fun o k => w (ix2 o k)) (fun o => b (ix1 o)) (fun c => x (ix2 k c)) o := by
  unfold hostLin Cert.Spec.lin
  show Host.dotGeneral (F := Ideal) (φ₁ := .f32) (φ₂ := .f32) dot_S20000x64_S64x64_S20000x64_1_0_0_1_n_n none x
        (transpose S64x64 [1, 0] w transposes_S64x64_S64x64_1_0) (ix2 k o)
      + broadcastInDim S20000x64 ![0, 1] bcast_S1x64_S20000x64_0_1 (broadcastInDim S1x64 ![1] bcast_S64_S1x64_1 b) (ix2 k o)
      = _
  rw [rowBcast_apply b k o,
    MatmulRead.hostDot_ix2 (D := dot_S20000x64_S64x64_S20000x64_1_0_0_1_n_n) ⟨rfl, rfl, rfl, rfl, rfl, rfl⟩ rfl rfl none x
      (transpose S64x64 [1, 0] w transposes_S64x64_S64x64_1_0) k o]
  refine congrArg (· + b (ix1 o)) (Finset.sum_congr rfl fun k' _ => ?_)
  rw [transpose_apply_ko w k' o]

/-- The mean column at `(k, 0)`: the specification's mean of row `k`. -/
theorem hostMean_apply :
    hostMean h (ix2 k (0 : Fin 1)) = Cert.Spec.mean (fun o => h (ix2 k o)) := by
  unfold hostMean Cert.Spec.mean
  show Ideal.div
      (broadcastInDim S20000x1 ![0] bcast_S20000_S20000x1_0
        (Host.reduceAdd (F := Ideal) (φ := .f32) h (constant (F := Ideal) S_ .f32 0x00000000#32) reducesTo_S20000x64_S20000_d1 h_S_)
        (ix2 k (0 : Fin 1)))
      (broadcastInDim S20000x1 ![] bcast_S_S20000x1 (constant (F := Ideal) S_ .f32 0x42800000#32) (ix2 k (0 : Fin 1)))
      = _
  rw [keepBcast_apply _ k, rowSum_apply h k, litCol_apply]

/-- A centred entry: the entry minus its row's mean. -/
theorem hostCentred_apply :
    hostCentred h (ix2 k o) = h (ix2 k o) - Cert.Spec.mean (fun o' => h (ix2 k o')) := by
  unfold hostCentred
  show h (ix2 k o) - broadcastInDim S20000x64 ![0, 1] bcast_S20000x1_S20000x64_0_1 (hostMean h) (ix2 k o) = _
  rw [colBcast_apply (hostMean h) k o, hostMean_apply h k]

/-- The reciprocal standard deviation column at `(k, 0)`. -/
theorem hostRstd_apply :
    hostRstd h (ix2 k (0 : Fin 1))
      = Ideal.rsqrt (Cert.Spec.mean (fun o' => (h (ix2 k o') - Cert.Spec.mean (fun o'' => h (ix2 k o'')))
          * (h (ix2 k o') - Cert.Spec.mean (fun o'' => h (ix2 k o'')))) + Cert.Spec.ceps) := by
  unfold hostRstd
  show Ideal.rsqrt
      (hostMean (mulf (F := Ideal) (φ := .f32) (hostCentred h) (hostCentred h)) (ix2 k (0 : Fin 1))
        + broadcastInDim S20000x1 ![] bcast_S_S20000x1 (constant (F := Ideal) S_ .f32 0x3727C5AC#32) (ix2 k (0 : Fin 1)))
      = _
  rw [hostMean_apply (mulf (F := Ideal) (φ := .f32) (hostCentred h) (hostCentred h)) k, litCol_apply]
  refine congrArg (fun t => Ideal.rsqrt (Cert.Spec.mean t + Cert.Spec.ceps)) (funext fun o' => ?_)
  show hostCentred h (ix2 k o') * hostCentred h (ix2 k o') = _
  rw [hostCentred_apply h k o']

/-- The normalised entry at `(k, o)`. -/
theorem hostNorm_apply :
    hostNorm h g be (ix2 k o)
      = (h (ix2 k o) - Cert.Spec.mean (fun o' => h (ix2 k o')))
          * Ideal.rsqrt (Cert.Spec.mean (fun o' => (h (ix2 k o') - Cert.Spec.mean (fun o'' => h (ix2 k o'')))
              * (h (ix2 k o') - Cert.Spec.mean (fun o'' => h (ix2 k o'')))) + Cert.Spec.ceps)
          * g (ix1 o) + be (ix1 o) := by
  unfold hostNorm
  show hostCentred h (ix2 k o)
        * broadcastInDim S20000x64 ![0, 1] bcast_S20000x1_S20000x64_0_1 (hostRstd h) (ix2 k o)
        * broadcastInDim S20000x64 ![0, 1] bcast_S1x64_S20000x64_0_1 (broadcastInDim S1x64 ![1] bcast_S64_S1x64_1 g) (ix2 k o)
      + broadcastInDim S20000x64 ![0, 1] bcast_S1x64_S20000x64_0_1 (broadcastInDim S1x64 ![1] bcast_S64_S1x64_1 be) (ix2 k o)
      = _
  rw [hostCentred_apply h k o, colBcast_apply (hostRstd h) k o, hostRstd_apply h k, rowBcast_apply g k o,
    rowBcast_apply be k o]

/-- The rectifier at an index: the maximum with the zero word. -/
theorem hostRelu_apply (y : (⟨S20000x64, .f32⟩ : BufTy).Contents (Elt Ideal)) (i : S20000x64.Idx) : hostRelu y i = max (y i) Cert.Spec.c0 := by
  unfold hostRelu
  show max (y i) (broadcastInDim S20000x64 ![] bcast_S_S20000x64 (constant (F := Ideal) S_ .f32 0x00000000#32) i) = _
  rw [litFull_apply]

/-- A branch at `(k, o)`: the specification's branch on row `k`. -/
theorem hostBranch_apply :
    hostBranch x w b g be (ix2 k o)
      = Cert.Spec.branch (fun o k => w (ix2 o k)) (fun o => b (ix1 o)) (fun o => g (ix1 o)) (fun o => be (ix1 o))
          (fun c => x (ix2 k c)) o := by
  unfold hostBranch Cert.Spec.branch Cert.Spec.lnRelu
  rw [hostRelu_apply, hostNorm_apply (hostLin x w b) g be k o]
  simp only [hostLin_apply]

/-- The mix at an index. -/
theorem hostMix_apply (u v : (⟨S20000x64, .f32⟩ : BufTy).Contents (Elt Ideal)) (i : S20000x64.Idx) : hostMix u v i = Cert.Spec.mix (u i) (v i) := by
  unfold hostMix Cert.Spec.mix
  show broadcastInDim S20000x64 ![] bcast_S_S20000x64 (constant (F := Ideal) S_ .f32 0x3F4CCCCD#32) i * u i
      + broadcastInDim S20000x64 ![] bcast_S_S20000x64 (constant (F := Ideal) S_ .f32 0x3E4CCCCD#32) i * v i = _
  rw [litFull_apply, litFull_apply]

/-- The labeled rows at `(k, o)`: 0.8 times the second branch of row `k` plus 0.2 times the first. -/
theorem lab_apply (w0 : (⟨S64x64, .f32⟩ : BufTy).Contents (Elt Ideal)) (b0 g0 be0 : (⟨S64, .f32⟩ : BufTy).Contents (Elt Ideal)) (w1 : (⟨S64x64, .f32⟩ : BufTy).Contents (Elt Ideal)) (b1 g1 be1 : (⟨S64, .f32⟩ : BufTy).Contents (Elt Ideal)) :
    lab x w0 b0 g0 be0 w1 b1 g1 be1 (ix2 k o)
      = Cert.Spec.mix
          (Cert.Spec.branch (fun o k => w1 (ix2 o k)) (fun o => b1 (ix1 o)) (fun o => g1 (ix1 o)) (fun o => be1 (ix1 o))
            (fun c => x (ix2 k c)) o)
          (Cert.Spec.branch (fun o k => w0 (ix2 o k)) (fun o => b0 (ix1 o)) (fun o => g0 (ix1 o)) (fun o => be0 (ix1 o))
            (fun c => x (ix2 k c)) o) := by
  unfold lab
  rw [hostMix_apply, hostBranch_apply x w1 b1 g1 be1 k o, hostBranch_apply x w0 b0 g0 be0 k o]

end Read

end Cert.KernelIdeal.Lab

end
-- ==== Proof.LibGatherRows.lean ====
/-
  A host gather of rows read at an index.

  `x[idx]` of a table `x : [N, C]` at one scalar row index per result row (`idx : [K, 1]`) gives `[K, C]`: result
  element `(k, c)` is the table's element `(r, c)`, where `r` is the row index `idx[k]` read as a signed integer and
  clamped into `[0, N − 1]`. The same for a vector table `x : [N]`: result element `k` is `x r`.
  What the dimension numbers compute (the operand index of a result index, axis by axis) is taken as hypotheses, so
  the lemmas serve every record of these forms whatever the extents.
-/
import Idealize.ShloMosaic.PureOps.ShapeOps
import Idealize.ShloMosaic.PureOps.Dims
import Idealize.ShloMosaic.Lib.ValueIdx

namespace Cert.LibGatherRows

open Idealize.ShloMosaic Idealize.ShloMosaic.ValueIdx

variable {α : Type} {w : ℕ}

/-- The row a gather reads for the index word `v` in a table of `N` rows: read signed, clamped. -/
def clampRow (N : ℕ) (hN : 0 < N) (v : BitVec w) : Fin N := ⟨min v.toInt.toNat (N - 1), by omega⟩

/-- A row gather read at `(k, c)`: the table at the clamped row, same column. -/
theorem gather_rows {N C K : ℕ} (hN : 0 < N) (d : GatherDims (⟨2, ![N, C]⟩ : Shape) ⟨2, ![K, 1]⟩ ⟨2, ![K, C]⟩)
    (idx : IVec (⟨2, ![K, 1]⟩ : Shape) w)
    (h0 : ∀ (k : Fin K) (c : Fin C), (d.operandIdx (ix2 k c) idx 0).val = min (idx (ix2 k (0 : Fin 1))).toInt.toNat (N - 1))
    (h1 : ∀ (k : Fin K) (c : Fin C), (d.operandIdx (ix2 k c) idx 1).val = c.val)
    (x : (⟨2, ![N, C]⟩ : Shape).Idx → α) (k : Fin K) (c : Fin C) :
    Host.gather d x idx (ix2 k c) = x (ix2 (clampRow N hN (idx (ix2 k (0 : Fin 1)))) c) := by
  unfold Host.gather
  refine congrArg x (funext fun a => Fin.ext ?_)
  match a with
  | ⟨0, _⟩ => exact h0 k c
  | ⟨1, _⟩ => exact h1 k c

/-- A vector gather read at `k`: the table at the clamped index. -/
theorem gather_vec {N K : ℕ} (hN : 0 < N) (d : GatherDims (⟨1, ![N]⟩ : Shape) ⟨2, ![K, 1]⟩ ⟨1, ![K]⟩)
    (idx : IVec (⟨2, ![K, 1]⟩ : Shape) w)
    (h0 : ∀ k : Fin K, (d.operandIdx (ix1 k) idx 0).val = min (idx (ix2 k (0 : Fin 1))).toInt.toNat (N - 1))
    (x : (⟨1, ![N]⟩ : Shape).Idx → α) (k : Fin K) :
    Host.gather d x idx (ix1 k) = x (ix1 (clampRow N hN (idx (ix2 k (0 : Fin 1))))) := by
  unfold Host.gather
  refine congrArg x (funext fun a => Fin.ext ?_)
  match a with
  | ⟨0, _⟩ => exact h0 k

end Cert.LibGatherRows
-- ==== Proof.LibScatterRows.lean ====
/-
  A host scatter whose body returns the update (`x.at[idx].set(v)`), read at an index.

  The scatter is a left fold over the update positions in row-major order: a position whose index lands inside the
  operand overwrites that element, a position whose index lands outside is dropped. Read at one operand index `i`
  there are two cases. Either no update position lands at `i`, and the element is the operand's; or some update
  position lands at `i`, and the element is THAT position's update. (Which one, when several land at `i`, is the
  last in row-major order; a user whose colliding updates are equal never needs to know.)

  The second half specialises this to a ROW scatter: operand `[N, C]`, one scalar row index per update row
  (`[K, 1]`), updates `[K, C]`. Update `(k, c)` lands at `(idx[k], c)` when `0 ≤ idx[k] < N` (the index read
  signed, not clamped) and is dropped otherwise, so row `r` of the result is hit exactly by the `k` with `idx[k] = r`.
-/
import Idealize.ShloMosaic.PureOps.ShapeOps
import Idealize.ShloMosaic.PureOps.Dims
import Idealize.ShloMosaic.Lib.ValueIdx

namespace Cert.LibScatterRows

open Idealize.ShloMosaic Idealize.ShloMosaic.ValueIdx

variable {α : Type}

/-- A fold of "overwrite-or-drop" steps read at `i`: the start value if no listed position lands at `i`, else the
    value of some listed position that lands at `i`. -/
theorem foldl_set_cases {β ι : Type} [DecidableEq β] (hit : ι → Option β) (val : ι → α) (stepf : (β → α) → ι → (β → α))
    (hnone : ∀ r n, hit n = none → stepf r n = r)
    (hsome : ∀ r n i, hit n = some i → stepf r n = fun i' => if i' = i then val n else r i')
    (L : List ι) : ∀ (r : β → α) (i : β),
      (L.foldl stepf r i = r i ∧ ∀ n ∈ L, hit n ≠ some i) ∨ ∃ n ∈ L, hit n = some i ∧ L.foldl stepf r i = val n := by
  induction L with
  | nil => intro r i; exact Or.inl ⟨rfl, fun _ h => absurd h List.not_mem_nil⟩
  | cons a L ih =>
    intro r i
    rw [List.foldl_cons]
    rcases ih (stepf r a) i with ⟨hv, hno⟩ | ⟨n, hn, hh, hv⟩
    · cases ha : hit a with
      | none =>
        rw [hnone r a ha] at hv ⊢
        refine Or.inl ⟨hv, fun n hn => ?_⟩
        rcases List.mem_cons.mp hn with rfl | hn
        · rw [ha]; exact fun h => nomatch h
        · exact hno n hn
      | some i0 =>
        by_cases hi : i = i0
        · refine Or.inr ⟨a, List.mem_cons_self, by rw [ha, hi], ?_⟩
          rw [hv, hsome r a i0 ha]
          exact if_pos hi
        · refine Or.inl ⟨?_, fun n hn => ?_⟩
          · rw [hv, hsome r a i0 ha]
            exact if_neg hi
          · rcases List.mem_cons.mp hn with rfl | hn
            · rw [ha]; exact fun h => hi (Option.some.inj h).symm
            · exact hno n hn
    · exact Or.inr ⟨n, List.mem_cons_of_mem _ hn, hh, hv⟩

variable {w : Nat} {s si u : Shape}

/-- One step of the scatter's fold: update position `n` overwrites the element its index lands at, or is dropped. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem step_none (d : ScatterDims s si u) (idx : IVec si w) (upd : u.Idx → α) (r : s.Idx → α) (n : Fin u.numel)
    (h : d.resultIdx? (u.rowMajor.symm n) idx = none) : step d idx upd r n = r := by
  unfold step; rw [h]

theorem step_some (d : ScatterDims s si u) (idx : IVec si w) (upd : u.Idx → α) (r : s.Idx → α) (n : Fin u.numel) (i : s.Idx)
    (h : d.resultIdx? (u.rowMajor.symm n) idx = some i) :
    step d idx upd r n = fun i' => if i' = i then upd (u.rowMajor.symm n) else r i' := by
  unfold step; rw [h]

/-- A `set` scatter is the fold of that step over the update positions in row-major order. -/
theorem scatter_eq_foldl (d : ScatterDims s si u) (x : s.Idx → α) (idx : IVec si w) (upd : u.Idx → α) :
    Host.scatter d (fun _ b => b) x idx upd = (List.finRange u.numel).foldl (step d idx upd) x := by
  unfold Host.scatter
  refine congrArg (fun f => List.foldl f x (List.finRange u.numel)) (funext fun r => funext fun n => ?_)
  unfold step
  cases d.resultIdx? (u.rowMajor.symm n) idx <;> rfl

/-- A `set` scatter read at `i`: the operand's element if no update index lands at `i`, else the update at some
    update index that lands at `i`. -/
theorem scatter_set_cases (d : ScatterDims s si u) (x : s.Idx → α) (idx : IVec si w) (upd : u.Idx → α) (i : s.Idx) :
    (Host.scatter d (fun _ b => b) x idx upd i = x i ∧ ∀ j : u.Idx, d.resultIdx? j idx ≠ some i)
      ∨ ∃ j : u.Idx, d.resultIdx? j idx = some i ∧ Host.scatter d (fun _ b => b) x idx upd i = upd j := by
  rw [scatter_eq_foldl]
  rcases foldl_set_cases (hit := fun n : Fin u.numel => d.resultIdx? (u.rowMajor.symm n) idx)
      (val := fun n => upd (u.rowMajor.symm n)) (step d idx upd)
      (step_none d idx upd) (step_some d idx upd) (List.finRange u.numel) x i with ⟨hv, hno⟩ | ⟨n, _, hh, hv⟩
  · refine Or.inl ⟨hv, fun j => ?_⟩
    have := hno (u.rowMajor j) (List.mem_finRange _)
    simpa only [Equiv.symm_apply_apply] using this
  · exact Or.inr ⟨u.rowMajor.symm n, hh, hv⟩

/-! ## A row scatter: operand `[N, C]`, one row index per update row -/

variable {N C K : ℕ}

/-- Update `(k, c)` lands at `(r, c')` exactly when row `k`'s index, read signed, is `r`, and `c = c'`. The four
    hypotheses say what the dimension numbers of such a scatter compute: the window starts at the row the index names
    and at column 0, and the window coordinate is the update's column. -/
theorem resultIdx_rows (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (k : Fin K) (c : Fin C) (r : Fin N) (c' : Fin C) :
    d.resultIdx? (ix2 k c) idx = some (ix2 r c') ↔ (idx (ix2 k (0 : Fin 1))).toInt = (r.val : Int) ∧ c = c' := by
  have e0 : d.start (ix2 k c) idx 0 + (d.window (ix2 k c) 0 : Int) = (idx (ix2 k (0 : Fin 1))).toInt := by
    rw [hs0, hw0]; simp
  have e1 : d.start (ix2 k c) idx 1 + (d.window (ix2 k c) 1 : Int) = (c.val : Int) := by
    rw [hs1, hw1]; simp
  unfold ScatterDims.resultIdx?
  constructor
  · intro h
    split at h
    · rename_i hb
      have h' := Option.some.inj h
      have h0 : (d.start (ix2 k c) idx 0 + (d.window (ix2 k c) 0 : Int)).toNat = r.val := congrArg (fun f => (f 0).val) h'
      have h1 : (d.start (ix2 k c) idx 1 + (d.window (ix2 k c) 1 : Int)).toNat = c'.val := congrArg (fun f => (f 1).val) h'
      have hb0 := (hb 0).1
      rw [e0] at h0 hb0
      rw [e1] at h1
      exact ⟨by omega, Fin.ext (by omega)⟩
    · exact nomatch h
  · rintro ⟨hr, rfl⟩
    have hb : ∀ a, 0 ≤ d.start (ix2 k c) idx a + (d.window (ix2 k c) a : Int)
        ∧ d.start (ix2 k c) idx a + (d.window (ix2 k c) a : Int) < ((⟨2, ![N, C]⟩ : Shape).size a : Int) := fun a => by
      match a with
      | ⟨0, _⟩ =>
        show 0 ≤ d.start (ix2 k c) idx 0 + (d.window (ix2 k c) 0 : Int)
          ∧ d.start (ix2 k c) idx 0 + (d.window (ix2 k c) 0 : Int) < (N : Int)
        rw [e0, hr]
        exact ⟨Int.natCast_nonneg _, by exact_mod_cast r.isLt⟩
      | ⟨1, _⟩ =>
        show 0 ≤ d.start (ix2 k c) idx 1 + (d.window (ix2 k c) 1 : Int)
          ∧ d.start (ix2 k c) idx 1 + (d.window (ix2 k c) 1 : Int) < (C : Int)
        rw [e1]
        exact ⟨Int.natCast_nonneg _, by exact_mod_cast c.isLt⟩
    rw [dif_pos hb]
    refine congrArg some (funext fun a => Fin.ext ?_)
    match a with
    | ⟨0, _⟩ =>
      show (d.start (ix2 k c) idx 0 + (d.window (ix2 k c) 0 : Int)).toNat = r.val
      rw [e0, hr, Int.toNat_natCast]
    | ⟨1, _⟩ =>
      show (d.start (ix2 k c) idx 1 + (d.window (ix2 k c) 1 : Int)).toNat = c.val
      rw [e1, Int.toNat_natCast]

/-- A row `set` scatter read at `(r, c)`: the operand's element if no row index is `r`; else the update's element
    `(k, c)` for some update row `k` whose index is `r`. -/
theorem scatter_rows_cases (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → α) (upd : (⟨2, ![K, C]⟩ : Shape).Idx → α) (r : Fin N) (c : Fin C) :
    (Host.scatter d (fun _ b => b) x idx upd (ix2 r c) = x (ix2 r c)
        ∧ ∀ k : Fin K, (idx (ix2 k (0 : Fin 1))).toInt ≠ (r.val : Int))
      ∨ ∃ k : Fin K, (idx (ix2 k (0 : Fin 1))).toInt = (r.val : Int)
        ∧ Host.scatter d (fun _ b => b) x idx upd (ix2 r c) = upd (ix2 k c) := by
  rcases scatter_set_cases d x idx upd (ix2 r c) with ⟨hv, hno⟩ | ⟨j, hh, hv⟩
  · exact Or.inl ⟨hv, fun k hk => hno (ix2 k c) ((resultIdx_rows d idx hs0 hs1 hw0 hw1 k c r c).mpr ⟨hk, rfl⟩)⟩
  · rw [eq_ix2 j] at hh hv
    obtain ⟨hk, hc⟩ := (resultIdx_rows d idx hs0 hs1 hw0 hw1 (j 0) (j 1) r c).mp hh
    exact Or.inr ⟨j 0, hk, hv.trans (congrArg (fun q => upd (ix2 (j 0) q)) hc)⟩

end Cert.LibScatterRows
-- ==== Proof.LibScatterAddRows.lean ====
/-
  An accumulating host scatter (`x.at[idx].add(v)`, a segment sum) read at an index.

  At the extended reals the accumulating scatter is, at each operand index, the operand's element plus the sum of the
  update elements whose index lands there. This file evaluates that sum for the two layouts a segment sum lowers to.

  A ROW scatter: operand `[N, C]`, one scalar row index per update row (`[K, 1]`), updates `[K, C]`. Update `(k, c')`
  lands at `(idx[k], c')` when `0 ≤ idx[k] < N` (the index read signed, not clamped) and is dropped otherwise, so
  element `(r, c)` of the result is the operand's plus the sum of `upd (k, c)` over the rows `k` with `idx[k] = r`.

  A VECTOR scatter: operand `[N]`, indices `[K, 1]`, updates `[K]`. Update `k` lands at `idx[k]` when that is
  inside the operand, so element `r` of the result is the operand's plus the sum of `upd k` over the `k` with
  `idx[k] = r`.
-/
import Idealize.ShloMosaic.PureOps.Ideal
import Idealize.ShloMosaic.Lib.ValueIdx
import proofs.«134245_j55130200211996_2_alg».proof.Proof.LibScatterRows

namespace Cert.LibScatterAddRows

open Idealize.ShloMosaic Idealize.ShloMosaic.ValueIdx

variable {w : ℕ}

/-! ## A row scatter: operand `[N, C]`, one row index per update row -/

/-- An accumulating row scatter read at `(r, c)`: the operand's element plus the sum, over the update rows `k`
    whose index (read signed) is `r`, of the update's element `(k, c)`. The four hypotheses say what the dimension
    numbers of such a scatter compute: the window starts at the row the index names and at column 0, and the window
    coordinate is the update's column. -/
theorem scatterAdd_rows {N C K : ℕ} (d : ScatterDims (⟨2, ![N, C]⟩ : Shape) ⟨2, ![K, 1]⟩ ⟨2, ![K, C]⟩)
    (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → EReal) (upd : (⟨2, ![K, C]⟩ : Shape).Idx → EReal) (r : Fin N) (c : Fin C) :
    Ideal.hostScatterAdd d x idx upd (ix2 r c)
      = x (ix2 r c) + ∑ k ∈ Finset.univ.filter (fun k : Fin K => (idx (ix2 k (0 : Fin 1))).toInt = (r.val : Int)),
          upd (ix2 k c) := by
  unfold Ideal.hostScatterAdd
  congr 1
  rw [Finset.sum_filter, Finset.sum_filter]
  refine (sum_idx2 _).trans (Finset.sum_congr rfl fun k _ => ?_)
  -- the inner sum over the update's columns keeps the one column `c`, when row `k`'s index is `r`
  have hcol : ∀ c' : Fin C,
      (if d.resultIdx? (ix2 k c') idx = some (ix2 r c) then upd (ix2 k c') else 0)
        = if (idx (ix2 k (0 : Fin 1))).toInt = (r.val : Int) ∧ c' = c then upd (ix2 k c') else 0 := fun c' =>
    if_congr (Cert.LibScatterRows.resultIdx_rows d idx hs0 hs1 hw0 hw1 k c' r c) rfl rfl
  rw [Finset.sum_congr rfl fun c' _ => hcol c']
  by_cases h : (idx (ix2 k (0 : Fin 1))).toInt = (r.val : Int)
  · simp [h]
  · simp [h]

/-! ## A vector scatter: operand `[N]`, one index per update element -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `k` lands at `r` exactly when its index, read signed, is `r`. The two hypotheses say what the dimension
    numbers of such a scatter compute: the window starts at the element the index names, and there is no window
    coordinate (the one operand axis is an inserted one). -/
theorem resultIdx_vec {N K : ℕ} (d : ScatterDims (⟨1, ![N]⟩ : Shape) ⟨2, ![K, 1]⟩ ⟨1, ![K]⟩)
    (idx : IVec (⟨2, ![K, 1]⟩ : Shape) w)
    (hs : ∀ k : Fin K, d.start (ix1 k) idx 0 = (idx (ix2 k (0 : Fin 1))).toInt)
    (hw : ∀ k : Fin K, d.window (ix1 k) 0 = 0) (k : Fin K) (r : Fin N) :
    d.resultIdx? (ix1 k) idx = some (ix1 r) ↔ (idx (ix2 k (0 : Fin 1))).toInt = (r.val : Int) := by
  have e0 : d.start (ix1 k) idx 0 + (d.window (ix1 k) 0 : Int) = (idx (ix2 k (0 : Fin 1))).toInt := by
    rw [hs, hw]; simp
  unfold ScatterDims.resultIdx?
  constructor
  · intro h
    split at h
    · rename_i hb
      have h' := Option.some.inj h
      have h0 : (d.start (ix1 k) idx 0 + (d.window (ix1 k) 0 : Int)).toNat = r.val := congrArg (fun f => (f 0).val) h'
      have hb0 := (hb 0).1
      rw [e0] at h0 hb0
      omega
    · exact nomatch h
  · intro hr
    have hb : ∀ a, 0 ≤ d.start (ix1 k) idx a + (d.window (ix1 k) a : Int)
        ∧ d.start (ix1 k) idx a + (d.window (ix1 k) a : Int) < ((⟨1, ![N]⟩ : Shape).size a : Int) := fun a => by
      match a with
      | ⟨0, _⟩ =>
        show 0 ≤ d.start (ix1 k) idx 0 + (d.window (ix1 k) 0 : Int)
          ∧ d.start (ix1 k) idx 0 + (d.window (ix1 k) 0 : Int) < (N : Int)
        rw [e0, hr]
        exact ⟨Int.natCast_nonneg _, by exact_mod_cast r.isLt⟩
    rw [dif_pos hb]
    refine congrArg some (funext fun a => Fin.ext ?_)
    match a with
    | ⟨0, _⟩ =>
      show (d.start (ix1 k) idx 0 + (d.window (ix1 k) 0 : Int)).toNat = r.val
      rw [e0, hr, Int.toNat_natCast]

/-- An accumulating vector scatter read at `r`: the operand's element plus the sum, over the update positions `k`
    whose index (read signed) is `r`, of the update's element `k`. -/
theorem scatterAdd_vec {N K : ℕ} (d : ScatterDims (⟨1, ![N]⟩ : Shape) ⟨2, ![K, 1]⟩ ⟨1, ![K]⟩)
    (idx : IVec (⟨2, ![K, 1]⟩ : Shape) w)
    (hs : ∀ k : Fin K, d.start (ix1 k) idx 0 = (idx (ix2 k (0 : Fin 1))).toInt)
    (hw : ∀ k : Fin K, d.window (ix1 k) 0 = 0)
    (x : (⟨1, ![N]⟩ : Shape).Idx → EReal) (upd : (⟨1, ![K]⟩ : Shape).Idx → EReal) (r : Fin N) :
    Ideal.hostScatterAdd d x idx upd (ix1 r)
      = x (ix1 r) + ∑ k ∈ Finset.univ.filter (fun k : Fin K => (idx (ix2 k (0 : Fin 1))).toInt = (r.val : Int)),
          upd (ix1 k) := by
  unfold Ideal.hostScatterAdd
  congr 1
  rw [Finset.sum_filter, Finset.sum_filter]
  exact (sum_idx1 _).trans (Finset.sum_congr rfl fun k _ => if_congr (resultIdx_vec d idx hs hw k r) rfl rfl)

end Cert.LibScatterAddRows
-- ==== Proof.LibGatherBatch.lean ====
/-
  Host gathers of a batched table read at an index.

  Two forms of a gather from a table `x : [B, N, C]`.

  A MIDDLE-AXIS gather: one scalar row index per result row (`idx : [E, 1]`), the batch and the column axes carried
  whole, result `[B, E, C]`: result element `(b, e, c)` is the table's element `(b, r, c)`, where `r` is the row
  index `idx[e]` read as a signed integer and clamped into `[0, N − 1]`.

  A PAIR gather: one (batch, row) index pair per result row (`idx : [K, 2]`), result `[K, C]`: result element
  `(k, c)` is the table's element `(p, r, c)`, where `p` is `idx[k, 0]` read signed and clamped into `[0, B − 1]`
  and `r` is `idx[k, 1]` read signed and clamped into `[0, N − 1]`.

  What the dimension numbers compute (the operand index of a result index, axis by axis) is taken as hypotheses, so
  the lemmas serve every record of these forms whatever the extents.
-/
import Idealize.ShloMosaic.PureOps.ShapeOps
import Idealize.ShloMosaic.PureOps.Dims
import Idealize.ShloMosaic.Lib.ValueIdx
import proofs.«134245_j55130200211996_2_alg».proof.Proof.LibGatherRows

namespace Cert.LibGatherBatch

open Idealize.ShloMosaic Idealize.ShloMosaic.ValueIdx
open Cert.LibGatherRows (clampRow)

variable {α : Type} {w : ℕ}

/-- A middle-axis gather read at `(b, e, c)`: the table at the same batch, the clamped row, the same column. -/
theorem gather_mid {B N C E : ℕ} (hN : 0 < N)
    (d : GatherDims (⟨3, ![B, N, C]⟩ : Shape) ⟨2, ![E, 1]⟩ ⟨3, ![B, E, C]⟩)
    (idx : IVec (⟨2, ![E, 1]⟩ : Shape) w)
    (h0 : ∀ (b : Fin B) (e : Fin E) (c : Fin C), (d.operandIdx (ix3 b e c) idx 0).val = b.val)
    (h1 : ∀ (b : Fin B) (e : Fin E) (c : Fin C),
      (d.operandIdx (ix3 b e c) idx 1).val = min (idx (ix2 e (0 : Fin 1))).toInt.toNat (N - 1))
    (h2 : ∀ (b : Fin B) (e : Fin E) (c : Fin C), (d.operandIdx (ix3 b e c) idx 2).val = c.val)
    (x : (⟨3, ![B, N, C]⟩ : Shape).Idx → α) (b : Fin B) (e : Fin E) (c : Fin C) :
    Host.gather d x idx (ix3 b e c) = x (ix3 b (clampRow N hN (idx (ix2 e (0 : Fin 1)))) c) := by
  unfold Host.gather
  refine congrArg x (funext fun a => Fin.ext ?_)
  match a with
  | ⟨0, _⟩ => exact h0 b e c
  | ⟨1, _⟩ => exact h1 b e c
  | ⟨2, _⟩ => exact h2 b e c

/-- A pair gather read at `(k, c)`: the table at the clamped batch, the clamped row, the same column. -/
theorem gather_pair {B N C K : ℕ} (hB : 0 < B) (hN : 0 < N)
    (d : GatherDims (⟨3, ![B, N, C]⟩ : Shape) ⟨2, ![K, 2]⟩ ⟨2, ![K, C]⟩)
    (idx : IVec (⟨2, ![K, 2]⟩ : Shape) w)
    (h0 : ∀ (k : Fin K) (c : Fin C),
      (d.operandIdx (ix2 k c) idx 0).val = min (idx (ix2 k (0 : Fin 2))).toInt.toNat (B - 1))
    (h1 : ∀ (k : Fin K) (c : Fin C),
      (d.operandIdx (ix2 k c) idx 1).val = min (idx (ix2 k (1 : Fin 2))).toInt.toNat (N - 1))
    (h2 : ∀ (k : Fin K) (c : Fin C), (d.operandIdx (ix2 k c) idx 2).val = c.val)
    (x : (⟨3, ![B, N, C]⟩ : Shape).Idx → α) (k : Fin K) (c : Fin C) :
    Host.gather d x idx (ix2 k c)
      = x (ix3 (clampRow B hB (idx (ix2 k (0 : Fin 2)))) (clampRow N hN (idx (ix2 k (1 : Fin 2)))) c) := by
  unfold Host.gather
  refine congrArg x (funext fun a => Fin.ext ?_)
  match a with
  | ⟨0, _⟩ => exact h0 k c
  | ⟨1, _⟩ => exact h1 k c
  | ⟨2, _⟩ => exact h2 k c

end Cert.LibGatherBatch
-- ==== Proof.LibScatterAddBatch.lean ====
/-
  An accumulating host scatter into the middle axis of a batched operand, read at an index.

  Operand `[B, N, C]`, one scalar row index per update row (`idx : [E, 1]`), updates `[B, E, C]`: the batch and the
  column axes are window axes, the middle axis is the scattered one. Update `(b, e, c)` lands at `(b, idx[e], c)`
  when `0 ≤ idx[e] < N` (the index read signed, not clamped) and is dropped otherwise. At the extended reals the
  accumulating scatter is, at each operand index, the operand's element plus the sum of the update elements whose
  index lands there: element `(b, n, c)` of the result is the operand's plus the sum of `upd (b, e, c)` over the rows
  `e` with `idx[e] = n`.

  What the dimension numbers compute (the window's start and the window coordinate, axis by axis) is taken as
  hypotheses, so the lemmas serve every record of this form whatever the extents.
-/
import Idealize.ShloMosaic.PureOps.Ideal
import Idealize.ShloMosaic.Lib.ValueIdx
import proofs.«134245_j55130200211996_2_alg».proof.Proof.LibScatterRows

namespace Cert.LibScatterAddBatch

open Idealize.ShloMosaic Idealize.ShloMosaic.ValueIdx

variable {w : ℕ}

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable {B N C E : ℕ}

/-- Update `(b, e, c)` lands at `(b', n, c')` exactly when `b = b'`, row `e`'s index, read signed, is `n`, and
    `c = c'`. The six hypotheses say what the dimension numbers of such a scatter compute: the window starts at
    batch 0, at the row the index names and at column 0, and the window coordinates are the update's batch and column. -/
theorem resultIdx_mid (d : ScatterDims (⟨3, ![B, N, C]⟩ : Shape) ⟨2, ![E, 1]⟩ ⟨3, ![B, E, C]⟩)
    (idx : IVec (⟨2, ![E, 1]⟩ : Shape) w)
    (hs0 : ∀ (b : Fin B) (e : Fin E) (c : Fin C), d.start (ix3 b e c) idx 0 = 0)
    (hs1 : ∀ (b : Fin B) (e : Fin E) (c : Fin C), d.start (ix3 b e c) idx 1 = (idx (ix2 e (0 : Fin 1))).toInt)
    (hs2 : ∀ (b : Fin B) (e : Fin E) (c : Fin C), d.start (ix3 b e c) idx 2 = 0)
    (hw0 : ∀ (b : Fin B) (e : Fin E) (c : Fin C), d.window (ix3 b e c) 0 = b.val)
    (hw1 : ∀ (b : Fin B) (e : Fin E) (c : Fin C), d.window (ix3 b e c) 1 = 0)
    (hw2 : ∀ (b : Fin B) (e : Fin E) (c : Fin C), d.window (ix3 b e c) 2 = c.val)
    (b : Fin B) (e : Fin E) (c : Fin C) (b' : Fin B) (n : Fin N) (c' : Fin C) :
    d.resultIdx? (ix3 b e c) idx = some (ix3 b' n c')
      ↔ b = b' ∧ (idx (ix2 e (0 : Fin 1))).toInt = (n.val : Int) ∧ c = c' := by
  have e0 : d.start (ix3 b e c) idx 0 + (d.window (ix3 b e c) 0 : Int) = (b.val : Int) := by
    rw [hs0, hw0]; simp
  have e1 : d.start (ix3 b e c) idx 1 + (d.window (ix3 b e c) 1 : Int) = (idx (ix2 e (0 : Fin 1))).toInt := by
    rw [hs1, hw1]; simp
  have e2 : d.start (ix3 b e c) idx 2 + (d.window (ix3 b e c) 2 : Int) = (c.val : Int) := by
    rw [hs2, hw2]; simp
  unfold ScatterDims.resultIdx?
  constructor
  · intro h
    split at h
    · rename_i hb
      have h' := Option.some.inj h
      have h0 : (d.start (ix3 b e c) idx 0 + (d.window (ix3 b e c) 0 : Int)).toNat = b'.val :=
        congrArg (fun f => (f 0).val) h'
      have h1 : (d.start (ix3 b e c) idx 1 + (d.window (ix3 b e c) 1 : Int)).toNat = n.val :=
        congrArg (fun f => (f 1).val) h'
      have h2 : (d.start (ix3 b e c) idx 2 + (d.window (ix3 b e c) 2 : Int)).toNat = c'.val :=
        congrArg (fun f => (f 2).val) h'
      have hb1 := (hb 1).1
      rw [e0] at h0
      rw [e1] at h1 hb1
      rw [e2] at h2
      exact ⟨Fin.ext (by omega), by omega, Fin.ext (by omega)⟩
    · exact nomatch h
  · rintro ⟨rfl, hr, rfl⟩
    have hb : ∀ a, 0 ≤ d.start (ix3 b e c) idx a + (d.window (ix3 b e c) a : Int)
        ∧ d.start (ix3 b e c) idx a + (d.window (ix3 b e c) a : Int) < ((⟨3, ![B, N, C]⟩ : Shape).size a : Int) := fun a => by
      match a with
      | ⟨0, _⟩ =>
        show 0 ≤ d.start (ix3 b e c) idx 0 + (d.window (ix3 b e c) 0 : Int)
          ∧ d.start (ix3 b e c) idx 0 + (d.window (ix3 b e c) 0 : Int) < (B : Int)
        rw [e0]
        exact ⟨Int.natCast_nonneg _, by exact_mod_cast b.isLt⟩
      | ⟨1, _⟩ =>
        show 0 ≤ d.start (ix3 b e c) idx 1 + (d.window (ix3 b e c) 1 : Int)
          ∧ d.start (ix3 b e c) idx 1 + (d.window (ix3 b e c) 1 : Int) < (N : Int)
        rw [e1, hr]
        exact ⟨Int.natCast_nonneg _, by exact_mod_cast n.isLt⟩
      | ⟨2, _⟩ =>
        show 0 ≤ d.start (ix3 b e c) idx 2 + (d.window (ix3 b e c) 2 : Int)
          ∧ d.start (ix3 b e c) idx 2 + (d.window (ix3 b e c) 2 : Int) < (C : Int)
        rw [e2]
        exact ⟨Int.natCast_nonneg _, by exact_mod_cast c.isLt⟩
    rw [dif_pos hb]
    refine congrArg some (funext fun a => Fin.ext ?_)
    match a with
    | ⟨0, _⟩ =>
      show (d.start (ix3 b e c) idx 0 + (d.window (ix3 b e c) 0 : Int)).toNat = b.val
      rw [e0, Int.toNat_natCast]
    | ⟨1, _⟩ =>
      show (d.start (ix3 b e c) idx 1 + (d.window (ix3 b e c) 1 : Int)).toNat = n.val
      rw [e1, hr, Int.toNat_natCast]
    | ⟨2, _⟩ =>
      show (d.start (ix3 b e c) idx 2 + (d.window (ix3 b e c) 2 : Int)).toNat = c.val
      rw [e2, Int.toNat_natCast]

/-- An accumulating middle-axis scatter read at `(b, n, c)`: the operand's element plus the sum, over the update
    rows `e` whose index (read signed) is `n`, of the update's element `(b, e, c)`. -/
theorem scatterAdd_mid (d : ScatterDims (⟨3, ![B, N, C]⟩ : Shape) ⟨2, ![E, 1]⟩ ⟨3, ![B, E, C]⟩)
    (idx : IVec (⟨2, ![E, 1]⟩ : Shape) w)
    (hs0 : ∀ (b : Fin B) (e : Fin E) (c : Fin C), d.start (ix3 b e c) idx 0 = 0)
    (hs1 : ∀ (b : Fin B) (e : Fin E) (c : Fin C), d.start (ix3 b e c) idx 1 = (idx (ix2 e (0 : Fin 1))).toInt)
    (hs2 : ∀ (b : Fin B) (e : Fin E) (c : Fin C), d.start (ix3 b e c) idx 2 = 0)
    (hw0 : ∀ (b : Fin B) (e : Fin E) (c : Fin C), d.window (ix3 b e c) 0 = b.val)
    (hw1 : ∀ (b : Fin B) (e : Fin E) (c : Fin C), d.window (ix3 b e c) 1 = 0)
    (hw2 : ∀ (b : Fin B) (e : Fin E) (c : Fin C), d.window (ix3 b e c) 2 = c.val)
    (x : (⟨3, ![B, N, C]⟩ : Shape).Idx → EReal) (upd : (⟨3, ![B, E, C]⟩ : Shape).Idx → EReal)
    (b : Fin B) (n : Fin N) (c : Fin C) :
    Ideal.hostScatterAdd d x idx upd (ix3 b n c)
      = x (ix3 b n c) + ∑ e ∈ Finset.univ.filter (fun e : Fin E => (idx (ix2 e (0 : Fin 1))).toInt = (n.val : Int)),
          upd (ix3 b e c) := by
  unfold Ideal.hostScatterAdd
  congr 1
  rw [Finset.sum_filter, Finset.sum_filter]
  refine (sum_idx3 _).trans ?_
  rw [Finset.sum_comm]
  refine Finset.sum_congr rfl fun e _ => ?_
  -- the sum over the update's batches and columns keeps the one cell `(b, c)`, when row `e`'s index is `n`
  have hcell : ∀ (b' : Fin B) (c' : Fin C),
      (if d.resultIdx? (ix3 b' e c') idx = some (ix3 b n c) then upd (ix3 b' e c') else 0)
        = if b' = b ∧ (idx (ix2 e (0 : Fin 1))).toInt = (n.val : Int) ∧ c' = c then upd (ix3 b' e c') else 0 :=
    fun b' c' => if_congr (resultIdx_mid d idx hs0 hs1 hs2 hw0 hw1 hw2 b' e c' b n c) rfl rfl
  rw [Finset.sum_congr rfl fun b' _ => Finset.sum_congr rfl fun c' _ => hcell b' c']
  by_cases h : (idx (ix2 e (0 : Fin 1))).toInt = (n.val : Int)
  · rw [Finset.sum_eq_single b
        (fun b' _ hb' => Finset.sum_eq_zero fun c' _ => if_neg fun hh => hb' hh.1)
        (fun hb => absurd (Finset.mem_univ b) hb),
      Finset.sum_eq_single c (fun c' _ hc' => if_neg fun hh => hc' hh.2.2)
        (fun hc => absurd (Finset.mem_univ c) hc),
      if_pos ⟨rfl, h, rfl⟩, if_pos h]
  · rw [if_neg h]
    exact Finset.sum_eq_zero fun b' _ => Finset.sum_eq_zero fun c' _ => if_neg fun hh => h hh.2.1

end Cert.LibScatterAddBatch
-- ==== Proof.GSRecords.lean ====
/-
  The host gathers and accumulating scatters of the two programs, read at an index.

  Each theorem takes one dimension-numbers record of a program and says what the gather or the accumulating scatter
  over it computes at one result index, by the general lemma of its form. What the record's dimension numbers compute
  (the operand index of a result index, the start and the coordinate of an update's window, axis by axis) is read off
  the record's lists here: on each axis the start-indices index an element reads is `(row, component)`, an axis the
  start index map does not name starts at 0, an axis that is collapsed or inserted has coordinate 0, and a carried
  axis has the result's (the update's) coordinate.

  The forms. A PAIR gather from `[4, 50000, 64]` at `[20000, 2]` (batch, row) pairs, both clamped. A MIDDLE-AXIS
  gather from `[4, 50000, 64]` at `[800000, 1]` rows, and the accumulating scatter of `[4, 800000, 64]` back along the
  same axis. A ROW gather from `[50000, 256]` at `[800000, 1]` rows, and the accumulating row scatter of
  `[800000, 256]` back.
-/
import Idealize.ShloMosaic.PureOps.Ideal
import Idealize.ShloMosaic.Lib.ValueIdx
import proofs.«134245_j55130200211996_2_alg».proof.KernelIdeal
import proofs.«134245_j55130200211996_2_alg».proof.ReferenceIdeal
import proofs.«134245_j55130200211996_2_alg».proof.Proof.LibGatherRows
import proofs.«134245_j55130200211996_2_alg».proof.Proof.LibScatterAddRows
import proofs.«134245_j55130200211996_2_alg».proof.Proof.LibGatherBatch
import proofs.«134245_j55130200211996_2_alg».proof.Proof.LibScatterAddBatch

namespace Cert.GSRecords

open Idealize.ShloMosaic Idealize.ShloMosaic.ValueIdx
open Cert.LibGatherRows (clampRow)

/-! ## The reference program's records -/

section Reference

variable [Cert.ReferenceIdeal.Facts₀]

open Cert.ReferenceIdeal

/-- The pair gather reads component 0 of result row `k`'s start index at `(k, 0)` … -/
theorem ref_pair_siIdx0 (k : Fin 20000) (c : Fin 64) :
    gather_S4x50000x64_S20000x2_S20000x64_1_01_n_n_01_1_1164.siIdx (ix2 k c) ⟨0, Nat.zero_lt_two⟩
      = ix2 k (0 : Fin 2) := by
  funext a
  match a with
  | ⟨0, _⟩ => rfl
  | ⟨1, _⟩ => rfl

/-- … and component 1 at `(k, 1)`. -/
theorem ref_pair_siIdx1 (k : Fin 20000) (c : Fin 64) :
    gather_S4x50000x64_S20000x2_S20000x64_1_01_n_n_01_1_1164.siIdx (ix2 k c) ⟨1, Nat.one_lt_two⟩
      = ix2 k (1 : Fin 2) := by
  funext a
  match a with
  | ⟨0, _⟩ => rfl
  | ⟨1, _⟩ => rfl

/-- The pair gather `x[idx[:, 0], idx[:, 1]]` read at `(k, c)`: the table at the clamped batch, the clamped row,
    column `c`. -/
theorem ref_gather_pair {α : Type} (x : (⟨3, ![4, 50000, 64]⟩ : Shape).Idx → α)
    (idx : IVec (⟨2, ![20000, 2]⟩ : Shape) 32) (k : Fin 20000) (c : Fin 64) :
    Host.gather gather_S4x50000x64_S20000x2_S20000x64_1_01_n_n_01_1_1164 x idx (ix2 k c)
      = x (ix3 (clampRow 4 (by decide) (idx (ix2 k (0 : Fin 2))))
          (clampRow 50000 (by decide) (idx (ix2 k (1 : Fin 2)))) c) :=
  Cert.LibGatherBatch.gather_pair (by decide) (by decide)
    gather_S4x50000x64_S20000x2_S20000x64_1_01_n_n_01_1_1164 idx
    (fun k c =>
      (show _ = min (idx (gather_S4x50000x64_S20000x2_S20000x64_1_01_n_n_01_1_1164.siIdx (ix2 k c)
          ⟨0, Nat.zero_lt_two⟩)).toInt.toNat (4 - 1) from rfl).trans
        (congrArg (fun q => min (idx q).toInt.toNat (4 - 1)) (ref_pair_siIdx0 k c)))
    (fun k c =>
      (show _ = min (idx (gather_S4x50000x64_S20000x2_S20000x64_1_01_n_n_01_1_1164.siIdx (ix2 k c)
          ⟨1, Nat.one_lt_two⟩)).toInt.toNat (50000 - 1) from rfl).trans
        (congrArg (fun q => min (idx q).toInt.toNat (50000 - 1)) (ref_pair_siIdx1 k c)))
    (fun k c => (show _ = 0 + c.val from rfl).trans (Nat.zero_add _))
    x k c

/-- The middle-axis gather reads result row `e`'s start index at `(e, 0)`. -/
theorem ref_mid_siIdx (b : Fin 4) (e : Fin 800000) (c : Fin 64) :
    gather_S4x50000x64_S800000x1_S4x800000x64_02_1_n_n_1_1_4164.siIdx (ix3 b e c) ⟨0, Nat.zero_lt_one⟩
      = ix2 e (0 : Fin 1) := by
  funext a
  match a with
  | ⟨0, _⟩ => rfl
  | ⟨1, _⟩ => rfl

/-- The middle-axis gather `x[:, idx]` read at `(b, e, c)`: the table at batch `b`, the clamped row, column `c`. -/
theorem ref_gather_mid {α : Type} (x : (⟨3, ![4, 50000, 64]⟩ : Shape).Idx → α)
    (idx : IVec (⟨2, ![800000, 1]⟩ : Shape) 32) (b : Fin 4) (e : Fin 800000) (c : Fin 64) :
    Host.gather gather_S4x50000x64_S800000x1_S4x800000x64_02_1_n_n_1_1_4164 x idx (ix3 b e c)
      = x (ix3 b (clampRow 50000 (by decide) (idx (ix2 e (0 : Fin 1)))) c) :=
  Cert.LibGatherBatch.gather_mid (by decide)
    gather_S4x50000x64_S800000x1_S4x800000x64_02_1_n_n_1_1_4164 idx
    (fun b e c => (show _ = 0 + b.val from rfl).trans (Nat.zero_add _))
    (fun b e c =>
      (show _ = min (idx (gather_S4x50000x64_S800000x1_S4x800000x64_02_1_n_n_1_1_4164.siIdx (ix3 b e c)
          ⟨0, Nat.zero_lt_one⟩)).toInt.toNat (50000 - 1) from rfl).trans
        (congrArg (fun q => min (idx q).toInt.toNat (50000 - 1)) (ref_mid_siIdx b e c)))
    (fun b e c => (show _ = 0 + c.val from rfl).trans (Nat.zero_add _))
    x b e c

/-- The middle-axis scatter reads update row `e`'s index at `(e, 0)`. -/
theorem ref_scatter_siIdx (b : Fin 4) (e : Fin 800000) (c : Fin 64) :
    scatter_S4x50000x64_S800000x1_S4x800000x64_02_1_1_1.siIdx (ix3 b e c) ⟨0, Nat.zero_lt_one⟩
      = ix2 e (0 : Fin 1) := by
  funext a
  match a with
  | ⟨0, _⟩ => rfl
  | ⟨1, _⟩ => rfl

/-- The accumulating middle-axis scatter `x.at[:, idx].add(upd)` read at `(b, n, c)`: the operand's element plus
    the sum, over the update rows `e` whose index (read signed) is `n`, of the update's element `(b, e, c)`. -/
theorem ref_scatterAdd_mid (x : (⟨3, ![4, 50000, 64]⟩ : Shape).Idx → EReal)
    (idx : IVec (⟨2, ![800000, 1]⟩ : Shape) 32) (upd : (⟨3, ![4, 800000, 64]⟩ : Shape).Idx → EReal)
    (b : Fin 4) (n : Fin 50000) (c : Fin 64) :
    Ideal.hostScatterAdd scatter_S4x50000x64_S800000x1_S4x800000x64_02_1_1_1 x idx upd (ix3 b n c)
      = x (ix3 b n c)
        + ∑ e ∈ Finset.univ.filter (fun e : Fin 800000 => (idx (ix2 e (0 : Fin 1))).toInt = (n.val : Int)),
            upd (ix3 b e c) :=
  Cert.LibScatterAddBatch.scatterAdd_mid scatter_S4x50000x64_S800000x1_S4x800000x64_02_1_1_1 idx
    (fun _ _ _ => rfl)
    (fun b e c =>
      (show _ = (idx (scatter_S4x50000x64_S800000x1_S4x800000x64_02_1_1_1.siIdx (ix3 b e c)
          ⟨0, Nat.zero_lt_one⟩)).toInt from rfl).trans
        (congrArg (fun q => (idx q).toInt) (ref_scatter_siIdx b e c)))
    (fun _ _ _ => rfl) (fun _ _ _ => rfl) (fun _ _ _ => rfl) (fun _ _ _ => rfl)
    x upd b n c

end Reference

/-! ## The kernel program's records -/

section Kernel

variable [Cert.KernelIdeal.Facts₀]

open Cert.KernelIdeal

/-- The pair gather reads component 0 of result row `k`'s start index at `(k, 0)` … -/
theorem ker_pair_siIdx0 (k : Fin 20000) (c : Fin 64) :
    gather_S4x50000x64_S20000x2_S20000x64_1_01_n_n_01_1_1164.siIdx (ix2 k c) ⟨0, Nat.zero_lt_two⟩
      = ix2 k (0 : Fin 2) := by
  funext a
  match a with
  | ⟨0, _⟩ => rfl
  | ⟨1, _⟩ => rfl

/-- … and component 1 at `(k, 1)`. -/
theorem ker_pair_siIdx1 (k : Fin 20000) (c : Fin 64) :
    gather_S4x50000x64_S20000x2_S20000x64_1_01_n_n_01_1_1164.siIdx (ix2 k c) ⟨1, Nat.one_lt_two⟩
      = ix2 k (1 : Fin 2) := by
  funext a
  match a with
  | ⟨0, _⟩ => rfl
  | ⟨1, _⟩ => rfl

/-- The pair gather `x[idx[:, 0], idx[:, 1]]` read at `(k, c)`: the table at the clamped batch, the clamped row,
    column `c`. -/
theorem ker_gather_pair {α : Type} (x : (⟨3, ![4, 50000, 64]⟩ : Shape).Idx → α)
    (idx : IVec (⟨2, ![20000, 2]⟩ : Shape) 32) (k : Fin 20000) (c : Fin 64) :
    Host.gather gather_S4x50000x64_S20000x2_S20000x64_1_01_n_n_01_1_1164 x idx (ix2 k c)
      = x (ix3 (clampRow 4 (by decide) (idx (ix2 k (0 : Fin 2))))
          (clampRow 50000 (by decide) (idx (ix2 k (1 : Fin 2)))) c) :=
  Cert.LibGatherBatch.gather_pair (by decide) (by decide)
    gather_S4x50000x64_S20000x2_S20000x64_1_01_n_n_01_1_1164 idx
    (fun k c =>
      (show _ = min (idx (gather_S4x50000x64_S20000x2_S20000x64_1_01_n_n_01_1_1164.siIdx (ix2 k c)
          ⟨0, Nat.zero_lt_two⟩)).toInt.toNat (4 - 1) from rfl).trans
        (congrArg (fun q => min (idx q).toInt.toNat (4 - 1)) (ker_pair_siIdx0 k c)))
    (fun k c =>
      (show _ = min (idx (gather_S4x50000x64_S20000x2_S20000x64_1_01_n_n_01_1_1164.siIdx (ix2 k c)
          ⟨1, Nat.one_lt_two⟩)).toInt.toNat (50000 - 1) from rfl).trans
        (congrArg (fun q => min (idx q).toInt.toNat (50000 - 1)) (ker_pair_siIdx1 k c)))
    (fun k c => (show _ = 0 + c.val from rfl).trans (Nat.zero_add _))
    x k c

/-- The row gather reads result row `k`'s start index at `(k, 0)`. -/
theorem ker_rows_siIdx (k : Fin 800000) (c : Fin 256) :
    gather_S50000x256_S800000x1_S800000x256_1_0_n_n_0_1_1256.siIdx (ix2 k c) ⟨0, Nat.zero_lt_one⟩
      = ix2 k (0 : Fin 1) := by
  funext a
  match a with
  | ⟨0, _⟩ => rfl
  | ⟨1, _⟩ => rfl

/-- The row gather `x[idx]` read at `(k, c)`: the table at the clamped row, column `c`. -/
theorem ker_gather_rows {α : Type} (x : (⟨2, ![50000, 256]⟩ : Shape).Idx → α)
    (idx : IVec (⟨2, ![800000, 1]⟩ : Shape) 32) (k : Fin 800000) (c : Fin 256) :
    Host.gather gather_S50000x256_S800000x1_S800000x256_1_0_n_n_0_1_1256 x idx (ix2 k c)
      = x (ix2 (clampRow 50000 (by decide) (idx (ix2 k (0 : Fin 1)))) c) :=
  Cert.LibGatherRows.gather_rows (by decide)
    gather_S50000x256_S800000x1_S800000x256_1_0_n_n_0_1_1256 idx
    (fun k c =>
      (show _ = min (idx (gather_S50000x256_S800000x1_S800000x256_1_0_n_n_0_1_1256.siIdx (ix2 k c)
          ⟨0, Nat.zero_lt_one⟩)).toInt.toNat (50000 - 1) from rfl).trans
        (congrArg (fun q => min (idx q).toInt.toNat (50000 - 1)) (ker_rows_siIdx k c)))
    (fun k c => (show _ = 0 + c.val from rfl).trans (Nat.zero_add _))
    x k c

/-- The row scatter reads update row `k`'s index at `(k, 0)`. -/
theorem ker_scatter_siIdx (k : Fin 800000) (c : Fin 256) :
    scatter_S50000x256_S800000x1_S800000x256_1_0_0_1.siIdx (ix2 k c) ⟨0, Nat.zero_lt_one⟩
      = ix2 k (0 : Fin 1) := by
  funext a
  match a with
  | ⟨0, _⟩ => rfl
  | ⟨1, _⟩ => rfl

/-- The accumulating row scatter `x.at[idx].add(upd)` read at `(r, c)`: the operand's element plus the sum, over
    the update rows `k` whose index (read signed) is `r`, of the update's element `(k, c)`. -/
theorem ker_scatterAdd_rows (x : (⟨2, ![50000, 256]⟩ : Shape).Idx → EReal)
    (idx : IVec (⟨2, ![800000, 1]⟩ : Shape) 32) (upd : (⟨2, ![800000, 256]⟩ : Shape).Idx → EReal)
    (r : Fin 50000) (c : Fin 256) :
    Ideal.hostScatterAdd scatter_S50000x256_S800000x1_S800000x256_1_0_0_1 x idx upd (ix2 r c)
      = x (ix2 r c)
        + ∑ k ∈ Finset.univ.filter (fun k : Fin 800000 => (idx (ix2 k (0 : Fin 1))).toInt = (r.val : Int)),
            upd (ix2 k c) :=
  Cert.LibScatterAddRows.scatterAdd_rows scatter_S50000x256_S800000x1_S800000x256_1_0_0_1 idx
    (fun k c =>
      (show _ = (idx (scatter_S50000x256_S800000x1_S800000x256_1_0_0_1.siIdx (ix2 k c)
          ⟨0, Nat.zero_lt_one⟩)).toInt from rfl).trans
        (congrArg (fun q => (idx q).toInt) (ker_scatter_siIdx k c)))
    (fun _ _ => rfl) (fun _ _ => rfl) (fun _ _ => rfl)
    x upd r c

end Kernel

end Cert.GSRecords
-- ==== Proof.AggBridge.lean ====
/-
  The kernel's mean aggregation equals the reference's, index by index.

  Both programs aggregate over the edges: every edge gathers its source node's features, scales them by the edge
  weight and adds them into its target node's row, and each row is divided by the node's number of incoming edges.
  The reference does it on the `[4, N, 64]` array, gathering and scattering along the middle axis. The kernel lays the
  four batches side by side, `[N, 4·64]`, gathers and scatters whole rows, and goes back to `[4, N, 64]`, flattened
  to rows. Read at one index both are the same sum over the same edges of the same products, divided by the same
  count: lane `b·64 + k` of row `n` on one side is element `(b, n, k)` on the other.
-/
import Idealize.ShloMosaic.PureOps.Ideal
import Idealize.ShloMosaic.Lib.Pipeline.Value
import Idealize.ShloMosaic.Lib.ValueIdx
import proofs.«134245_j55130200211996_2_alg».proof.Proof.KChain
import proofs.«134245_j55130200211996_2_alg».proof.Proof.RefDense
import proofs.«134245_j55130200211996_2_alg».proof.Proof.GSRecords

noncomputable section

namespace Cert.AggBridge

open Idealize.ShloMosaic Idealize.ShloMosaic.ValueIdx
open Cert.LibGatherRows (clampRow)
open scoped BigOperators

/-! ## The index and count terms of the two programs are the same terms -/

/-- The target-node indices: the same operations on the edge list in both programs. -/
theorem rowIdx_eq (x1 : (⟨Cert.ReferenceIdeal.S2x800000, .i32⟩ : BufTy).Contents (Elt Ideal)) :
    Cert.KernelIdeal.Chain.rowIdx x1 = Cert.ReferenceIdeal.Read.val_main_v133 (F := Ideal) x1 := rfl

/-- The source-node indices: the same operations on the edge list in both programs. -/
theorem colIdx_eq (x1 : (⟨Cert.ReferenceIdeal.S2x800000, .i32⟩ : BufTy).Contents (Elt Ideal)) :
    Cert.KernelIdeal.Chain.colIdx x1 = Cert.ReferenceIdeal.Read.val_main_v127 (F := Ideal) x1 := rfl

/-- The node counts: the same operations on the edge list in both programs. -/
theorem degree_eq (x1 : (⟨Cert.ReferenceIdeal.S2x800000, .i32⟩ : BufTy).Contents (Elt Ideal)) :
    Cert.KernelIdeal.Chain.degree x1 = Cert.ReferenceIdeal.Read.val_main_v119 (F := Ideal) x1 := rfl

/-! ## The layout: the four batches side by side -/

/-- A lane `b·64 + k` of the 256. -/
theorem lane_lt (b : Fin 4) (k : Fin 64) : b.val * 64 + k.val < 256 := by
  have := b.isLt
  have := k.isLt
  omega

/-- A row `b·N + n` of the flattened array. -/
theorem row_lt (b : Fin 4) (n : Fin 50000) : b.val * 50000 + n.val < 200000 := by
  have := b.isLt
  have := n.isLt
  omega

/-- An `[4, N, 64]` array transposed to `[N, 4, 64]` and reshaped `[N, 4·64]`, read at row `n`, lane `b·64 + k`:
    the element `(b, n, k)`. -/
theorem dense_read {α : Type} (y : (⟨3, ![4, 50000, 64]⟩ : Shape).Idx → α)
    (h1 : (⟨3, ![4, 50000, 64]⟩ : Shape).Transposes [1, 0, 2] ⟨3, ![50000, 4, 64]⟩)
    (h2 : (⟨3, ![50000, 4, 64]⟩ : Shape).ShapeCasts ⟨2, ![50000, 256]⟩)
    (b : Fin 4) (n : Fin 50000) (k : Fin 64) :
    shapeCast ⟨2, ![50000, 256]⟩ (transpose ⟨3, ![50000, 4, 64]⟩ [1, 0, 2] y h1) h2
        (ix2 n (⟨b.val * 64 + k.val, lane_lt b k⟩ : Fin 256))
      = y (ix3 b n k) := by
  refine (shapeCast_apply _ h2 _ (ix3 n b k) ?_).trans ?_
  · rw [Shape.rowMajor_val_three, Shape.rowMajor_val_two]
    show (n.val * 4 + b.val) * 64 + k.val = n.val * 256 + (b.val * 64 + k.val)
    omega
  · exact transpose_apply _ y h1 _ (ix3 b n k) (fun c => match c with | ⟨0, _⟩ => rfl | ⟨1, _⟩ => rfl | ⟨2, _⟩ => rfl)

/-- The way back: an `[N, 4·64]` array reshaped `[N, 4, 64]`, transposed to `[4, N, 64]` and flattened to rows, read
    at row `b·N + n`, column `k`: the element at row `n`, lane `b·64 + k`. -/
theorem undense_read {α : Type} (z : (⟨2, ![50000, 256]⟩ : Shape).Idx → α)
    (h1 : (⟨2, ![50000, 256]⟩ : Shape).ShapeCasts ⟨3, ![50000, 4, 64]⟩)
    (h2 : (⟨3, ![50000, 4, 64]⟩ : Shape).Transposes [1, 0, 2] ⟨3, ![4, 50000, 64]⟩)
    (h3 : (⟨3, ![4, 50000, 64]⟩ : Shape).ShapeCasts ⟨2, ![200000, 64]⟩)
    (b : Fin 4) (n : Fin 50000) (k : Fin 64) :
    shapeCast ⟨2, ![200000, 64]⟩ (transpose ⟨3, ![4, 50000, 64]⟩ [1, 0, 2] (shapeCast ⟨3, ![50000, 4, 64]⟩ z h1) h2) h3
        (ix2 (⟨b.val * 50000 + n.val, row_lt b n⟩ : Fin 200000) k)
      = z (ix2 n (⟨b.val * 64 + k.val, lane_lt b k⟩ : Fin 256)) := by
  refine (shapeCast_apply _ h3 _ (ix3 b n k) ?_).trans ?_
  · rw [Shape.rowMajor_val_three, Shape.rowMajor_val_two]
    rfl
  refine (transpose_apply _ _ h2 _ (ix3 n b k)
    (fun c => match c with | ⟨0, _⟩ => rfl | ⟨1, _⟩ => rfl | ⟨2, _⟩ => rfl)).trans ?_
  refine shapeCast_apply z h1 _ _ ?_
  rw [Shape.rowMajor_val_three, Shape.rowMajor_val_two]
  show n.val * 256 + (b.val * 64 + k.val) = (n.val * 4 + b.val) * 64 + k.val
  omega

/-- A vector broadcast to one column and then along the rows, read at `(n, q)`: the vector at `n`. -/
theorem bcast_col_read {α : Type} {N C : ℕ} (hN : N ≠ 1) (g : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (n : Fin N) (q : Fin C) :
    broadcastInDim ⟨2, ![N, C]⟩ ![0, 1] h2 (broadcastInDim ⟨2, ![N, 1]⟩ ![0] h1 g) (ix2 n q) = g (ix1 n) := by
  refine (broadcastInDim_apply _ h2 _ _ (ix2 n (0 : Fin 1)) (fun a => match a with
    | ⟨0, _⟩ => by show n.val = if N = 1 then 0 else n.val; rw [if_neg hN]
    | ⟨1, _⟩ => by show 0 = if (1 : Nat) = 1 then 0 else q.val; rw [if_pos rfl])).trans ?_
  exact broadcastInDim_apply _ h1 g _ (ix1 n) (fun a => match a with
    | ⟨0, _⟩ => by show n.val = if N = 1 then 0 else n.val; rw [if_neg hN])

/-! ## The kernel's accumulated row -/

section Kernel

open Cert.KernelIdeal Cert.KernelIdeal.Gen Cert.KernelIdeal.Chain

/-- The operand of the kernel's accumulating scatter: zeros. -/
def kerZeros : (⟨S50000x256, .f32⟩ : BufTy).Contents (Elt Ideal) :=
  broadcastInDim S50000x256 ![] bcast_S_S50000x256 (constant (F := Ideal) S_ .f32 0x00000000#32)

/-- The updates of the kernel's accumulating scatter: each edge's weight times its source node's 256 lanes. -/
def kerMsgs (y : (⟨S4x50000x64, .f32⟩ : BufTy).Contents (Elt Ideal))
    (x1 : (⟨S2x800000, .i32⟩ : BufTy).Contents (Elt Ideal)) (x2 : (⟨S800000, .f32⟩ : BufTy).Contents (Elt Ideal)) :
    (⟨S800000x256, .f32⟩ : BufTy).Contents (Elt Ideal) :=
  mulf (F := Ideal) (φ := .f32)
    (broadcastInDim S800000x256 ![0, 1] bcast_S800000x1_S800000x256_0_1 (broadcastInDim S800000x1 ![0] bcast_S800000_S800000x1_0 x2))
    (Host.gather gather_S50000x256_S800000x1_S800000x256_1_0_n_n_0_1_1256 (dense y) (colIdx x1))

/-- The kernel's accumulated messages are the accumulating scatter of these into those. -/
theorem aggSum_eq (y : (⟨S4x50000x64, .f32⟩ : BufTy).Contents (Elt Ideal))
    (x1 : (⟨S2x800000, .i32⟩ : BufTy).Contents (Elt Ideal)) (x2 : (⟨S800000, .f32⟩ : BufTy).Contents (Elt Ideal)) :
    aggSum y x1 x2
      = Ideal.hostScatterAdd scatter_S50000x256_S800000x1_S800000x256_1_0_0_1 kerZeros (rowIdx x1) (kerMsgs y x1 x2) := rfl

/-- The zeros read at an index. -/
theorem kerZeros_apply (i : S50000x256.Idx) : kerZeros i = 0 := Ideal.ofBits_zero_f32

/-- An edge's message read at lane `b·64 + k`: the edge weight times the source node's element `(b, ·, k)`. -/
theorem kerMsgs_apply (y : (⟨S4x50000x64, .f32⟩ : BufTy).Contents (Elt Ideal))
    (x1 : (⟨S2x800000, .i32⟩ : BufTy).Contents (Elt Ideal)) (x2 : (⟨S800000, .f32⟩ : BufTy).Contents (Elt Ideal))
    (e : Fin 800000) (b : Fin 4) (k : Fin 64) :
    kerMsgs y x1 x2 (ix2 e (⟨b.val * 64 + k.val, lane_lt b k⟩ : Fin 256))
      = x2 (ix1 e) * y (ix3 b (clampRow 50000 (by decide) (colIdx x1 (ix2 e (0 : Fin 1)))) k) := by
  unfold kerMsgs
  show _ * _ = _
  rw [bcast_col_read (by decide) x2 bcast_S800000_S800000x1_0 bcast_S800000x1_S800000x256_0_1 e _,
    Cert.GSRecords.ker_gather_rows (dense y) (colIdx x1) e _]
  unfold dense
  rw [dense_read y transposes_S4x50000x64_S50000x4x64_1_0_2 shapeCasts_S50000x4x64_S50000x256 b _ k]

/-- The kernel's accumulated messages at row `n`, lane `b·64 + k`: the sum, over the edges whose target is `n`, of
    the edge weight times the source node's element `(b, ·, k)`. -/
theorem aggSum_apply (y : (⟨S4x50000x64, .f32⟩ : BufTy).Contents (Elt Ideal))
    (x1 : (⟨S2x800000, .i32⟩ : BufTy).Contents (Elt Ideal)) (x2 : (⟨S800000, .f32⟩ : BufTy).Contents (Elt Ideal))
    (b : Fin 4) (n : Fin 50000) (k : Fin 64) :
    aggSum y x1 x2 (ix2 n (⟨b.val * 64 + k.val, lane_lt b k⟩ : Fin 256))
      = ∑ e ∈ Finset.univ.filter (fun e : Fin 800000 => (rowIdx x1 (ix2 e (0 : Fin 1))).toInt = (n.val : Int)),
          x2 (ix1 e) * y (ix3 b (clampRow 50000 (by decide) (colIdx x1 (ix2 e (0 : Fin 1)))) k) := by
  rw [aggSum_eq y x1 x2,
    Cert.GSRecords.ker_scatterAdd_rows kerZeros (rowIdx x1) (kerMsgs y x1 x2) n (⟨b.val * 64 + k.val, lane_lt b k⟩ : Fin 256),
    kerZeros_apply, zero_add]
  exact Finset.sum_congr rfl fun e _ => kerMsgs_apply y x1 x2 e b k

/-- The kernel's mean aggregation at row `b·N + n`, column `k`: the accumulated messages at row `n`, lane
    `b·64 + k`, divided by node `n`'s count. -/
theorem agg_apply (y : (⟨S4x50000x64, .f32⟩ : BufTy).Contents (Elt Ideal))
    (x1 : (⟨S2x800000, .i32⟩ : BufTy).Contents (Elt Ideal)) (x2 : (⟨S800000, .f32⟩ : BufTy).Contents (Elt Ideal))
    (b : Fin 4) (n : Fin 50000) (k : Fin 64) :
    agg y x1 x2 (ix2 (⟨b.val * 50000 + n.val, row_lt b n⟩ : Fin 200000) k)
      = Ideal.div (aggSum y x1 x2 (ix2 n (⟨b.val * 64 + k.val, lane_lt b k⟩ : Fin 256))) (degree x1 (ix1 n)) := by
  have hd : ∀ (u v : (⟨S50000x256, .f32⟩ : BufTy).Contents (Elt Ideal)) (i : S50000x256.Idx),
      Host.divf (F := Ideal) (φ := .f32) u v i = Ideal.div (u i) (v i) := fun _ _ _ => rfl
  unfold agg
  rw [undense_read
      (Host.divf (F := Ideal) (φ := .f32) (aggSum y x1 x2)
        (broadcastInDim S50000x256 ![0, 1] bcast_S50000x1_S50000x256_0_1
          (broadcastInDim S50000x1 ![0] bcast_S50000_S50000x1_0 (degree x1))))
      shapeCasts_S50000x256_S50000x4x64 transposes_S50000x4x64_S4x50000x64_1_0_2 shapeCasts_S4x50000x64_S200000x64 b n k,
    hd (aggSum y x1 x2)
      (broadcastInDim S50000x256 ![0, 1] bcast_S50000x1_S50000x256_0_1
        (broadcastInDim S50000x1 ![0] bcast_S50000_S50000x1_0 (degree x1)))
      (ix2 n (⟨b.val * 64 + k.val, lane_lt b k⟩ : Fin 256)),
    bcast_col_read (by decide) (degree x1) bcast_S50000_S50000x1_0 bcast_S50000x1_S50000x256_0_1 n
      (⟨b.val * 64 + k.val, lane_lt b k⟩ : Fin 256)]

end Kernel

/-! ## The reference's accumulated row -/

section Reference

open Cert.ReferenceIdeal Cert.ReferenceIdeal.Read

/-- The reference's accumulated messages at `(b, n, k)`: the sum, over the edges whose target is `n`, of the edge
    weight times the source node's element `(b, ·, k)`. -/
theorem v135_apply (x0 : (⟨S4x50000x64, .f32⟩ : BufTy).Contents (Elt Ideal))
    (x1 : (⟨S2x800000, .i32⟩ : BufTy).Contents (Elt Ideal)) (x2 : (⟨S800000, .f32⟩ : BufTy).Contents (Elt Ideal))
    (x3 x4 : (⟨S20000, .i32⟩ : BufTy).Contents (Elt Ideal)) (x5 : (⟨S64x64, .f32⟩ : BufTy).Contents (Elt Ideal))
    (x6 x7 x8 : (⟨S64, .f32⟩ : BufTy).Contents (Elt Ideal)) (x9 : (⟨S64x64, .f32⟩ : BufTy).Contents (Elt Ideal))
    (x10 x11 x12 : (⟨S64, .f32⟩ : BufTy).Contents (Elt Ideal)) (b : Fin 4) (n : Fin 50000) (k : Fin 64) :
    val_main_v135 (F := Ideal) x0 x1 x2 x3 x4 x5 x6 x7 x8 x9 x10 x11 x12 (ix3 b n k)
      = ∑ e ∈ Finset.univ.filter
            (fun e : Fin 800000 => (val_main_v133 (F := Ideal) x1 (ix2 e (0 : Fin 1))).toInt = (n.val : Int)),
          x2 (ix1 e) * val_main_v109 (F := Ideal) x0 x3 x4 x5 x6 x7 x8 x9 x10 x11 x12
            (ix3 b (clampRow 50000 (by decide) (val_main_v127 (F := Ideal) x1 (ix2 e (0 : Fin 1)))) k) := by
  have h : val_main_v135 (F := Ideal) x0 x1 x2 x3 x4 x5 x6 x7 x8 x9 x10 x11 x12
      = Ideal.hostScatterAdd scatter_S4x50000x64_S800000x1_S4x800000x64_02_1_1_1 (val_main_v134 (F := Ideal))
          (val_main_v133 (F := Ideal) x1) (val_main_v131 (F := Ideal) x0 x1 x2 x3 x4 x5 x6 x7 x8 x9 x10 x11 x12) := rfl
  have hz : val_main_v134 (F := Ideal) (ix3 b n k) = 0 := by
    rw [val_main_v134_apply, val_main_v132_apply, val_main_cst_29_apply, Ideal.ofBits_def, Ideal.ofBits_zero_f32]
  rw [h, Cert.GSRecords.ref_scatterAdd_mid (val_main_v134 (F := Ideal)) (val_main_v133 (F := Ideal) x1)
    (val_main_v131 (F := Ideal) x0 x1 x2 x3 x4 x5 x6 x7 x8 x9 x10 x11 x12) b n k, hz, zero_add]
  refine Finset.sum_congr rfl fun e _ => ?_
  have hg : val_main_v128 (F := Ideal) x0 x1 x3 x4 x5 x6 x7 x8 x9 x10 x11 x12
      = Host.gather gather_S4x50000x64_S800000x1_S4x800000x64_02_1_n_n_1_1_4164
          (val_main_v109 (F := Ideal) x0 x3 x4 x5 x6 x7 x8 x9 x10 x11 x12) (val_main_v127 (F := Ideal) x1) := rfl
  rw [Cert.ReferenceIdeal.Dense.v131_apply, hg,
    Cert.GSRecords.ref_gather_mid (val_main_v109 (F := Ideal) x0 x3 x4 x5 x6 x7 x8 x9 x10 x11 x12)
      (val_main_v127 (F := Ideal) x1) b e k]

end Reference

/-! ## The two mean aggregations agree -/

/-- The kernel's mean aggregation of the reference's overwritten features, read at row `b·N + n`, column `k`, is
    the reference's mean aggregation at `(b, n, k)`. -/
theorem agg_eq_ref (x0 : (⟨Cert.ReferenceIdeal.S4x50000x64, .f32⟩ : BufTy).Contents (Elt Ideal))
    (x1 : (⟨Cert.ReferenceIdeal.S2x800000, .i32⟩ : BufTy).Contents (Elt Ideal))
    (x2 : (⟨Cert.ReferenceIdeal.S800000, .f32⟩ : BufTy).Contents (Elt Ideal))
    (x3 x4 : (⟨Cert.ReferenceIdeal.S20000, .i32⟩ : BufTy).Contents (Elt Ideal))
    (x5 : (⟨Cert.ReferenceIdeal.S64x64, .f32⟩ : BufTy).Contents (Elt Ideal))
    (x6 x7 x8 : (⟨Cert.ReferenceIdeal.S64, .f32⟩ : BufTy).Contents (Elt Ideal))
    (x9 : (⟨Cert.ReferenceIdeal.S64x64, .f32⟩ : BufTy).Contents (Elt Ideal))
    (x10 x11 x12 : (⟨Cert.ReferenceIdeal.S64, .f32⟩ : BufTy).Contents (Elt Ideal))
    (b : Fin 4) (n : Fin 50000) (k : Fin 64) :
    Cert.KernelIdeal.Chain.agg (Cert.ReferenceIdeal.Read.val_main_v109 (F := Ideal) x0 x3 x4 x5 x6 x7 x8 x9 x10 x11 x12) x1 x2
        (ix2 (⟨b.val * 50000 + n.val, by omega⟩ : Fin 200000) k)
      = Cert.ReferenceIdeal.Read.val_main_v138 (F := Ideal) x0 x1 x2 x3 x4 x5 x6 x7 x8 x9 x10 x11 x12 (ix3 b n k) := by
  rw [Cert.ReferenceIdeal.Dense.v138_apply x0 x1 x2 x3 x4 x5 x6 x7 x8 x9 x10 x11 x12 b n k,
    v135_apply x0 x1 x2 x3 x4 x5 x6 x7 x8 x9 x10 x11 x12 b n k,
    agg_apply (Cert.ReferenceIdeal.Read.val_main_v109 (F := Ideal) x0 x3 x4 x5 x6 x7 x8 x9 x10 x11 x12) x1 x2 b n k,
    aggSum_apply (Cert.ReferenceIdeal.Read.val_main_v109 (F := Ideal) x0 x3 x4 x5 x6 x7 x8 x9 x10 x11 x12) x1 x2 b n k,
    rowIdx_eq x1, colIdx_eq x1, degree_eq x1]

end Cert.AggBridge

end
-- ==== Proof.KValue.lean ====
/-
  The value of the idealized kernel's run: the result buffer, at the end of @main, holds the reference's function of
  the arguments.

  Read backwards from the result. The result is the second region's output array, reshaped; that array is, row by row,
  the output layer applied to the rows of the region's row input (from blocks to the array, and the body at an index);
  the row input's row `50000·b + n` is the mean aggregation of the overwritten features at `(b, n)`, equal to the
  reference's in its own layout; the overwritten features are a set-scatter of the mixed features with the labeled mix
  at the labeled index pairs, and each of the three is the reference's: the mixed features because the first region's
  output array is, row by row, the mix of the two branches of the input rows; the labeled mix because a branch of a
  gathered row is the gathered row of the branch; the index pairs because both programs build them by the same
  operations.
-/
import proofs.«134245_j55130200211996_2_alg».proof.Proof.KChain
import proofs.«134245_j55130200211996_2_alg».proof.Proof.KEntry
import proofs.«134245_j55130200211996_2_alg».proof.Proof.KBlocks
import proofs.«134245_j55130200211996_2_alg».proof.Proof.RefDense
import proofs.«134245_j55130200211996_2_alg».proof.Proof.LibLayoutRead
import proofs.«134245_j55130200211996_2_alg».proof.Proof.DenseBridge
import proofs.«134245_j55130200211996_2_alg».proof.Proof.KLab
import proofs.«134245_j55130200211996_2_alg».proof.Proof.GSRecords
import proofs.«134245_j55130200211996_2_alg».proof.Proof.AggBridge

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem Cert.Spec

/-- Two arrays over a rank-3 index set agree if they agree at every triple of coordinates. -/
theorem ext3 {A B C : ℕ} {α : Type} (f g : (⟨3, ![A, B, C]⟩ : Shape).Idx → α)
    (h : ∀ (a : Fin A) (b : Fin B) (c : Fin C), f (ix3 a b c) = g (ix3 a b c)) : f = g :=
  funext fun i => by rw [eq_ix3 i]; exact h _ _ _

/-- The first region's whole-array function at row `r`, channel `q`. -/
theorem mixRows_at (xf : S200000x64.Idx → EReal) (w0 : S64x64.Idx → EReal) (b0 g0 be0 : S1x64.Idx → EReal)
    (w1 : S64x64.Idx → EReal) (b1 g1 be1 : S1x64.Idx → EReal) (r : Fin 200000) (q : Fin 64) :
    Blocks.mixRows xf w0 b0 g0 be0 w1 b1 g1 be1 (ix2 r q)
      = mix (branch (fun o k => w0 (ix2 k o)) (fun o => b0 (ix2 (0 : Fin 1) o)) (fun o => g0 (ix2 (0 : Fin 1) o)) (fun o => be0 (ix2 (0 : Fin 1) o)) (fun k => xf (ix2 r k)) q)
          (branch (fun o k => w1 (ix2 k o)) (fun o => b1 (ix2 (0 : Fin 1) o)) (fun o => g1 (ix2 (0 : Fin 1) o)) (fun o => be1 (ix2 (0 : Fin 1) o)) (fun k => xf (ix2 r k)) q) := rfl

/-- The second region's whole-array function at row `r`, channel `q`. -/
theorem outRows_at (xf : S200000x64.Idx → EReal) (w : S64x64.Idx → EReal) (b : S1x64.Idx → EReal) (r : Fin 200000) (q : Fin 64) :
    Blocks.outRows xf w b (ix2 r q)
      = outRow (fun o k => w (ix2 k o)) (fun o => b (ix2 (0 : Fin 1) o)) (fun k => xf (ix2 r k)) q := rfl

variable (m : (ℓ : Loc nD τ sig) → Buf (Elt Ideal) ℓ) (ρ : Dev nD → PrngReg)

/-- The mixed features: the first region's output array, reshaped to `[4, N, 64]`, is the reference's default mix. -/
theorem xdef_eq (c : Dev nD) :
    W6 m ρ c (Proc.devRef .tc main_v11)
      = Cert.ReferenceIdeal.Read.val_main_v62 (F := Ideal) (m ((c : Thread nD τ).loc main_arg0)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Chain.v11_eq, Blocks.final0 (V1 m ρ) c]
  refine ext3 (A := 4) (B := 50000) (C := 64) _ _ fun b n o => ?_
  rw [LibLayoutRead.cube_of_flat _ _ b n o (LibLayoutRead.flat_lt b n)]
  rw [Cert.ReferenceIdeal.Dense.v62_apply, Cert.ReferenceIdeal.Dense.v28_apply, Cert.ReferenceIdeal.Dense.v57_apply]
  rw [Entry.v0_eq, Entry.v1_eq, Entry.v2_eq, Entry.v4_eq, Entry.v5_eq, Entry.v6_eq, Entry.v7_eq, Entry.v8_eq, Entry.v9_eq]
  rw [mixRows_at]
  have hw0 : (fun (o k : Fin 64) => transpose S64x64 [1, 0] (m ((c : Thread nD τ).loc main_arg5)) transposes_S64x64_S64x64_1_0 (ix2 k o))
      = fun o k => m ((c : Thread nD τ).loc main_arg5) (ix2 o k) := funext fun o => funext fun k => LibLayoutRead.transpose64 _ _ k o
  have hw1 : (fun (o k : Fin 64) => transpose S64x64 [1, 0] (m ((c : Thread nD τ).loc main_arg9)) transposes_S64x64_S64x64_1_0 (ix2 k o))
      = fun o k => m ((c : Thread nD τ).loc main_arg9) (ix2 o k) := funext fun o => funext fun k => LibLayoutRead.transpose64 _ _ k o
  have hr : (fun k : Fin 64 => shapeCast S200000x64 (m ((c : Thread nD τ).loc main_arg0)) shapeCasts_S4x50000x64_S200000x64 (ix2 (⟨b.val * 50000 + n.val, LibLayoutRead.flat_lt b n⟩ : Fin 200000) k))
      = fun k => m ((c : Thread nD τ).loc main_arg0) (ix3 b n k) := funext fun k => LibLayoutRead.flat_of_cube _ _ b n k _
  rw [hw0, hw1, hr]
  simp only [LibLayoutRead.row_of_vec]

/-- Two arrays over a rank-2 index set agree if they agree at every pair of coordinates. -/
theorem ext2 {A B : ℕ} {α : Type} (f g : (⟨2, ![A, B]⟩ : Shape).Idx → α)
    (h : ∀ (a : Fin A) (b : Fin B), f (ix2 a b) = g (ix2 a b)) : f = g :=
  funext fun i => by rw [eq_ix2 i]; exact h _ _

/-- The reference builds the index pairs of the labeled positions by the same operations (three times). -/
theorem pairIdx_v75 (x3 x4 : (⟨S20000, .i32⟩ : BufTy).Contents (Elt Ideal)) :
    Cert.ReferenceIdeal.Read.val_main_v75 (F := Ideal) x3 x4 = Lab.pairIdx x3 x4 := rfl
theorem pairIdx_v91 (x3 x4 : (⟨S20000, .i32⟩ : BufTy).Contents (Elt Ideal)) :
    Cert.ReferenceIdeal.Read.val_main_v91 (F := Ideal) x3 x4 = Lab.pairIdx x3 x4 := rfl
theorem pairIdx_v108 (x3 x4 : (⟨S20000, .i32⟩ : BufTy).Contents (Elt Ideal)) :
    Cert.ReferenceIdeal.Read.val_main_v108 (F := Ideal) x3 x4 = Lab.pairIdx x3 x4 := rfl

/-- The labeled mix: the kernel's, computed on the gathered input rows, is the reference's, gathered from the
    branches of all rows - a branch of a gathered row is the gathered row of the branch. -/
theorem lab_eq (c : Dev nD) :
    W7 m ρ c (Proc.devRef .tc main_v90)
      = Cert.ReferenceIdeal.Read.val_main_v95 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Lab.v90_eq]
  refine ext2 (A := 20000) (B := 64) _ _ fun k o => ?_
  rw [Lab.lab_apply, Cert.ReferenceIdeal.Dense.v95_apply]
  unfold Cert.ReferenceIdeal.Read.val_main_v76 Cert.ReferenceIdeal.Read.val_main_v92
  rw [pairIdx_v75, pairIdx_v91]
  rw [Cert.GSRecords.ref_gather_pair, Cert.GSRecords.ref_gather_pair, Cert.ReferenceIdeal.Dense.v57_apply, Cert.ReferenceIdeal.Dense.v28_apply]
  simp only [Cert.GSRecords.ker_gather_pair]

/-- The overwritten features: equal arrays, equal index pairs, equal updates, the same set-scatter. -/
theorem v104_ref (c : Dev nD) :
    W7 m ρ c (Proc.devRef .tc main_v104)
      = Cert.ReferenceIdeal.Read.val_main_v109 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Chain.v104_eq, xdef_eq, Lab.v103_eq, lab_eq]
  unfold Cert.ReferenceIdeal.Read.val_main_v109
  rw [pairIdx_v108]
  exact Cert.DenseBridge.set_eq _ _ _ _ _ rfl rfl

/-- The second region's row input, row `50000·b + n`, is the reference's mean aggregation at `(b, n)`. -/
theorem rows_eq (c : Dev nD) (b : Fin 4) (n : Fin 50000) (k : Fin 64) :
    V7 m ρ c main_v135 (ix2 (⟨b.val * 50000 + n.val, LibLayoutRead.flat_lt b n⟩ : Fin 200000) k)
      = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 b n k) := by
  show W7 m ρ c (Proc.devRef .tc main_v135) _ = _
  rw [Chain.v135_eq, v104_ref]
  exact Cert.AggBridge.agg_eq_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b n k

/-- The kernel's result is the reference's function of the arguments. -/
theorem kernel_value (c : Dev nD) :
    W9 m ρ c (Proc.devRef .tc main_v138)
      = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Chain.v138_eq, Blocks.final1 (V7 m ρ) c]
  refine ext3 (A := 4) (B := 50000) (C := 64) _ _ fun b n o => ?_
  rw [LibLayoutRead.cube_of_flat _ _ b n o (LibLayoutRead.flat_lt b n), outRows_at, Cert.ReferenceIdeal.Dense.v143_apply]
  have hrow : (fun k : Fin 64 => V7 m ρ c main_v135 (ix2 (⟨b.val * 50000 + n.val, LibLayoutRead.flat_lt b n⟩ : Fin 200000) k))
      = fun k => Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 b n k) :=
    funext fun k => rows_eq m ρ c b n k
  have hw : (fun (o k : Fin 64) => V7 m ρ c main_v3 (ix2 k o)) = fun o k => m ((c : Thread nD τ).loc main_arg13) (ix2 o k) :=
    funext fun o => funext fun k => by
      show W7 m ρ c (Proc.devRef .tc main_v3) (ix2 k o) = _
      rw [Chain.v3_eq]; exact LibLayoutRead.transpose64 _ _ k o
  have hb : (fun o : Fin 64 => V7 m ρ c main_v136 (ix2 (0 : Fin 1) o)) = fun o => m ((c : Thread nD τ).loc main_arg14) (ix1 o) :=
    funext fun o => by
      show W7 m ρ c (Proc.devRef .tc main_v136) (ix2 (0 : Fin 1) o) = _
      rw [Chain.v136_eq]; exact LibLayoutRead.row_of_vec _ _ o
  rw [hrow, hw, hb]

end Cert.KernelIdeal.Value
end
-- ==== Proof.lean ====
/-
  The certificate of a two-branch graph layer: a Pallas kernel pair against its jnp reference.

  The program takes node features `x : [4, N, 64]` (`N = 50000`), an edge list with weights, a list of labeled
  positions, and the weights of three linear layers. Every node's row goes through two branches (linear map, layer
  normalisation over the 64 channels, rectifier); the branches are mixed `0.8 · b₀ + 0.2 · b₁`, and at the labeled
  positions the mix is overwritten by `0.8 · b₁ + 0.2 · b₀`. The mixed rows are then averaged over incoming edges with
  the edge weights (a sum of `w_e · x[source e]` over the edges targeting a node, divided by the number of such edges,
  at least one), and an output layer (linear map, rectifier) follows.

  The kernel runs the dense stages as two tiled regions over the 200000 flattened rows, 5000 rows a point, computes the
  labeled rows separately on the gathered rows of the INPUT (the branches act row by row, so a branch of a gathered
  row is the gathered row of the branch), and aggregates in one pass with the four batches side by side, `[N, 256]`.
  The reference applies the branches to all of `[4, N, 64]`, gathers from the results, and aggregates batch by batch.
  At the extended reals every operation is exact and a change of float format is the identity, so the two programs
  compute the same function index by index: the linear maps and the layer normalisations are the same sums; the
  overwrite is the same set-scatter of equal updates into equal arrays (colliding labeled positions carry equal
  values on both sides, out-of-range positions are dropped on both sides); and the aggregation is, in either layout,
  the same sum over the same edges of the same products, since addition of extended reals is commutative and
  associative. No law that needs finiteness is used: the precondition is not opened.

  The three frame claims are the generated frames (the reference's is its generated run with the result dropped);
  the idealization rewrote no operation, so `preserves` is `True`.
-/
import proofs.«134245_j55130200211996_2_alg».proof.Defs
import proofs.«134245_j55130200211996_2_alg».proof.Proof.Gen.Kernel
import proofs.«134245_j55130200211996_2_alg».proof.Proof.Gen.Kernel.Skeleton
import proofs.«134245_j55130200211996_2_alg».proof.Proof.Gen.Kernel.Launch
import proofs.«134245_j55130200211996_2_alg».proof.Proof.Gen.Kernel.Points
import proofs.«134245_j55130200211996_2_alg».proof.Proof.Gen.Kernel.Frame
import proofs.«134245_j55130200211996_2_alg».proof.Proof.Gen.KernelIdeal
import proofs.«134245_j55130200211996_2_alg».proof.Proof.Gen.KernelIdeal.Skeleton
import proofs.«134245_j55130200211996_2_alg».proof.Proof.Gen.KernelIdeal.Launch
import proofs.«134245_j55130200211996_2_alg».proof.Proof.Gen.KernelIdeal.Points
import proofs.«134245_j55130200211996_2_alg».proof.Proof.Gen.KernelIdeal.Frame
import proofs.«134245_j55130200211996_2_alg».proof.Proof.Gen.ReferenceIdeal
import proofs.«134245_j55130200211996_2_alg».proof.Proof.Gen.Pre_finite_inputs
import proofs.«134245_j55130200211996_2_alg».proof.Proof.Gen.ReferenceIdeal.Run
import proofs.«134245_j55130200211996_2_alg».proof.Proof.Gen.ReferenceIdeal.Read
import proofs.«134245_j55130200211996_2_alg».proof.Proof.KRun
import proofs.«134245_j55130200211996_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's function of the arguments: the kernel by the value of its run, the reference
    by its own run, the arguments' agreement rewritten. -/
theorem algebraic : Cert.algebraic_KernelIdeal_ReferenceIdeal := by
  intro m ρ m' ρ' _ hagree
  refine ⟨fun c => Cert.ReferenceIdeal.Read.val_main_v143 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Value.kernel_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v143_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
